-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x40 .f32) (main_arg11 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 149
  | .vmem => 27
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S1x128, .f32⟩
  | 88 => ⟨S1x128, .f32⟩
  | 89 => ⟨S1x128, .f32⟩
  | 90 => ⟨S100000x128, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S_, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S100000x128, .f32⟩
  | 119 => ⟨S_, .f32⟩
  | 120 => ⟨S128, .f32⟩
  | 121 => ⟨S_, .f32⟩
  | 122 => ⟨S128, .f32⟩
  | 123 => ⟨S128, .f32⟩
  | 124 => ⟨S1x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S100000x40, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000x40, .f32⟩
  | 10 => ⟨S1700000x1, .f32⟩
  | 11 => ⟨S1700000x40, .f32⟩
  | 12 => ⟨S1700000x40, .f32⟩
  | 13 => ⟨S_, .f32⟩
  | 14 => ⟨S100000x40, .f32⟩
  | 15 => ⟨S1700000x1, .i32⟩
  | 16 => ⟨S100000x40, .f32⟩
  | 17 => ⟨S1x40, .f32⟩
  | 18 => ⟨S100000x40, .f32⟩
  | 19 => ⟨S100000x40, .f32⟩
  | 20 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x40, .f32⟩
  | .local _ .vmem, ⟨21, _⟩ => ⟨S5000x40, .f32⟩
  | .local _ .vmem, ⟨22, _⟩ => ⟨S5000x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_18 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_20 : Ref sig .tc := ⟨.hbm, 129, rfl⟩
abbrev main_v93 : Ref sig .tc := ⟨.hbm, 130, rfl⟩
abbrev main_v94 : Ref sig .tc := ⟨.hbm, 131, rfl⟩
abbrev main_c_21 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_22 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x40 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x40.size a ≤ S128x40.size a
  hwx2_5 : ∀ i : grid2.Coords, EltTy.bits .f32 = 32 ∨ (Rect.block (s := S128x40) S128x40.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x40.size a ≤ S100000x40.size a
  hwx2_6 : ∀ i : grid2.Coords, EltTy.bits .f32 = 32 ∨ (Rect.block (s := S100000x40) S5000x40.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x40.size a ≤ S100000x40.size a
  hwx3_1 : ∀ i : grid3.Coords, EltTy.bits .f32 = 32 ∨ (Rect.block (s := S100000x40) S5000x40.size (cc3_transform_1 i) (hinb3_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v77) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v91) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v92) S5000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v108) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v109) S5000x40.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 193
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x1, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S128, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S100000x128, .f32⟩
  | 6 => ⟨S_, .f32⟩
  | 7 => ⟨S128, .f32⟩
  | 8 => ⟨S_, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S128, .f32⟩
  | 19 => ⟨S128, .f32⟩
  | 20 => ⟨S128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x40, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000x40, .f32⟩
  | 40 => ⟨S1700000x1, .f32⟩
  | 41 => ⟨S1700000x40, .f32⟩
  | 42 => ⟨S1700000x40, .f32⟩
  | 43 => ⟨S_, .f32⟩
  | 44 => ⟨S100000x40, .f32⟩
  | 45 => ⟨S1700000x1, .i32⟩
  | 46 => ⟨S100000x40, .f32⟩
  | 47 => ⟨S1x40, .f32⟩
  | 48 => ⟨S100000x40, .f32⟩
  | 49 => ⟨S100000x40, .f32⟩
  | 50 => ⟨S_, .f32⟩
  | 51 => ⟨S100000, .f32⟩
  | 52 => ⟨S_, .f32⟩
  | 53 => ⟨S100000, .f32⟩
  | 54 => ⟨S100000, .f32⟩
  | 55 => ⟨S100000x1, .f32⟩
  | 56 => ⟨S100000x40, .f32⟩
  | 57 => ⟨S100000x40, .f32⟩
  | 58 => ⟨S100000x40, .f32⟩
  | 59 => ⟨S_, .f32⟩
  | 60 => ⟨S100000, .f32⟩
  | 61 => ⟨S100000x1, .f32⟩
  | 62 => ⟨S100000x1, .f32⟩
  | 63 => ⟨S100000x40, .f32⟩
  | 64 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call1_cst : Ref sig .tc := ⟨.hbm, 102, rfl⟩
abbrev main_call1_v0 : Ref sig .tc := ⟨.hbm, 103, rfl⟩
abbrev main_v72 : Ref sig .tc := ⟨.hbm, 104, rfl⟩
abbrev main_v73 : Ref sig .tc := ⟨.hbm, 105, rfl⟩
abbrev main_c_14 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_16 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_17 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_19 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_21 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call2_cst : Ref sig .tc := ⟨.hbm, 155, rfl⟩
abbrev main_call2_v0 : Ref sig .tc := ⟨.hbm, 156, rfl⟩
abbrev main_v115 : Ref sig .tc := ⟨.hbm, 157, rfl⟩
abbrev main_v116 : Ref sig .tc := ⟨.hbm, 158, rfl⟩
abbrev main_c_22 : Ref sig .tc := ⟨.hbm, 159, rfl⟩
abbrev main_v117 : Ref sig .tc := ⟨.hbm, 160, rfl⟩
abbrev main_v118 : Ref sig .tc := ⟨.hbm, 161, rfl⟩
abbrev main_c_23 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_24 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_call3_cst : Ref sig .tc := ⟨.hbm, 178, rfl⟩
abbrev main_call3_v0 : Ref sig .tc := ⟨.hbm, 179, rfl⟩
abbrev main_call3_cst_0 : Ref sig .tc := ⟨.hbm, 180, rfl⟩
abbrev main_call3_v1 : Ref sig .tc := ⟨.hbm, 181, rfl⟩
abbrev main_call3_v2 : Ref sig .tc := ⟨.hbm, 182, rfl⟩
abbrev main_call3_v3 : Ref sig .tc := ⟨.hbm, 183, rfl⟩
abbrev main_call3_v4 : Ref sig .tc := ⟨.hbm, 184, rfl⟩
abbrev main_call3_v5 : Ref sig .tc := ⟨.hbm, 185, rfl⟩
abbrev main_call3_v6 : Ref sig .tc := ⟨.hbm, 186, rfl⟩
abbrev main_call3_cst_1 : Ref sig .tc := ⟨.hbm, 187, rfl⟩
abbrev main_call3_v7 : Ref sig .tc := ⟨.hbm, 188, rfl⟩
abbrev main_call3_v8 : Ref sig .tc := ⟨.hbm, 189, rfl⟩
abbrev main_call3_v9 : Ref sig .tc := ⟨.hbm, 190, rfl⟩
abbrev main_call3_v10 : Ref sig .tc := ⟨.hbm, 191, rfl⟩
abbrev main_v133 : Ref sig .tc := ⟨.hbm, 192, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.ResultRun.lean ====
/-
  The tiled program's run with its RESULT named. The program is ten segments: stretches of host operations and four
  tiled regions. Its run ends with every buffer that outlives a region at the contents the last boundary assigns
  it; this module reads the result array off that boundary as well as the twelve argument arrays, so that the value
  of the result can be computed from the boundary contents alone: the result is what the last region's write-backs
  leave in its output array.
-/
import proofs.«153693_j23948737643064_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, without a fault, with the result array at the last boundary's contents and the
    argument arrays as launched. -/
theorem run_result : θ_run defs (onTc (τ := τ) (main (F := F))) ⟨m, fun _ => 0, ρ⟩ (fun r => ∀ c : Dev nD,
      r.2.mem ((c.tc : Thread nD τ).loc main_v109) = W10 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v109 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.Whole

end
-- ==== Proof.Spec.lean ====
/-
  The four dense stages of the network, each as ONE function of whole arrays, index by index, on the extended reals.

  * `lin128` / `lin40`: a feature product. Entry (r, c) is the sum over the 128 input features k of A(r, k) · B(k, c).
  * `act`: batch normalisation with given per-feature mean μ and variance v, affine (γ, β), then the clamp at zero:
    entry (r, k) is max (γ_k · (h(r, k) − μ_k) · rsqrt (v_k + ε) + β_k, 0), ε the f32 word nearest 1e-5.
  * `rowMax`: a row's maximum, folded from −∞ over the 40 classes.
  * `lsm`: the row log-softmax. Entry (r, c) is (h(r, c) − M_r) − log (∑_j exp (h(r, j) − M_r)), M_r the row maximum.

  Both programs compute these stages (the tiled one block of 5000 rows at a time, the plain one on whole arrays), and no
  stage mixes rows except through sums that are written the same way on both sides, so the two agree without any
  finiteness assumption: every equation below is between the same extended-real expressions.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Feature product into 128 features: (r, c) ↦ ∑ₖ A(r, k) · B(k, c). -/
def lin128 (A : (⟨2, ![100000, 128]⟩ : Shape).Idx → EReal) (B : (⟨2, ![128, 128]⟩ : Shape).Idx → EReal) :
    (⟨2, ![100000, 128]⟩ : Shape).Idx → EReal :=
  fun i => ∑ k : Fin 128, A (ix2 (i 0) k) * B (ix2 k (i 1))

/-- Feature product into the 40 classes: (r, c) ↦ ∑ₖ A(r, k) · B(k, c). -/
def lin40 (A : (⟨2, ![100000, 128]⟩ : Shape).Idx → EReal) (B : (⟨2, ![128, 40]⟩ : Shape).Idx → EReal) :
    (⟨2, ![100000, 40]⟩ : Shape).Idx → EReal :=
  fun i => ∑ k : Fin 128, A (ix2 (i 0) k) * B (ix2 k (i 1))

/-- Normalise by (μ, v), scale and shift by (γ, β), clamp at zero. -/
def act (h : (⟨2, ![100000, 128]⟩ : Shape).Idx → EReal) (μ v γ β : (⟨1, ![128]⟩ : Shape).Idx → EReal) :
    (⟨2, ![100000, 128]⟩ : Shape).Idx → EReal :=
  fun i => max (γ (ix1 (i 1)) * (h i - μ (ix1 (i 1))) * Ideal.rsqrt (v (ix1 (i 1)) + Ideal.ofBits .f32 0x3727C5AC#32)
      + β (ix1 (i 1))) (Ideal.ofBits .f32 0x00000000#32)

/-- A row's maximum over the 40 classes, folded from the word of −∞. -/
def rowMax (h : (⟨2, ![100000, 40]⟩ : Shape).Idx → EReal) (r : Fin 100000) : EReal :=
  (Finset.univ : Finset (Fin 40)).fold max (Ideal.ofBits .f32 0xFF800000#32) (fun j => h (ix2 r j))

/-- Row log-softmax. -/
def lsm (h : (⟨2, ![100000, 40]⟩ : Shape).Idx → EReal) : (⟨2, ![100000, 40]⟩ : Shape).Idx → EReal :=
  fun i => (h i - rowMax h (i 0)) - Ideal.log (∑ j : Fin 40, Ideal.exp (h (ix2 (i 0) j) - rowMax h (i 0)))

end Cert.Spec

end
-- ==== Proof.ReadBack.lean ====
/-
  Two small tactics for reading a buffer back through a stretch of host operations. After a stretch, an operation's own
  buffer holds its function of its operands as they were before it; every other buffer holds what it held. Reading a
  buffer back means applying these two facts operation by operation, last first, until only the contents before the
  stretch are mentioned.
-/
import Idealize.ShloMosaic.Lib.StableHlo.Run

namespace Cert.KernelIdeal.Whole

open Idealize.ShloMosaic Idealize.ShloMosaic.StableHlo

/-- Reads a buffer back through a stretch of host operations to the contents before it. -/
macro "read_back" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-- Finishes `read_back` inside a literal list of operands (a concatenation's), which the rewriting above does not enter. -/
macro "read_lists" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

end Cert.KernelIdeal.Whole
-- ==== Proof.HostStagesEntry.lean ====
/-
  The stretches of host operations before the first dense stage, read as the plain program's stages: the source and
  destination lists with a self loop appended for every node, each node's degree as a scatter-add of ones over the
  destinations, its inverse square root where the degree is positive (zero elsewhere), and every edge's weight, the
  product of the two at its end points. Each lemma takes ANY contents `V` of the buffers before a stretch and says
  which stage a buffer holds after it; a buffer that no operation of the stretch writes keeps its contents.
-/
import proofs.«153693_j23948737643064_1_alg».proof.Proof.Gen.KernelIdeal.Frame
import proofs.«153693_j23948737643064_1_alg».proof.Proof.ReadP
import proofs.«153693_j23948737643064_1_alg».proof.Proof.ReadBack
import Idealize.ShloMosaic.Lib.StableHlo.Run

set_option maxRecDepth 16384

noncomputable section

namespace Cert.KernelIdeal.Whole

open Cert.KernelIdeal Cert.KernelIdeal.Gen Cert.ReferenceIdeal.ReadP
open Idealize.ShloMosaic Idealize.ShloMosaic.TcCoe Idealize.SL.Sem Idealize.ShloMosaic.StableHlo

variable (V : Valuation τ sig (Elt Ideal))
variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 x4 x5 : (⟨Cert.ReferenceIdeal.S128, .f32⟩ : BufTy).Contents (Elt Ideal))
  (x6 : (⟨Cert.ReferenceIdeal.S128x128, .f32⟩ : BufTy).Contents (Elt Ideal))
  (x7 x8 x9 : (⟨Cert.ReferenceIdeal.S128, .f32⟩ : BufTy).Contents (Elt Ideal))
  (x10 : (⟨Cert.ReferenceIdeal.S128x40, .f32⟩ : BufTy).Contents (Elt Ideal))
  (x11 : (⟨Cert.ReferenceIdeal.S40, .f32⟩ : BufTy).Contents (Elt Ideal))

/-! ## The opening stretch: edge lists with self loops, node degrees -/

theorem open_src (h1 : V (Proc.devRef .tc main_arg1) = x1) :
    StableHlo.after hostOps0 V (Proc.devRef .tc main_v3) = val_main_v3 (F := Ideal) x1 := by
  read_back; read_lists; rw [h1]; rfl
theorem open_dst (h1 : V (Proc.devRef .tc main_arg1) = x1) :
    StableHlo.after hostOps0 V (Proc.devRef .tc main_v6) = val_main_v6 (F := Ideal) x1 := by
  read_back; read_lists; rw [h1]; rfl
theorem open_pos (h1 : V (Proc.devRef .tc main_arg1) = x1) :
    StableHlo.after hostOps0 V (Proc.devRef .tc main_v12) = val_main_v12 (F := Ideal) x1 := by
  read_back; read_lists; rw [h1]; rfl
theorem open_inv (h1 : V (Proc.devRef .tc main_arg1) = x1) :
    StableHlo.after hostOps0 V (Proc.devRef .tc main_v13) = val_main_v13 (F := Ideal) x1 := by
  read_back; read_lists; rw [h1]; rfl
theorem open_zero :
    StableHlo.after hostOps0 V (Proc.devRef .tc main_cst_2) = val_main_cst_2 (F := Ideal) := by
  read_back; rfl

/-- The opening stretch writes no argument array. -/
theorem open_keeps (b : Ref sig .tc) (hb : b = main_arg0 ∨ b = main_arg2 ∨ b = main_arg3 ∨ b = main_arg4 ∨ b = main_arg5 ∨ b = main_arg6 ∨ b = main_arg7 ∨ b = main_arg8 ∨ b = main_arg9 ∨ b = main_arg10 ∨ b = main_arg11) :
    StableHlo.after hostOps0 V (Proc.devRef .tc b) = V (Proc.devRef .tc b) := by
  rcases hb with rfl | rfl | rfl | rfl | rfl | rfl | rfl | rfl | rfl | rfl | rfl <;> read_back

/-- The selection writes neither an argument array nor an edge list. -/
theorem sel_keeps (b : Ref sig .tc) (hb : b = main_arg0 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v6) :
    StableHlo.after hostOps0_1 V (Proc.devRef .tc b) = V (Proc.devRef .tc b) := by
  rcases hb with rfl | rfl | rfl | rfl | rfl | rfl | rfl | rfl | rfl | rfl | rfl | rfl | rfl <;> read_back

/-! ## The edge weights -/

theorem edge_weight (h14 : V (Proc.devRef .tc main_v14) = val_main_v14 (F := Ideal) x1)
    (h3 : V (Proc.devRef .tc main_v3) = val_main_v3 (F := Ideal) x1)
    (h6 : V (Proc.devRef .tc main_v6) = val_main_v6 (F := Ideal) x1) :
    StableHlo.after hostOps0_2 V (Proc.devRef .tc main_v29) = val_main_v29 (F := Ideal) x1 := by
  read_back; rw [h14, h3, h6]
  simp only [val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29]
  first | done | (generalize val_main_v14 (F := Ideal) x1 = y0; generalize val_main_v3 (F := Ideal) x1 = y1; generalize val_main_v6 (F := Ideal) x1 = y2; rfl)

/-- The weights' stretch writes neither an argument array nor an edge list. -/
theorem weight_keeps (b : Ref sig .tc) (hb : b = main_arg0 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v6) :
    StableHlo.after hostOps0_2 V (Proc.devRef .tc b) = V (Proc.devRef .tc b) := by
  rcases hb with rfl | rfl | rfl | rfl | rfl | rfl | rfl | rfl | rfl | rfl | rfl | rfl | rfl <;> read_back

end Cert.KernelIdeal.Whole

end
-- ==== Proof.HostStagesSelect.lean ====
/-
  The stretch of three host operations of the called selection: the scalar zero is copied, repeated into a vector of
  100000 entries, and the result is, entry by entry, the second operand where the mask holds and that zero elsewhere.
  With the mask "the degree is positive" and the second operand the inverse square roots of the degrees, the result
  is the plain program's selected inverse square roots. The lemma is first stated over ARBITRARY operands (a mask, a
  vector, a scalar), where the stretch is read back directly, and then instantiated.
-/
import proofs.«153693_j23948737643064_1_alg».proof.Proof.Gen.KernelIdeal.Frame
import proofs.«153693_j23948737643064_1_alg».proof.Proof.ReadP
import proofs.«153693_j23948737643064_1_alg».proof.Proof.ReadBack
import Idealize.ShloMosaic.Lib.StableHlo.Run

set_option maxRecDepth 16384

noncomputable section

namespace Cert.KernelIdeal.Whole

open Cert.KernelIdeal Cert.KernelIdeal.Gen Cert.ReferenceIdeal.ReadP
open Idealize.ShloMosaic Idealize.ShloMosaic.TcCoe Idealize.SL.Sem Idealize.ShloMosaic.StableHlo

variable (V : Valuation τ sig (Elt Ideal))
variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 x4 x5 : (⟨Cert.ReferenceIdeal.S128, .f32⟩ : BufTy).Contents (Elt Ideal))
  (x6 : (⟨Cert.ReferenceIdeal.S128x128, .f32⟩ : BufTy).Contents (Elt Ideal))
  (x7 x8 x9 : (⟨Cert.ReferenceIdeal.S128, .f32⟩ : BufTy).Contents (Elt Ideal))
  (x10 : (⟨Cert.ReferenceIdeal.S128x40, .f32⟩ : BufTy).Contents (Elt Ideal))
  (x11 : (⟨Cert.ReferenceIdeal.S40, .f32⟩ : BufTy).Contents (Elt Ideal))

/-- The selection stretch over arbitrary operands: the result buffer holds the selection, by the mask, between the
    second operand and the splat of the scalar. -/
theorem sel_aux (y12 : (⟨S100000, .i1⟩ : BufTy).Contents (Elt Ideal)) (y13 : (⟨S100000, .f32⟩ : BufTy).Contents (Elt Ideal))
    (z : (⟨S_, .f32⟩ : BufTy).Contents (Elt Ideal))
    (h12 : V (Proc.devRef .tc main_v12) = y12) (h13 : V (Proc.devRef .tc main_v13) = y13)
    (hz : V (Proc.devRef .tc main_cst_2) = z) :
    StableHlo.after hostOps0_1 V (Proc.devRef .tc main_v14)
      = select y12 y13 (broadcastInDim S100000 ![] Gen.bcast_S_S100000 (id z)) := by
  read_back
  rw [h12, h13, hz]
  rfl

/-! ## The selection of the inverse square roots -/

/-- The inverse square roots of the degrees where the degree is positive, zero elsewhere. -/
theorem sel_inv (h12 : V (Proc.devRef .tc main_v12) = val_main_v12 (F := Ideal) x1)
    (h13 : V (Proc.devRef .tc main_v13) = val_main_v13 (F := Ideal) x1)
    (hz : V (Proc.devRef .tc main_cst_2) = val_main_cst_2 (F := Ideal)) :
    StableHlo.after hostOps0_1 V (Proc.devRef .tc main_v14) = val_main_v14 (F := Ideal) x1 := by
  refine (sel_aux V _ _ _ h12 h13 hz).trans ?_
  unfold val_main_v14 val_main_call0_v1 val_main_call0_v0
  generalize val_main_v12 (F := Ideal) x1 = y12
  generalize val_main_v13 (F := Ideal) x1 = y13
  rfl

end Cert.KernelIdeal.Whole

end
-- ==== Proof.HostStagesFirst.lean ====
/-
  The host operations between the first and the second dense stage, read as the plain program's stages: the first
  layer's rows aggregated over the edges (each destination row is the sum over its incoming edges of the source row
  times the edge weight) plus the bias, their per-feature mean (the column sums divided by the number of nodes) and
  variance (the mean of the squared deviations), both recast as one-row arrays, and the scale and shift recast the
  same way. Each lemma takes ANY contents `V` before the stretch that hold the plain program's stages at the buffers
  the stretch reads.
-/
import proofs.«153693_j23948737643064_1_alg».proof.Proof.Gen.KernelIdeal.Frame
import proofs.«153693_j23948737643064_1_alg».proof.Proof.ReadP
import proofs.«153693_j23948737643064_1_alg».proof.Proof.ReadBack
import Idealize.ShloMosaic.Lib.StableHlo.Run

set_option maxRecDepth 16384

noncomputable section

namespace Cert.KernelIdeal.Whole

open Cert.KernelIdeal Cert.KernelIdeal.Gen Cert.ReferenceIdeal.ReadP
open Idealize.ShloMosaic Idealize.ShloMosaic.TcCoe Idealize.SL.Sem Idealize.ShloMosaic.StableHlo

variable (V : Valuation τ sig (Elt Ideal))
variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 x4 x5 : (⟨Cert.ReferenceIdeal.S128, .f32⟩ : BufTy).Contents (Elt Ideal))
  (x6 : (⟨Cert.ReferenceIdeal.S128x128, .f32⟩ : BufTy).Contents (Elt Ideal))
  (x7 x8 x9 : (⟨Cert.ReferenceIdeal.S128, .f32⟩ : BufTy).Contents (Elt Ideal))
  (x10 : (⟨Cert.ReferenceIdeal.S128x40, .f32⟩ : BufTy).Contents (Elt Ideal))
  (x11 : (⟨Cert.ReferenceIdeal.S40, .f32⟩ : BufTy).Contents (Elt Ideal))

/-- The aggregated rows of the first layer. -/
theorem rows_first (h30 : V (Proc.devRef .tc main_v30) = val_main_v30 (F := Ideal) x0 x2)
    (h3 : V (Proc.devRef .tc main_v3) = val_main_v3 (F := Ideal) x1)
    (h6 : V (Proc.devRef .tc main_v6) = val_main_v6 (F := Ideal) x1)
    (h29 : V (Proc.devRef .tc main_v29) = val_main_v29 (F := Ideal) x1)
    (ha3 : V (Proc.devRef .tc main_arg3) = x3) :
    StableHlo.after hostOps1 V (Proc.devRef .tc main_v46) = val_main_v46 (F := Ideal) x0 x1 x2 x3 := by
  read_back; rw [h30, h3, h6, h29, ha3]
  simp only [val_main_c_6, val_main_v31, val_main_v32, val_main_c_7, val_main_v33, val_main_v34, val_main_v35, val_main_v36, val_main_v37, val_main_v38, val_main_v39, val_main_v40, val_main_cst_8, val_main_v41, val_main_v42, val_main_v43, val_main_v44, val_main_v45, val_main_v46, val_main_cst_9, val_main_v47, val_main_cst_10, val_main_v48, val_main_v49, val_main_v50, val_main_v51, val_main_v52, val_main_v53, val_main_cst_11, val_main_v54, val_main_cst_12, val_main_v55, val_main_v56]
  first | done | (generalize val_main_v30 (F := Ideal) x0 x2 = y0; generalize val_main_v3 (F := Ideal) x1 = y1; generalize val_main_v6 (F := Ideal) x1 = y2; generalize val_main_v29 (F := Ideal) x1 = y3; rfl)

/-- Their per-feature mean, as a one-row array. -/
theorem mean_first (h30 : V (Proc.devRef .tc main_v30) = val_main_v30 (F := Ideal) x0 x2)
    (h3 : V (Proc.devRef .tc main_v3) = val_main_v3 (F := Ideal) x1)
    (h6 : V (Proc.devRef .tc main_v6) = val_main_v6 (F := Ideal) x1)
    (h29 : V (Proc.devRef .tc main_v29) = val_main_v29 (F := Ideal) x1)
    (ha3 : V (Proc.devRef .tc main_arg3) = x3) :
    StableHlo.after hostOps1 V (Proc.devRef .tc main_v57)
      = shapeCast S1x128 (val_main_v49 (F := Ideal) x0 x1 x2 x3) shapeCasts_S128_S1x128 := by
  read_back; rw [h30, h3, h6, h29, ha3]
  simp only [val_main_c_6, val_main_v31, val_main_v32, val_main_c_7, val_main_v33, val_main_v34, val_main_v35, val_main_v36, val_main_v37, val_main_v38, val_main_v39, val_main_v40, val_main_cst_8, val_main_v41, val_main_v42, val_main_v43, val_main_v44, val_main_v45, val_main_v46, val_main_cst_9, val_main_v47, val_main_cst_10, val_main_v48, val_main_v49, val_main_v50, val_main_v51, val_main_v52, val_main_v53, val_main_cst_11, val_main_v54, val_main_cst_12, val_main_v55, val_main_v56]
  first | done | (generalize val_main_v30 (F := Ideal) x0 x2 = y0; generalize val_main_v3 (F := Ideal) x1 = y1; generalize val_main_v6 (F := Ideal) x1 = y2; generalize val_main_v29 (F := Ideal) x1 = y3; rfl)

/-- Their per-feature variance, as a one-row array. -/
theorem var_first (h30 : V (Proc.devRef .tc main_v30) = val_main_v30 (F := Ideal) x0 x2)
    (h3 : V (Proc.devRef .tc main_v3) = val_main_v3 (F := Ideal) x1)
    (h6 : V (Proc.devRef .tc main_v6) = val_main_v6 (F := Ideal) x1)
    (h29 : V (Proc.devRef .tc main_v29) = val_main_v29 (F := Ideal) x1)
    (ha3 : V (Proc.devRef .tc main_arg3) = x3) :
    StableHlo.after hostOps1 V (Proc.devRef .tc main_v58)
      = shapeCast S1x128 (val_main_v56 (F := Ideal) x0 x1 x2 x3) shapeCasts_S128_S1x128 := by
  read_back; rw [h30, h3, h6, h29, ha3]
  simp only [val_main_c_6, val_main_v31, val_main_v32, val_main_c_7, val_main_v33, val_main_v34, val_main_v35, val_main_v36, val_main_v37, val_main_v38, val_main_v39, val_main_v40, val_main_cst_8, val_main_v41, val_main_v42, val_main_v43, val_main_v44, val_main_v45, val_main_v46, val_main_cst_9, val_main_v47, val_main_cst_10, val_main_v48, val_main_v49, val_main_v50, val_main_v51, val_main_v52, val_main_v53, val_main_cst_11, val_main_v54, val_main_cst_12, val_main_v55, val_main_v56]
  first | done | (generalize val_main_v30 (F := Ideal) x0 x2 = y0; generalize val_main_v3 (F := Ideal) x1 = y1; generalize val_main_v6 (F := Ideal) x1 = y2; generalize val_main_v29 (F := Ideal) x1 = y3; rfl)

/-- The scale, as a one-row array. -/
theorem scale_first (ha4 : V (Proc.devRef .tc main_arg4) = x4) :
    StableHlo.after hostOps1 V (Proc.devRef .tc main_v59) = shapeCast S1x128 x4 shapeCasts_S128_S1x128 := by
  read_back; rw [ha4]; rfl

/-- The shift, as a one-row array. -/
theorem shift_first (ha5 : V (Proc.devRef .tc main_arg5) = x5) :
    StableHlo.after hostOps1 V (Proc.devRef .tc main_v60) = shapeCast S1x128 x5 shapeCasts_S128_S1x128 := by
  read_back; rw [ha5]; rfl

/-- The stretch writes neither an edge list, nor the edge weights, nor a later argument array. -/
theorem first_keeps (b : Ref sig .tc) (hb : b = main_v3 ∨ b = main_v6 ∨ b = main_v29 ∨ b = main_arg6 ∨ b = main_arg7 ∨ b = main_arg8 ∨ b = main_arg9 ∨ b = main_arg10 ∨ b = main_arg11) :
    StableHlo.after hostOps1 V (Proc.devRef .tc b) = V (Proc.devRef .tc b) := by
  rcases hb with rfl | rfl | rfl | rfl | rfl | rfl | rfl | rfl | rfl <;> read_back

end Cert.KernelIdeal.Whole

end
-- ==== Proof.HostStagesSecond.lean ====
/-
  The host operations between the second and the third dense stage, read as the plain program's stages: the second
  layer's rows aggregated over the edges (each destination row is the sum over its incoming edges of the source row
  times the edge weight) plus the bias, their per-feature mean (the column sums divided by the number of nodes) and
  variance (the mean of the squared deviations), both recast as one-row arrays, and the scale and shift recast the
  same way. Each lemma takes ANY contents `V` before the stretch that hold the plain program's stages at the buffers
  the stretch reads.
-/
import proofs.«153693_j23948737643064_1_alg».proof.Proof.Gen.KernelIdeal.Frame
import proofs.«153693_j23948737643064_1_alg».proof.Proof.ReadP
import proofs.«153693_j23948737643064_1_alg».proof.Proof.ReadBack
import Idealize.ShloMosaic.Lib.StableHlo.Run

set_option maxRecDepth 16384

noncomputable section

namespace Cert.KernelIdeal.Whole

open Cert.KernelIdeal Cert.KernelIdeal.Gen Cert.ReferenceIdeal.ReadP
open Idealize.ShloMosaic Idealize.ShloMosaic.TcCoe Idealize.SL.Sem Idealize.ShloMosaic.StableHlo

variable (V : Valuation τ sig (Elt Ideal))
variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 x4 x5 : (⟨Cert.ReferenceIdeal.S128, .f32⟩ : BufTy).Contents (Elt Ideal))
  (x6 : (⟨Cert.ReferenceIdeal.S128x128, .f32⟩ : BufTy).Contents (Elt Ideal))
  (x7 x8 x9 : (⟨Cert.ReferenceIdeal.S128, .f32⟩ : BufTy).Contents (Elt Ideal))
  (x10 : (⟨Cert.ReferenceIdeal.S128x40, .f32⟩ : BufTy).Contents (Elt Ideal))
  (x11 : (⟨Cert.ReferenceIdeal.S40, .f32⟩ : BufTy).Contents (Elt Ideal))

/-- The aggregated rows of the second layer. -/
theorem rows_second (h61 : V (Proc.devRef .tc main_v61) = val_main_v73 (F := Ideal) x0 x1 x2 x3 x4 x5 x6)
    (h3 : V (Proc.devRef .tc main_v3) = val_main_v3 (F := Ideal) x1)
    (h6 : V (Proc.devRef .tc main_v6) = val_main_v6 (F := Ideal) x1)
    (h29 : V (Proc.devRef .tc main_v29) = val_main_v29 (F := Ideal) x1)
    (ha7 : V (Proc.devRef .tc main_arg7) = x7) :
    StableHlo.after hostOps2 V (Proc.devRef .tc main_v77) = val_main_v89 (F := Ideal) x0 x1 x2 x3 x4 x5 x6 x7 := by
  read_back; rw [h61, h3, h6, h29, ha7]
  simp only [val_main_c_14, val_main_v74, val_main_v75, val_main_c_15, val_main_v76, val_main_v77, val_main_v78, val_main_v79, val_main_v80, val_main_v81, val_main_v82, val_main_v83, val_main_cst_16, val_main_v84, val_main_v85, val_main_v86, val_main_v87, val_main_v88, val_main_v89, val_main_cst_17, val_main_v90, val_main_cst_18, val_main_v91, val_main_v92, val_main_v93, val_main_v94, val_main_v95, val_main_v96, val_main_cst_19, val_main_v97, val_main_cst_20, val_main_v98, val_main_v99]
  first | done | (generalize val_main_v73 (F := Ideal) x0 x1 x2 x3 x4 x5 x6 = y0; generalize val_main_v3 (F := Ideal) x1 = y1; generalize val_main_v6 (F := Ideal) x1 = y2; generalize val_main_v29 (F := Ideal) x1 = y3; rfl)

/-- Their per-feature mean, as a one-row array. -/
theorem mean_second (h61 : V (Proc.devRef .tc main_v61) = val_main_v73 (F := Ideal) x0 x1 x2 x3 x4 x5 x6)
    (h3 : V (Proc.devRef .tc main_v3) = val_main_v3 (F := Ideal) x1)
    (h6 : V (Proc.devRef .tc main_v6) = val_main_v6 (F := Ideal) x1)
    (h29 : V (Proc.devRef .tc main_v29) = val_main_v29 (F := Ideal) x1)
    (ha7 : V (Proc.devRef .tc main_arg7) = x7) :
    StableHlo.after hostOps2 V (Proc.devRef .tc main_v88)
      = shapeCast S1x128 (val_main_v92 (F := Ideal) x0 x1 x2 x3 x4 x5 x6 x7) shapeCasts_S128_S1x128 := by
  read_back; rw [h61, h3, h6, h29, ha7]
  simp only [val_main_c_14, val_main_v74, val_main_v75, val_main_c_15, val_main_v76, val_main_v77, val_main_v78, val_main_v79, val_main_v80, val_main_v81, val_main_v82, val_main_v83, val_main_cst_16, val_main_v84, val_main_v85, val_main_v86, val_main_v87, val_main_v88, val_main_v89, val_main_cst_17, val_main_v90, val_main_cst_18, val_main_v91, val_main_v92, val_main_v93, val_main_v94, val_main_v95, val_main_v96, val_main_cst_19, val_main_v97, val_main_cst_20, val_main_v98, val_main_v99]
  first | done | (generalize val_main_v73 (F := Ideal) x0 x1 x2 x3 x4 x5 x6 = y0; generalize val_main_v3 (F := Ideal) x1 = y1; generalize val_main_v6 (F := Ideal) x1 = y2; generalize val_main_v29 (F := Ideal) x1 = y3; rfl)

/-- Their per-feature variance, as a one-row array. -/
theorem var_second (h61 : V (Proc.devRef .tc main_v61) = val_main_v73 (F := Ideal) x0 x1 x2 x3 x4 x5 x6)
    (h3 : V (Proc.devRef .tc main_v3) = val_main_v3 (F := Ideal) x1)
    (h6 : V (Proc.devRef .tc main_v6) = val_main_v6 (F := Ideal) x1)
    (h29 : V (Proc.devRef .tc main_v29) = val_main_v29 (F := Ideal) x1)
    (ha7 : V (Proc.devRef .tc main_arg7) = x7) :
    StableHlo.after hostOps2 V (Proc.devRef .tc main_v89)
      = shapeCast S1x128 (val_main_v99 (F := Ideal) x0 x1 x2 x3 x4 x5 x6 x7) shapeCasts_S128_S1x128 := by
  read_back; rw [h61, h3, h6, h29, ha7]
  simp only [val_main_c_14, val_main_v74, val_main_v75, val_main_c_15, val_main_v76, val_main_v77, val_main_v78, val_main_v79, val_main_v80, val_main_v81, val_main_v82, val_main_v83, val_main_cst_16, val_main_v84, val_main_v85, val_main_v86, val_main_v87, val_main_v88, val_main_v89, val_main_cst_17, val_main_v90, val_main_cst_18, val_main_v91, val_main_v92, val_main_v93, val_main_v94, val_main_v95, val_main_v96, val_main_cst_19, val_main_v97, val_main_cst_20, val_main_v98, val_main_v99]
  first | done | (generalize val_main_v73 (F := Ideal) x0 x1 x2 x3 x4 x5 x6 = y0; generalize val_main_v3 (F := Ideal) x1 = y1; generalize val_main_v6 (F := Ideal) x1 = y2; generalize val_main_v29 (F := Ideal) x1 = y3; rfl)

/-- The scale, as a one-row array. -/
theorem scale_second (ha8 : V (Proc.devRef .tc main_arg8) = x8) :
    StableHlo.after hostOps2 V (Proc.devRef .tc main_v90) = shapeCast S1x128 x8 shapeCasts_S128_S1x128 := by
  read_back; rw [ha8]; rfl

/-- The shift, as a one-row array. -/
theorem shift_second (ha9 : V (Proc.devRef .tc main_arg9) = x9) :
    StableHlo.after hostOps2 V (Proc.devRef .tc main_v91) = shapeCast S1x128 x9 shapeCasts_S128_S1x128 := by
  read_back; rw [ha9]; rfl

/-- The stretch writes neither an edge list, nor the edge weights, nor a later argument array. -/
theorem second_keeps (b : Ref sig .tc) (hb : b = main_v3 ∨ b = main_v6 ∨ b = main_v29 ∨ b = main_arg10 ∨ b = main_arg11) :
    StableHlo.after hostOps2 V (Proc.devRef .tc b) = V (Proc.devRef .tc b) := by
  rcases hb with rfl | rfl | rfl | rfl | rfl <;> read_back

end Cert.KernelIdeal.Whole

end
-- ==== Proof.HostStagesThird.lean ====
/-
  The host operations after the third dense stage, read as the plain program's stage: the class scores' rows
  aggregated over the edges (each destination row is the sum over its incoming edges of the source row times the
  edge weight) plus the class bias. The lemma takes ANY contents `V` before the stretch that hold the plain
  program's stages at the buffers the stretch reads.
-/
import proofs.«153693_j23948737643064_1_alg».proof.Proof.Gen.KernelIdeal.Frame
import proofs.«153693_j23948737643064_1_alg».proof.Proof.ReadP
import proofs.«153693_j23948737643064_1_alg».proof.Proof.ReadBack
import Idealize.ShloMosaic.Lib.StableHlo.Run

set_option maxRecDepth 16384

noncomputable section

namespace Cert.KernelIdeal.Whole

open Cert.KernelIdeal Cert.KernelIdeal.Gen Cert.ReferenceIdeal.ReadP
open Idealize.ShloMosaic Idealize.ShloMosaic.TcCoe Idealize.SL.Sem Idealize.ShloMosaic.StableHlo

variable (V : Valuation τ sig (Elt Ideal))
variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 x4 x5 : (⟨Cert.ReferenceIdeal.S128, .f32⟩ : BufTy).Contents (Elt Ideal))
  (x6 : (⟨Cert.ReferenceIdeal.S128x128, .f32⟩ : BufTy).Contents (Elt Ideal))
  (x7 x8 x9 : (⟨Cert.ReferenceIdeal.S128, .f32⟩ : BufTy).Contents (Elt Ideal))
  (x10 : (⟨Cert.ReferenceIdeal.S128x40, .f32⟩ : BufTy).Contents (Elt Ideal))
  (x11 : (⟨Cert.ReferenceIdeal.S40, .f32⟩ : BufTy).Contents (Elt Ideal))

/-- The aggregated rows of the third layer. -/
theorem rows_third (h92 : V (Proc.devRef .tc main_v92) = val_main_v116 (F := Ideal) x0 x1 x2 x3 x4 x5 x6 x7 x8 x9 x10)
    (h3 : V (Proc.devRef .tc main_v3) = val_main_v3 (F := Ideal) x1)
    (h6 : V (Proc.devRef .tc main_v6) = val_main_v6 (F := Ideal) x1)
    (h29 : V (Proc.devRef .tc main_v29) = val_main_v29 (F := Ideal) x1)
    (ha11 : V (Proc.devRef .tc main_arg11) = x11) :
    StableHlo.after hostOps3 V (Proc.devRef .tc main_v108)
      = val_main_v132 (F := Ideal) x0 x1 x2 x3 x4 x5 x6 x7 x8 x9 x10 x11 := by
  read_back; rw [h92, h3, h6, h29, ha11]
  simp only [val_main_c_22, val_main_v117, val_main_v118, val_main_c_23, val_main_v119, val_main_v120, val_main_v121, val_main_v122, val_main_v123, val_main_v124, val_main_v125, val_main_v126, val_main_cst_24, val_main_v127, val_main_v128, val_main_v129, val_main_v130, val_main_v131, val_main_v132]
  first | done | (generalize val_main_v116 (F := Ideal) x0 x1 x2 x3 x4 x5 x6 x7 x8 x9 x10 = y0; generalize val_main_v3 (F := Ideal) x1 = y1; generalize val_main_v6 (F := Ideal) x1 = y2; generalize val_main_v29 (F := Ideal) x1 = y3; rfl)

end Cert.KernelIdeal.Whole

end
-- ==== Proof.TileArithmetic.lean ====
/-
  The arithmetic of one tile, read at one entry.

  * A product of a 5000-row block with a whole weight matrix, accumulated from zero: entry (p, q) is the sum over the
    128 features k of left(p, k) · right(k, q) — stated for the 128-column and for the 40-column weight.
  * The normalised, scaled, shifted and clamped block that the second and third layers feed to that product:
    entry (p, k) is max (γ(0, k) · (h(p, k) − μ(0, k)) · rsqrt (v(0, k) + ε) + β(0, k), 0), the four per-feature rows being
    1 × 128 arrays repeated down the 5000 rows.
-/
import proofs.«153693_j23948737643064_1_alg».proof.Proof.Gen.KernelIdeal.Frame
import proofs.«153693_j23948737643064_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tiles

open Cert.KernelIdeal Cert.KernelIdeal.Gen Idealize.ShloMosaic Idealize.ShloMosaic.TcCoe Idealize.SL.Sem
open Idealize.ShloMosaic.ValueIdx

/-- The zero offsets of a whole-buffer access, however spelt. -/
theorem zeroOffsets : (![0, 0] : Fin 2 → Nat) = fun _ => 0 := funext fun a => by fin_cases a <;> rfl

/-- The left operand's row is the output's row … -/
theorem product128_lhs0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the right operand's column the output's column. -/
theorem product128_rhs1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the block product into 128 columns, accumulated from zero: ∑ₖ x(p, k) · y(k, q). -/
theorem product128_apply (x : FVec Ideal S5000x128 .f32) (y : FVec Ideal S128x128 .f32) (p : Fin 5000) (q : Fin 128) :
    matmul (F := Ideal) dot_S5000x128_S128x128_S5000x128_1_0_0_1_n_n none x y (constant (F := Ideal) S5000x128 .f32 0x00000000#32) (ix2 p q)
      = ∑ k : Fin 128, x (ix2 p k) * y (ix2 k q) := by
  refine (Ideal.matmul_constant_zero_apply dot_S5000x128_S128x128_S5000x128_1_0_0_1_n_n none x y (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact product128_lhs0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact product128_rhs1 _ _)
  rw [el, er]

/-- The left operand's row is the output's row … -/
theorem product40_lhs0 (i : S5000x40.Idx) (c : dot_S5000x128_S128x40_S5000x40_1_0_0_1_n_n.contr.Idx) : (dot_S5000x128_S128x40_S5000x40_1_0_0_1_n_n.lhsIdx i c 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- … and the right operand's column the output's column. -/
theorem product40_rhs1 (i : S5000x40.Idx) (c : dot_S5000x128_S128x40_S5000x40_1_0_0_1_n_n.contr.Idx) : (dot_S5000x128_S128x40_S5000x40_1_0_0_1_n_n.rhsIdx i c 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- Entry (p, q) of the block product into 40 columns, accumulated from zero: ∑ₖ x(p, k) · y(k, q). -/
theorem product40_apply (x : FVec Ideal S5000x128 .f32) (y : FVec Ideal S128x40 .f32) (p : Fin 5000) (q : Fin 40) :
    matmul (F := Ideal) dot_S5000x128_S128x40_S5000x40_1_0_0_1_n_n none x y (constant (F := Ideal) S5000x40 .f32 0x00000000#32) (ix2 p q)
      = ∑ k : Fin 128, x (ix2 p k) * y (ix2 k q) := by
  refine (Ideal.matmul_constant_zero_apply dot_S5000x128_S128x40_S5000x40_1_0_0_1_n_n none x y (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact product40_lhs0 _ _
    | ⟨1, _⟩ => exact (dot_S5000x128_S128x40_S5000x40_1_0_0_1_n_n.lhsIdx_val_of_single rfl _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (dot_S5000x128_S128x40_S5000x40_1_0_0_1_n_n.rhsIdx_val_of_single rfl _ _).trans hk
    | ⟨1, _⟩ => exact product40_rhs1 _ _)
  rw [el, er]

/-- The block the second and third layers multiply: the input block normalised by the per-feature mean and variance
    rows, scaled and shifted by the per-feature rows γ and β, and clamped at zero. -/
def clampedNormal (h : Vec Ideal S5000x128 .f32) (μ v γ β : Vec Ideal S1x128 .f32) : FVec Ideal S5000x128 .f32 :=
  maximumf
    (addf
      (mulf
        (mulf (broadcastTo S5000x128 (shapeCast S1x128 γ shapeCasts_S1x128_S1x128) broadcasts_S1x128_S5000x128)
          (subf (shapeCast S5000x128 h shapeCasts_S5000x128_S5000x128)
            (broadcastTo S5000x128 (shapeCast S1x128 μ shapeCasts_S1x128_S1x128) broadcasts_S1x128_S5000x128)))
        (broadcastTo S5000x128
          (rsqrt (addf (shapeCast S1x128 v shapeCasts_S1x128_S1x128) (broadcast S1x128 (Scalar.ofBits (F := Ideal) .f32 0x3727C5AC#32))))
          broadcasts_S1x128_S5000x128))
      (broadcastTo S5000x128 (shapeCast S1x128 β shapeCasts_S1x128_S1x128) broadcasts_S1x128_S5000x128))
    (broadcast S5000x128 (Scalar.ofBits (F := Ideal) .f32 0x00000000#32))

/-- The second layer's tile is the product of that block with its weight … -/
theorem k1_pay1_eq (h : Vec Ideal S5000x128 .f32) (μ v γ β : Vec Ideal S1x128 .f32) (w : Vec Ideal S128x128 .f32) :
    k1_pay1 (F := Ideal) h μ v γ β w
      = matmul (F := Ideal) (φ₁ := .f32) (φ₂ := .f32) dot_S5000x128_S128x128_S5000x128_1_0_0_1_n_n none (clampedNormal h μ v γ β) (w : FVec Ideal S128x128 .f32) (constant (F := Ideal) S5000x128 .f32 0x00000000#32) := rfl

/-- … and so is the third layer's, with the 40-column weight. -/
theorem k2_pay1_eq (h : Vec Ideal S5000x128 .f32) (μ v γ β : Vec Ideal S1x128 .f32) (w : Vec Ideal S128x40 .f32) :
    k2_pay1 (F := Ideal) h μ v γ β w
      = matmul (F := Ideal) (φ₁ := .f32) (φ₂ := .f32) dot_S5000x128_S128x40_S5000x40_1_0_0_1_n_n none (clampedNormal h μ v γ β) (w : FVec Ideal S128x40 .f32) (constant (F := Ideal) S5000x40 .f32 0x00000000#32) := rfl

/-- A 1 × 128 row repeated down 5000 rows reads, at (p, k), the row's entry (0, k). -/
theorem row_apply (r : Vec Ideal S1x128 .f32) (p : Fin 5000) (k : Fin 128) :
    broadcastTo S5000x128 r broadcasts_S1x128_S5000x128 (ix2 p k) = r (ix2 0 k) :=
  broadcastTo_apply r broadcasts_S1x128_S5000x128 (ix2 p k) (ix2 0 k) (fun a => by
    match a with
    | ⟨0, _⟩ => rfl
    | ⟨1, _⟩ => rfl)

/-- Entry (p, k) of the clamped normalised block. -/
theorem clampedNormal_apply (h : Vec Ideal S5000x128 .f32) (μ v γ β : Vec Ideal S1x128 .f32) (p : Fin 5000) (k : Fin 128) :
    clampedNormal h μ v γ β (ix2 p k)
      = max (γ (ix2 0 k) * (h (ix2 p k) - μ (ix2 0 k)) * Ideal.rsqrt (v (ix2 0 k) + Ideal.ofBits .f32 0x3727C5AC#32) + β (ix2 0 k))
          (Ideal.ofBits .f32 0x00000000#32) := by
  unfold clampedNormal
  simp only [shapeCast_self]
  show max (broadcastTo S5000x128 γ broadcasts_S1x128_S5000x128 (ix2 p k) * (h (ix2 p k) - broadcastTo S5000x128 μ broadcasts_S1x128_S5000x128 (ix2 p k))
      * broadcastTo S5000x128 (rsqrt (addf v (broadcast S1x128 (Scalar.ofBits (F := Ideal) .f32 0x3727C5AC#32)))) broadcasts_S1x128_S5000x128 (ix2 p k)
      + broadcastTo S5000x128 β broadcasts_S1x128_S5000x128 (ix2 p k)) (Ideal.ofBits .f32 0x00000000#32) = _
  rw [row_apply, row_apply, row_apply, row_apply]
  rfl

end Cert.KernelIdeal.Tiles

end
-- ==== Proof.FeatureProductTile.lean ====
/-
  The first layer's tiled feature product, as one function of whole arrays.

  The grid has 20 points; point t reads rows 5000·t … 5000·t + 4999 of the feature array and the whole 128 × 128 weight,
  and writes the same rows of the result: entry (5000·t + p, q) is ∑ₖ features(5000·t + p, k) · weight(k, q), which depends
  on row 5000·t + p of the features only. The 20 row blocks cover the 100000 rows (row r lies in block r / 5000), so after
  the last point the result array is the feature product of the two whole arrays.
-/
import proofs.«153693_j23948737643064_1_alg».proof.Proof.TileArithmetic

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- One entry of a tile of the first layer: if row (j 0) of the left block is row (i 0) of the array A, and column (j 1)
    of the right block is column (i 1) of the array B, the tile's entry j is the whole-array product's entry i. -/
theorem tile0_entry (x : Vec Ideal S5000x128 .f32) (y : Vec Ideal S128x128 .f32)
    (A : S100000x128.Idx → EReal) (B : S128x128.Idx → EReal) (j : S5000x128.Idx) (i : S100000x128.Idx)
    (hx : ∀ k : Fin 128, x (ix2 (j 0) k) = A (ix2 (i 0) k)) (hy : ∀ k : Fin 128, y (ix2 k (j 1)) = B (ix2 k (i 1))) :
    k0_pay1 (F := Ideal) x y j = Cert.Spec.lin128 A B i := by
  obtain ⟨p, q, rfl⟩ : ∃ (p : Fin 5000) (q : Fin 128), j = ix2 p q := ⟨j 0, j 1, eq_ix2 j⟩
  refine (product128_apply x y p q).trans ?_
  unfold Cert.Spec.lin128
  exact Finset.sum_congr rfl fun k _ => by rw [← hx k, ← hy k]

/-- The block indices over the grid: the tiled windows' block row is the point, every other block index is zero. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 5000·t … 5000·t + 4999 of the feature array. -/
theorem featureBlock0 (c : Dev nD) (t : Fin cfg0.N) (x : S5000x128.Idx) (i : S100000x128.Idx)
    (h0 : (i 0).val = 5000 * t.val + (x 0).val) (h1 : (i 1).val = (x 1).val) :
    (iblk0 V c 0 t : Vec Ideal S5000x128 .f32) x = (V c main_arg0 : S100000x128.Idx → EReal) i := by
  obtain ⟨e00, e01, -⟩ := blockIndex0 t
  unfold iblk0
  rw [View.read_apply]
  show V c main_arg0 _ = V c main_arg0 _
  congr 1
  funext a
  apply Fin.ext
  match a with
  | ⟨0, _⟩ => show win0_0.index t 0 * 5000 + 1 * (x 0).val = (i 0).val; rw [e00, h0]; omega
  | ⟨1, _⟩ => show win0_0.index t 1 * 128 + 1 * (x 1).val = (i 1).val; rw [e01, h1]; omega

/-- The weight window's block at every point is the whole weight. -/
theorem weightBlock0 (c : Dev nD) (t : Fin cfg0.N) (x : S128x128.Idx) :
    (iblk0 V c 1 t : Vec Ideal S128x128 .f32) x = (V c main_arg2 : S128x128.Idx → EReal) x := by
  obtain ⟨-, -, e10, e11, -⟩ := blockIndex0 t
  unfold iblk0
  rw [View.read_apply]
  show V c main_arg2 _ = V c main_arg2 _
  congr 1
  funext a
  apply Fin.ext
  match a with
  | ⟨0, _⟩ => show win0_1.index t 0 * 128 + 1 * (x 0).val = (x 0).val; rw [e10]; omega
  | ⟨1, _⟩ => show win0_1.index t 1 * 128 + 1 * (x 1).val = (x 1).val; rw [e11]; omega

/-- What point t writes back is block t of the whole-array product. -/
theorem flushed0_eq (c : Dev nD) (t : Fin cfg0.N) :
    (dat0 (F := Ideal) V c).flushed 2 t
      = ((cfg0.win 2).blk t).view.read (Elt Ideal) (Cert.Spec.lin128 (V c main_arg0) (V c main_arg2)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨e00, e01, e10, e11, e20, e21⟩ := blockIndex0 t
  funext j
  refine tile0_entry _ _ (V c main_arg0) (V c main_arg2) _ (((cfg0.win 2).blk t).view.emb j) (fun k => ?_) (fun k => ?_)
  · refine featureBlock0 V c t _ _ ?_ rfl
    show win0_2.index t 0 * 5000 + 1 * (j 0).val = 5000 * t.val + (j 0).val
    rw [e20]; omega
  · refine (weightBlock0 V c t _).trans ?_
    refine congrArg (V c main_arg2 : S128x128.Idx → EReal) (funext fun a => Fin.ext ?_)
    match a with
    | ⟨0, _⟩ => rfl
    | ⟨1, _⟩ => show (j 1).val = win0_2.index t 1 * 128 + 1 * (j 1).val; rw [e21]; omega

/-- An index of the result array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result lies in the block of point r / 5000, and every point writes back. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [show cfg0.N = 20 from N_0]; omega⟩, rfl⟩
  obtain ⟨-, -, -, -, e20, e21⟩ := blockIndex0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the last point the first layer's result array is the feature product of the whole feature array with the
    whole weight. -/
theorem final0 (c : Dev nD) :
    (dat0 (F := Ideal) V c).arrAt 2 cfg0.N = Cert.Spec.lin128 (V c main_arg0) (V c main_arg2) :=
  (dat0 V c).arrAt_eq_of_cover 2 (Cert.Spec.lin128 (V c main_arg0) (V c main_arg2)) (fun t _ => flushed0_eq V c t) covered0

end Cert.KernelIdeal.Tiles

end
-- ==== Proof.NormalisedProductTile128.lean ====
/-
  The second layer's tiled product, as one function of whole arrays.

  The grid has 20 points; point t reads rows 5000·t … 5000·t + 4999 of the layer's input array, the four per-feature
  1 × 128 rows (mean, variance, scale, shift) and the whole 128 × 128 weight, and writes the same rows of the result:
  entry (5000·t + p, q) is ∑ₖ a(5000·t + p, k) · weight(k, q), where a(r, k) = max (γₖ · (h(r, k) − μₖ) · rsqrt (vₖ + ε) + βₖ, 0)
  depends on entry (r, k) of the input and on feature k of the four rows only. The 20 row blocks cover the 100000 rows
  (row r lies in block r / 5000), so after the last point the result array is the feature product of the activated
  whole input array with the whole weight.
-/
import proofs.«153693_j23948737643064_1_alg».proof.Proof.TileArithmetic

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- One entry of a tile of the second layer: if row (j 0) of the input block is row (i 0) of the array H, the four
    1 × 128 rows are the per-feature functions μ, σ, γ, β, and column (j 1) of the weight block is column (i 1) of the
    array B, then the tile's entry j is entry i of the whole-array product of the activated H with B. -/
theorem tile1_entry (x : Vec Ideal S5000x128 .f32) (m s g b : Vec Ideal S1x128 .f32) (y : Vec Ideal S128x128 .f32)
    (H : S100000x128.Idx → EReal) (μ σ γ β : (⟨1, ![128]⟩ : Shape).Idx → EReal) (B : S128x128.Idx → EReal)
    (j : S5000x128.Idx) (i : S100000x128.Idx)
    (hx : ∀ k : Fin 128, x (ix2 (j 0) k) = H (ix2 (i 0) k))
    (hm : ∀ k : Fin 128, m (ix2 0 k) = μ (ix1 k)) (hs : ∀ k : Fin 128, s (ix2 0 k) = σ (ix1 k))
    (hg : ∀ k : Fin 128, g (ix2 0 k) = γ (ix1 k)) (hb : ∀ k : Fin 128, b (ix2 0 k) = β (ix1 k))
    (hy : ∀ k : Fin 128, y (ix2 k (j 1)) = B (ix2 k (i 1))) :
    k1_pay1 (F := Ideal) x m s g b y j = Cert.Spec.lin128 (Cert.Spec.act H μ σ γ β) B i := by
  obtain ⟨p, q, rfl⟩ : ∃ (p : Fin 5000) (q : Fin 128), j = ix2 p q := ⟨j 0, j 1, eq_ix2 j⟩
  have hx' : ∀ k : Fin 128, x (ix2 p k) = H (ix2 (i 0) k) := hx
  have hy' : ∀ k : Fin 128, y (ix2 k q) = B (ix2 k (i 1)) := hy
  rw [k1_pay1_eq]
  refine (product128_apply _ y p q).trans ?_
  unfold Cert.Spec.lin128
  refine Finset.sum_congr rfl fun k _ => ?_
  rw [clampedNormal_apply, hx' k, hm k, hs k, hg k, hb k, hy' k]
  rfl

/-- The block indices over the grid: the two tiled windows' block row is the point, every other block index is zero. -/
theorem blockIndex1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- The input window's block at point t is rows 5000·t … 5000·t + 4999 of the second layer's input array. -/
theorem inputBlock1 (c : Dev nD) (t : Fin cfg1.N) (x : S5000x128.Idx) (i : S100000x128.Idx)
    (h0 : (i 0).val = 5000 * t.val + (x 0).val) (h1 : (i 1).val = (x 1).val) :
    (iblk1 V c 0 t : Vec Ideal S5000x128 .f32) x = (V c main_v46 : S100000x128.Idx → EReal) i := by
  have e0 : win1_0.index t (0 : Fin 2) = t.val := (blockIndex1 t).1
  have e1 : win1_0.index t (1 : Fin 2) = 0 := (blockIndex1 t).2.1
  unfold iblk1
  rw [View.read_apply]
  show V c main_v46 _ = V c main_v46 _
  congr 1
  funext a
  apply Fin.ext
  match a with
  | ⟨0, _⟩ => show win1_0.index t 0 * 5000 + 1 * (x 0).val = (i 0).val; rw [e0, h0]; omega
  | ⟨1, _⟩ => show win1_0.index t 1 * 128 + 1 * (x 1).val = (i 1).val; rw [e1, h1]; omega

/-- The mean window's block at every point is the whole 1 × 128 row. -/
theorem rowBlock1_1 (c : Dev nD) (t : Fin cfg1.N) (x : S1x128.Idx) :
    (iblk1 V c 1 t : Vec Ideal S1x128 .f32) x = (V c main_v57 : S1x128.Idx → EReal) x := by
  have e0 : win1_1.index t (0 : Fin 2) = 0 := (blockIndex1 t).2.2.1
  have e1 : win1_1.index t (1 : Fin 2) = 0 := (blockIndex1 t).2.2.2.1
  unfold iblk1
  rw [View.read_apply]
  show V c main_v57 _ = V c main_v57 _
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- The variance window's block at every point is the whole 1 × 128 row. -/
theorem rowBlock1_2 (c : Dev nD) (t : Fin cfg1.N) (x : S1x128.Idx) :
    (iblk1 V c 2 t : Vec Ideal S1x128 .f32) x = (V c main_v58 : S1x128.Idx → EReal) x := by
  have e0 : win1_2.index t (0 : Fin 2) = 0 := (blockIndex1 t).2.2.2.2.1
  have e1 : win1_2.index t (1 : Fin 2) = 0 := (blockIndex1 t).2.2.2.2.2.1
  unfold iblk1
  rw [View.read_apply]
  show V c main_v58 _ = V c main_v58 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- The scale window's block at every point is the whole 1 × 128 row. -/
theorem rowBlock1_3 (c : Dev nD) (t : Fin cfg1.N) (x : S1x128.Idx) :
    (iblk1 V c 3 t : Vec Ideal S1x128 .f32) x = (V c main_v59 : S1x128.Idx → EReal) x := by
  have e0 : win1_3.index t (0 : Fin 2) = 0 := (blockIndex1 t).2.2.2.2.2.2.1
  have e1 : win1_3.index t (1 : Fin 2) = 0 := (blockIndex1 t).2.2.2.2.2.2.2.1
  unfold iblk1
  rw [View.read_apply]
  show V c main_v59 _ = V c main_v59 _
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- The shift window's block at every point is the whole 1 × 128 row. -/
theorem rowBlock1_4 (c : Dev nD) (t : Fin cfg1.N) (x : S1x128.Idx) :
    (iblk1 V c 4 t : Vec Ideal S1x128 .f32) x = (V c main_v60 : S1x128.Idx → EReal) x := by
  have e0 : win1_4.index t (0 : Fin 2) = 0 := (blockIndex1 t).2.2.2.2.2.2.2.2.1
  have e1 : win1_4.index t (1 : Fin 2) = 0 := (blockIndex1 t).2.2.2.2.2.2.2.2.2.1
  unfold iblk1
  rw [View.read_apply]
  show V c main_v60 _ = V c main_v60 _
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- The weight window's block at every point is the whole weight. -/
theorem weightBlock1 (c : Dev nD) (t : Fin cfg1.N) (x : S128x128.Idx) :
    (iblk1 V c 5 t : Vec Ideal S128x128 .f32) x = (V c main_arg6 : S128x128.Idx → EReal) x := by
  have e0 : win1_5.index t (0 : Fin 2) = 0 := (blockIndex1 t).2.2.2.2.2.2.2.2.2.2.1
  have e1 : win1_5.index t (1 : Fin 2) = 0 := (blockIndex1 t).2.2.2.2.2.2.2.2.2.2.2.1
  unfold iblk1
  rw [View.read_apply]
  show V c main_arg6 _ = V c main_arg6 _
  congr 1
  funext a
  apply Fin.ext
  match a with
  | ⟨0, _⟩ => show win1_5.index t 0 * 128 + 1 * (x 0).val = (x 0).val; rw [e0]; omega
  | ⟨1, _⟩ => show win1_5.index t 1 * 128 + 1 * (x 1).val = (x 1).val; rw [e1]; omega

/-- What point t writes back is block t of the whole-array product of the activated input with the weight. -/
theorem flushed1_eq (c : Dev nD) (t : Fin cfg1.N) :
    (dat1 (F := Ideal) V c).flushed 6 t
      = ((cfg1.win 6).blk t).view.read (Elt Ideal)
          (Cert.Spec.lin128 (Cert.Spec.act (V c main_v46) (fun j => V c main_v57 (ix2 0 (j 0))) (fun j => V c main_v58 (ix2 0 (j 0)))
            (fun j => V c main_v59 (ix2 0 (j 0))) (fun j => V c main_v60 (ix2 0 (j 0)))) (V c main_arg6)) := by
  show (cfg1.win 6).cut (grid1.coords t) ((dat1 V c).after 6 t) = _
  rw [after1_6]
  unfold out1_6
  rw [View.canon_unit_zero zeroOffsets]
  simp only [View.ld_unit_zero (S := S5000x128) zeroOffsets, View.ld_unit_zero (S := S1x128) zeroOffsets, View.ld_unit_zero (S := S128x128) zeroOffsets]
  have e60 : win1_6.index t (0 : Fin 2) = t.val := (blockIndex1 t).2.2.2.2.2.2.2.2.2.2.2.2.1
  have e61 : win1_6.index t (1 : Fin 2) = 0 := (blockIndex1 t).2.2.2.2.2.2.2.2.2.2.2.2.2
  funext j
  refine tile1_entry _ _ _ _ _ _ (V c main_v46) (fun j => V c main_v57 (ix2 0 (j 0))) (fun j => V c main_v58 (ix2 0 (j 0)))
    (fun j => V c main_v59 (ix2 0 (j 0))) (fun j => V c main_v60 (ix2 0 (j 0))) (V c main_arg6) _ (((cfg1.win 6).blk t).view.emb j)
    (fun k => ?_) (fun k => rowBlock1_1 V c t _) (fun k => rowBlock1_2 V c t _) (fun k => rowBlock1_3 V c t _) (fun k => rowBlock1_4 V c t _) (fun k => ?_)
  · refine inputBlock1 V c t _ _ ?_ rfl
    show win1_6.index t 0 * 5000 + 1 * (j 0).val = 5000 * t.val + (j 0).val
    rw [e60]; omega
  · refine (weightBlock1 V c t _).trans ?_
    refine congrArg (V c main_arg6 : S128x128.Idx → EReal) (funext fun a => Fin.ext ?_)
    match a with
    | ⟨0, _⟩ => rfl
    | ⟨1, _⟩ => show (j 1).val = win1_6.index t 1 * 128 + 1 * (j 1).val; rw [e61]; omega

/-- An index of the result array is in point t's block iff each coordinate is in the block's range on its axis. -/
theorem mem_block1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v61).slice (win1_6.rect t)).set ↔ _
  rw [View.set_slice_whole, Rect.mem_set_unit]
  exact Iff.rfl

/-- Row r of the result lies in the block of point r / 5000, and every point writes back. -/
theorem covered1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [show cfg1.N = 20 from N_1]; omega⟩, rfl⟩
  have e60 : win1_6.index t (0 : Fin 2) = t.val := (blockIndex1 t).2.2.2.2.2.2.2.2.2.2.2.2.1
  have e61 : win1_6.index t (1 : Fin 2) = 0 := (blockIndex1 t).2.2.2.2.2.2.2.2.2.2.2.2.2
  refine ⟨t, flush1_6 t, ?_⟩
  rw [mem_block1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the last point the second layer's result array is the feature product of its whole activated input array
    with the whole weight. -/
theorem final1 (c : Dev nD) :
    (dat1 (F := Ideal) V c).arrAt 6 cfg1.N
      = Cert.Spec.lin128 (Cert.Spec.act (V c main_v46) (fun j => V c main_v57 (ix2 0 (j 0))) (fun j => V c main_v58 (ix2 0 (j 0)))
          (fun j => V c main_v59 (ix2 0 (j 0))) (fun j => V c main_v60 (ix2 0 (j 0)))) (V c main_arg6) :=
  (dat1 V c).arrAt_eq_of_cover 6 _ (fun t _ => flushed1_eq V c t) covered1

end Cert.KernelIdeal.Tiles

end
-- ==== Proof.NormalisedProductTile40.lean ====
/-
  The third layer's tiled product, as one function of whole arrays.

  The grid has 20 points; point t reads rows 5000·t … 5000·t + 4999 of the layer's input array, the four per-feature
  1 × 128 rows (mean, variance, scale, shift) and the whole 128 × 40 weight, and writes the same rows of the result:
  entry (5000·t + p, q) is ∑ₖ a(5000·t + p, k) · weight(k, q), where a(r, k) = max (γₖ · (h(r, k) − μₖ) · rsqrt (vₖ + ε) + βₖ, 0)
  depends on entry (r, k) of the input and on feature k of the four rows only. The 20 row blocks cover the 100000 rows
  (row r lies in block r / 5000), so after the last point the result array is the feature product of the activated
  whole input array with the whole weight.
-/
import proofs.«153693_j23948737643064_1_alg».proof.Proof.TileArithmetic

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- One entry of a tile of the third layer: if row (j 0) of the input block is row (i 0) of the array H, the four
    1 × 128 rows are the per-feature functions μ, σ, γ, β, and column (j 1) of the weight block is column (i 1) of the
    array B, then the tile's entry j is entry i of the whole-array product of the activated H with B. -/
theorem tile2_entry (x : Vec Ideal S5000x128 .f32) (m s g b : Vec Ideal S1x128 .f32) (y : Vec Ideal S128x40 .f32)
    (H : S100000x128.Idx → EReal) (μ σ γ β : (⟨1, ![128]⟩ : Shape).Idx → EReal) (B : S128x40.Idx → EReal)
    (j : S5000x40.Idx) (i : S100000x40.Idx)
    (hx : ∀ k : Fin 128, x (ix2 (j 0) k) = H (ix2 (i 0) k))
    (hm : ∀ k : Fin 128, m (ix2 0 k) = μ (ix1 k)) (hs : ∀ k : Fin 128, s (ix2 0 k) = σ (ix1 k))
    (hg : ∀ k : Fin 128, g (ix2 0 k) = γ (ix1 k)) (hb : ∀ k : Fin 128, b (ix2 0 k) = β (ix1 k))
    (hy : ∀ k : Fin 128, y (ix2 k (j 1)) = B (ix2 k (i 1))) :
    k2_pay1 (F := Ideal) x m s g b y j = Cert.Spec.lin40 (Cert.Spec.act H μ σ γ β) B i := by
  obtain ⟨p, q, rfl⟩ : ∃ (p : Fin 5000) (q : Fin 40), j = ix2 p q := ⟨j 0, j 1, eq_ix2 j⟩
  have hx' : ∀ k : Fin 128, x (ix2 p k) = H (ix2 (i 0) k) := hx
  have hy' : ∀ k : Fin 128, y (ix2 k q) = B (ix2 k (i 1)) := hy
  rw [k2_pay1_eq]
  refine (product40_apply _ y p q).trans ?_
  unfold Cert.Spec.lin40
  refine Finset.sum_congr rfl fun k _ => ?_
  rw [clampedNormal_apply, hx' k, hm k, hs k, hg k, hb k, hy' k]
  rfl

/-- The block indices over the grid: the two tiled windows' block row is the point, every other block index is zero. -/
theorem blockIndex2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-- The input window's block at point t is rows 5000·t … 5000·t + 4999 of the third layer's input array. -/
theorem inputBlock2 (c : Dev nD) (t : Fin cfg2.N) (x : S5000x128.Idx) (i : S100000x128.Idx)
    (h0 : (i 0).val = 5000 * t.val + (x 0).val) (h1 : (i 1).val = (x 1).val) :
    (iblk2 V c 0 t : Vec Ideal S5000x128 .f32) x = (V c main_v77 : S100000x128.Idx → EReal) i := by
  have e0 : win2_0.index t (0 : Fin 2) = t.val := (blockIndex2 t).1
  have e1 : win2_0.index t (1 : Fin 2) = 0 := (blockIndex2 t).2.1
  unfold iblk2
  rw [View.read_apply]
  show V c main_v77 _ = V c main_v77 _
  congr 1
  funext a
  apply Fin.ext
  match a with
  | ⟨0, _⟩ => show win2_0.index t 0 * 5000 + 1 * (x 0).val = (i 0).val; rw [e0, h0]; omega
  | ⟨1, _⟩ => show win2_0.index t 1 * 128 + 1 * (x 1).val = (i 1).val; rw [e1, h1]; omega

/-- The mean window's block at every point is the whole 1 × 128 row. -/
theorem rowBlock2_1 (c : Dev nD) (t : Fin cfg2.N) (x : S1x128.Idx) :
    (iblk2 V c 1 t : Vec Ideal S1x128 .f32) x = (V c main_v88 : S1x128.Idx → EReal) x := by
  have e0 : win2_1.index t (0 : Fin 2) = 0 := (blockIndex2 t).2.2.1
  have e1 : win2_1.index t (1 : Fin 2) = 0 := (blockIndex2 t).2.2.2.1
  unfold iblk2
  rw [View.read_apply]
  show V c main_v88 _ = V c main_v88 _
  congr 1
  funext a
  apply Fin.ext
  match a with
  | ⟨0, _⟩ => show win2_1.index t 0 * 1 + 1 * (x 0).val = (x 0).val; rw [e0]; omega
  | ⟨1, _⟩ => show win2_1.index t 1 * 128 + 1 * (x 1).val = (x 1).val; rw [e1]; omega

/-- The variance window's block at every point is the whole 1 × 128 row. -/
theorem rowBlock2_2 (c : Dev nD) (t : Fin cfg2.N) (x : S1x128.Idx) :
    (iblk2 V c 2 t : Vec Ideal S1x128 .f32) x = (V c main_v89 : S1x128.Idx → EReal) x := by
  have e0 : win2_2.index t (0 : Fin 2) = 0 := (blockIndex2 t).2.2.2.2.1
  have e1 : win2_2.index t (1 : Fin 2) = 0 := (blockIndex2 t).2.2.2.2.2.1
  unfold iblk2
  rw [View.read_apply]
  show V c main_v89 _ = V c main_v89 _
  congr 1
  funext a
  apply Fin.ext
  match a with
  | ⟨0, _⟩ => show win2_2.index t 0 * 1 + 1 * (x 0).val = (x 0).val; rw [e0]; omega
  | ⟨1, _⟩ => show win2_2.index t 1 * 128 + 1 * (x 1).val = (x 1).val; rw [e1]; omega

/-- The scale window's block at every point is the whole 1 × 128 row. -/
theorem rowBlock2_3 (c : Dev nD) (t : Fin cfg2.N) (x : S1x128.Idx) :
    (iblk2 V c 3 t : Vec Ideal S1x128 .f32) x = (V c main_v90 : S1x128.Idx → EReal) x := by
  have e0 : win2_3.index t (0 : Fin 2) = 0 := (blockIndex2 t).2.2.2.2.2.2.1
  have e1 : win2_3.index t (1 : Fin 2) = 0 := (blockIndex2 t).2.2.2.2.2.2.2.1
  unfold iblk2
  rw [View.read_apply]
  show V c main_v90 _ = V c main_v90 _
  congr 1
  funext a
  apply Fin.ext
  match a with
  | ⟨0, _⟩ => show win2_3.index t 0 * 1 + 1 * (x 0).val = (x 0).val; rw [e0]; omega
  | ⟨1, _⟩ => show win2_3.index t 1 * 128 + 1 * (x 1).val = (x 1).val; rw [e1]; omega

/-- The shift window's block at every point is the whole 1 × 128 row. -/
theorem rowBlock2_4 (c : Dev nD) (t : Fin cfg2.N) (x : S1x128.Idx) :
    (iblk2 V c 4 t : Vec Ideal S1x128 .f32) x = (V c main_v91 : S1x128.Idx → EReal) x := by
  have e0 : win2_4.index t (0 : Fin 2) = 0 := (blockIndex2 t).2.2.2.2.2.2.2.2.1
  have e1 : win2_4.index t (1 : Fin 2) = 0 := (blockIndex2 t).2.2.2.2.2.2.2.2.2.1
  unfold iblk2
  rw [View.read_apply]
  show V c main_v91 _ = V c main_v91 _
  congr 1
  funext a
  apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- The weight window's block at every point is the whole weight. -/
theorem weightBlock2 (c : Dev nD) (t : Fin cfg2.N) (x : S128x40.Idx) :
    (iblk2 V c 5 t : Vec Ideal S128x40 .f32) x = (V c main_arg10 : S128x40.Idx → EReal) x := by
  have e0 : win2_5.index t (0 : Fin 2) = 0 := (blockIndex2 t).2.2.2.2.2.2.2.2.2.2.1
  have e1 : win2_5.index t (1 : Fin 2) = 0 := (blockIndex2 t).2.2.2.2.2.2.2.2.2.2.2.1
  unfold iblk2
  rw [View.read_apply]
  show V c main_arg10 _ = V c main_arg10 _
  congr 1
  funext a
  apply Fin.ext
  match a with
  | ⟨0, _⟩ => show win2_5.index t 0 * 128 + 1 * (x 0).val = (x 0).val; rw [e0]; omega
  | ⟨1, _⟩ => show win2_5.index t 1 * 40 + 1 * (x 1).val = (x 1).val; rw [e1]; omega

/-- What point t writes back is block t of the whole-array product of the activated input with the weight. -/
theorem flushed2_eq (c : Dev nD) (t : Fin cfg2.N) :
    (dat2 (F := Ideal) V c).flushed 6 t
      = ((cfg2.win 6).blk t).view.read (Elt Ideal)
          (Cert.Spec.lin40 (Cert.Spec.act (V c main_v77) (fun j => V c main_v88 (ix2 0 (j 0))) (fun j => V c main_v89 (ix2 0 (j 0)))
            (fun j => V c main_v90 (ix2 0 (j 0))) (fun j => V c main_v91 (ix2 0 (j 0)))) (V c main_arg10)) := by
  show (cfg2.win 6).cut (grid2.coords t) ((dat2 V c).after 6 t) = _
  rw [after2_6]
  unfold out2_6
  rw [View.canon_unit_zero zeroOffsets]
  simp only [View.ld_unit_zero (S := S5000x128) zeroOffsets, View.ld_unit_zero (S := S1x128) zeroOffsets, View.ld_unit_zero (S := S128x40) zeroOffsets]
  have e60 : win2_6.index t (0 : Fin 2) = t.val := (blockIndex2 t).2.2.2.2.2.2.2.2.2.2.2.2.1
  have e61 : win2_6.index t (1 : Fin 2) = 0 := (blockIndex2 t).2.2.2.2.2.2.2.2.2.2.2.2.2
  funext j
  refine tile2_entry _ _ _ _ _ _ (V c main_v77) (fun j => V c main_v88 (ix2 0 (j 0))) (fun j => V c main_v89 (ix2 0 (j 0)))
    (fun j => V c main_v90 (ix2 0 (j 0))) (fun j => V c main_v91 (ix2 0 (j 0))) (V c main_arg10) _ (((cfg2.win 6).blk t).view.emb j)
    (fun k => ?_) (fun k => rowBlock2_1 V c t _) (fun k => rowBlock2_2 V c t _) (fun k => rowBlock2_3 V c t _) (fun k => rowBlock2_4 V c t _) (fun k => ?_)
  · refine inputBlock2 V c t _ _ ?_ rfl
    show win2_6.index t 0 * 5000 + 1 * (j 0).val = 5000 * t.val + (j 0).val
    rw [e60]; omega
  · refine (weightBlock2 V c t _).trans ?_
    refine congrArg (V c main_arg10 : S128x40.Idx → EReal) (funext fun a => Fin.ext ?_)
    match a with
    | ⟨0, _⟩ => rfl
    | ⟨1, _⟩ => show (j 1).val = win2_6.index t 1 * 40 + 1 * (j 1).val; rw [e61]; omega

/-- An index of the result array is in point t's block iff each coordinate is in the block's range on its axis. -/
theorem mem_block2 (t : Fin cfg2.N) (i : S100000x40.Idx) :
    i ∈ ((cfg2.win 6).blk t).view.set ↔ ∀ a : Fin 2, win2_6.index t a * S5000x40.size a ≤ (i a).val ∧ (i a).val < win2_6.index t a * S5000x40.size a + S5000x40.size a := by
  show i ∈ ((View.whole main_v92).slice (win2_6.rect t)).set ↔ _
  rw [View.set_slice_whole, Rect.mem_set_unit]
  exact Iff.rfl

/-- Row r of the result lies in the block of point r / 5000, and every point writes back. -/
theorem covered2 (i : S100000x40.Idx) :
    ∃ t : Fin cfg2.N, (cfg2.win 6).flush t = true ∧ i ∈ ((cfg2.win 6).blk t).view.set := by
  have hi0 : (i 0).val < 100000 := (i 0).isLt
  have hi1 : (i 1).val < 40 := (i 1).isLt
  obtain ⟨t, ht⟩ : ∃ t : Fin cfg2.N, t.val = (i 0).val / 5000 := ⟨⟨(i 0).val / 5000, by rw [show cfg2.N = 20 from N_2]; omega⟩, rfl⟩
  have e60 : win2_6.index t (0 : Fin 2) = t.val := (blockIndex2 t).2.2.2.2.2.2.2.2.2.2.2.2.1
  have e61 : win2_6.index t (1 : Fin 2) = 0 := (blockIndex2 t).2.2.2.2.2.2.2.2.2.2.2.2.2
  refine ⟨t, flush2_6 t, ?_⟩
  rw [mem_block2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 40 ≤ (i 1).val ∧ (i 1).val < win2_6.index t (1 : Fin 2) * 40 + 40; omega

/-- After the last point the third layer's result array is the feature product of its whole activated input array
    with the whole weight. -/
theorem final2 (c : Dev nD) :
    (dat2 (F := Ideal) V c).arrAt 6 cfg2.N
      = Cert.Spec.lin40 (Cert.Spec.act (V c main_v77) (fun j => V c main_v88 (ix2 0 (j 0))) (fun j => V c main_v89 (ix2 0 (j 0)))
          (fun j => V c main_v90 (ix2 0 (j 0))) (fun j => V c main_v91 (ix2 0 (j 0)))) (V c main_arg10) :=
  (dat2 V c).arrAt_eq_of_cover 6 _ (fun t _ => flushed2_eq V c t) covered2

end Cert.KernelIdeal.Tiles

end
-- ==== Proof.LogSoftmaxTile.lean ====
/-
  The tiled program's last stage, block by block, is the row log-softmax of its input array h (100000 rows, 40 classes).

  Each of the 20 grid points t loads block t of h (rows 5000·t … 5000·t + 4999, all 40 classes) and stores, at local
  entry (p, q),   (x(p, q) − M_p) − log ∑_j exp (x(p, j) − M_p),   M_p the maximum of row p of the block folded from −∞
  (the word of −∞ is never evaluated; the sum is a plain sum over the 40 classes).
  Every entry depends on its own row only, and row p of block t is row 5000·t + p of h, so the stored block is block t
  of the specification's lsm h. The 20 blocks tile the array (row r lies in the block of point r / 5000), hence the
  output array ends as lsm h.

  Order of the file: the keepdims column forms read at an index ([5000] → [5000, 1] → [5000, 40]); the two reductions
  over the classes at a row; the stored block at (p, q); the same in terms of the array's row; what each point writes
  back; the cover; the array after the last point.
-/
import proofs.«153693_j23948737643064_1_alg».proof.Proof.Spec
import proofs.«153693_j23948737643064_1_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Softmax

open Cert.KernelIdeal Cert.KernelIdeal.Facts₀ Cert.KernelIdeal.Facts Idealize.ShloMosaic Idealize.ShloMosaic.ValueIdx

/-! ## The layout operations of a kept column, read at an index -/

/-- A column [5000, 1] repeated along the 40 classes, read at (p, q), is the column at (p, 0). -/
theorem bcast_apply {α : Type} (w : S5000x1.Idx → α) (p : Fin 5000) (q : Fin 40) :
    broadcastTo S5000x40 w broadcasts_S5000x1_S5000x40 (ix2 p q) = w (ix2 p (0 : Fin 1)) := by
  refine broadcastTo_apply w broadcasts_S5000x1_S5000x40 (ix2 p q) (ix2 p (0 : Fin 1)) (fun a => ?_)
  match a with
  | ⟨0, _⟩ => show p.val = if (5000 : Nat) = 1 then 0 else p.val; rw [if_neg (by decide)]
  | ⟨1, _⟩ => show 0 = if (1 : Nat) = 1 then 0 else q.val; rw [if_pos rfl]

/-- A vector of 5000 rows viewed as a column [5000, 1], read at (p, 0), is the vector at p. -/
theorem cast_apply {α : Type} (v : S5000.Idx → α) (p : Fin 5000) :
    shapeCast S5000x1 v shapeCasts_S5000_S5000x1 (ix2 p (0 : Fin 1)) = v (ix1 p) := by
  refine shapeCast_apply v shapeCasts_S5000_S5000x1 (ix2 p (0 : Fin 1)) (ix1 p) ?_
  rw [Shape.rowMajor_val_one, Shape.rowMajor_val_two]
  show p.val = p.val * 1 + 0
  omega

/-! ## The two reductions over the classes -/

/-- A block row's maximum, folded from the word of minus infinity over the 40 classes. -/
def tileMax (x : S5000x40.Idx → Ideal .f32) (p : Fin 5000) : Ideal .f32 :=
  (Finset.univ : Finset (Fin 40)).fold max (Ideal.ofBits .f32 0xFF800000#32) (fun j => x (ix2 p j))

theorem rowmax_apply (x : FVec Ideal S5000x40 .f32) (p : Fin 5000) :
    multiReduction (F := Ideal) .maximumf [1] S5000 x 0xFF800000#32 reduces_S5000x40_S5000 (.inl rfl) rfl (ix1 p)
      = tileMax x p := by
  refine (Ideal.multiReduction_maximumf_single x _ reduces_S5000x40_S5000 _ _ (ix1 p)).trans ?_
  unfold tileMax
  exact congrArg (fun f : Fin 40 → Ideal .f32 => Finset.fold max (Ideal.ofBits .f32 0xFF800000#32) f Finset.univ)
    (funext fun k => congrArg x (funext fun a => Fin.ext (by match a with | ⟨0, _⟩ => rfl | ⟨1, _⟩ => rfl)))

theorem rowsum_apply (x : FVec Ideal S5000x40 .f32) (p : Fin 5000) :
    multiReduction (F := Ideal) .add [1] S5000 x 0x00000000#32 reduces_S5000x40_S5000 (.inl rfl) rfl (ix1 p)
      = ∑ j : Fin 40, x (ix2 p j) := by
  refine (Ideal.multiReduction_add_single x _ reduces_S5000x40_S5000 _ _ (ix1 p)).trans ?_
  exact Finset.sum_congr rfl fun k _ =>
    congrArg x (funext fun a => Fin.ext (by match a with | ⟨0, _⟩ => rfl | ⟨1, _⟩ => rfl))

/-! ## The body's arithmetic at an index -/

/-- The shifted block: entry (p, q) is x(p, q) minus the maximum of row p. -/
theorem shift_apply (x : FVec Ideal S5000x40 .f32) (p : Fin 5000) (q : Fin 40) :
    subf x (broadcastTo S5000x40 (shapeCast S5000x1
        (multiReduction (F := Ideal) .maximumf [1] S5000 x 0xFF800000#32 reduces_S5000x40_S5000 (.inl rfl) rfl)
        shapeCasts_S5000_S5000x1) broadcasts_S5000x1_S5000x40) (ix2 p q)
      = x (ix2 p q) - tileMax x p :=
  congrArg (x (ix2 p q) - ·) ((bcast_apply _ p q).trans ((cast_apply _ p).trans (rowmax_apply x p)))

/-- The stored block at (p, q): (x(p, q) − M_p) − log ∑_j exp (x(p, j) − M_p), M_p the maximum of row p of the block. -/
theorem pay_apply (x : Vec Ideal S5000x40 .f32) (p : Fin 5000) (q : Fin 40) :
    Gen.k3_pay1 (F := Ideal) x (ix2 p q)
      = (x (ix2 p q) - tileMax x p) - Ideal.log (∑ j : Fin 40, Ideal.exp (x (ix2 p j) - tileMax x p)) := by
  unfold Gen.k3_pay1
  dsimp only
  have e1 : shapeCast S5000x40 x Gen.shapeCasts_S5000x40_S5000x40 = x := shapeCast_self x _
  rw [e1]
  refine congrArg₂ (· - ·) (shift_apply x p q) ?_
  refine (bcast_apply _ p q).trans ?_
  refine congrArg Ideal.log ?_
  refine (cast_apply _ p).trans ?_
  refine (rowsum_apply _ p).trans ?_
  exact Finset.sum_congr rfl fun j _ => congrArg Ideal.exp (shift_apply x p j)

/-- When row p of the block is row r of the array, the stored entry (p, q) is the array's log-softmax at (r, q):
    every entry depends on its own row only. -/
theorem pay_eq_lsm (h : S100000x40.Idx → Ideal .f32) (x : Vec Ideal S5000x40 .f32) (r : Fin 100000) (p : Fin 5000)
    (hx : ∀ j : Fin 40, x (ix2 p j) = h (ix2 r j)) (q : Fin 40) :
    Gen.k3_pay1 (F := Ideal) x (ix2 p q) = Cert.Spec.lsm h (ix2 r q) := by
  have hM : tileMax x p = Cert.Spec.rowMax h r := by
    unfold tileMax Cert.Spec.rowMax
    exact congrArg (fun f : Fin 40 → Ideal .f32 => Finset.fold max (Ideal.ofBits .f32 0xFF800000#32) f Finset.univ)
      (funext hx)
  rw [pay_apply, hM, hx q]
  exact congrArg (fun s => (h (ix2 r q) - Cert.Spec.rowMax h r) - Ideal.log s)
    (Finset.sum_congr rfl fun j _ => by rw [hx j])

/-! ## From blocks to the array -/

open Idealize.ShloMosaic.TcCoe Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The two windows' index maps over the 20 points: point t holds block row t, block column 0. -/
theorem index_facts : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Block t of the output, entry by entry: local (p, q) is the array's log-softmax at row 5000·t + p, class q,
    because block t of the input holds rows 5000·t … 5000·t + 4999 and all 40 classes. -/
theorem block_eq (c : Dev nD) (t : Fin cfg3.N) (y : S5000x40.Idx) :
    Gen.k3_pay1 (F := Ideal) (Gen.iblk3 V c 0 t) y
      = Cert.Spec.lsm (V c main_v108) (((cfg3.win 1).blk t).view.emb y) := by
  obtain ⟨p, q, rfl⟩ : ∃ (p : Fin 5000) (q : Fin 40), y = ix2 p q := ⟨y 0, y 1, eq_ix2 y⟩
  obtain ⟨e0, e1, e2, e3⟩ := index_facts t
  have hN : cfg3.N = 20 := Gen.N_3
  have hr : t.val * 5000 + p.val < 100000 := by have := t.isLt; have := p.isLt; omega
  have hemb : ((cfg3.win 1).blk t).view.emb (ix2 p q) = ix2 (⟨t.val * 5000 + p.val, hr⟩ : Fin 100000) q := by
    funext a; apply Fin.ext
    match a with
    | ⟨0, _⟩ => show win3_1.index t (0 : Fin 2) * 5000 + 1 * p.val = t.val * 5000 + p.val; rw [e2]; omega
    | ⟨1, _⟩ => show win3_1.index t (1 : Fin 2) * 40 + 1 * q.val = q.val; rw [e3]; omega
  rw [hemb]
  refine pay_eq_lsm (V c main_v108) (Gen.iblk3 V c 0 t) ⟨t.val * 5000 + p.val, hr⟩ p (fun j => ?_) q
  unfold Gen.iblk3
  rw [View.read_apply]
  show V c main_v108 (((cfg3.win 0).blk t).view.emb (ix2 p j)) = V c main_v108 (ix2 (⟨t.val * 5000 + p.val, hr⟩ : Fin 100000) j)
  refine congrArg (V c main_v108) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 40 + 1 * j.val = j.val; rw [e1]; omega

/-- What point t writes back is block t of the array's log-softmax. -/
theorem flushed_eq (c : Dev nD) (t : Fin cfg3.N) :
    (Gen.dat3 (F := Ideal) V c).flushed 1 t
      = ((cfg3.win 1).blk t).view.read (Elt Ideal) (Cert.Spec.lsm (V c main_v108)) := by
  show (cfg3.win 1).cut (grid3.coords t) ((Gen.dat3 V c).after 1 t) = _
  rw [Gen.after3_1]
  unfold Gen.out3_1
  rw [View.canon_unit_zero offsets_zero]
  simp only [View.ld_unit_zero (S := S5000x40) offsets_zero]
  funext j
  show Gen.k3_pay1 (F := Ideal) (Gen.iblk3 V c 0 t) j = Cert.Spec.lsm (V c main_v108) (((cfg3.win 1).blk t).view.emb j)
  exact block_eq V c t j

/-- An index of the array is in point t's block iff each coordinate is in the block's range on its axis. -/
theorem mem_blk (t : Fin cfg3.N) (i : S100000x40.Idx) :
    i ∈ ((cfg3.win 1).blk t).view.set ↔ ∀ a : Fin 2, win3_1.index t a * S5000x40.size a ≤ (i a).val
      ∧ (i a).val < win3_1.index t a * S5000x40.size a + S5000x40.size a := by
  show i ∈ ((View.whole main_v109).slice (win3_1.rect t)).set ↔ _
  rw [View.set_slice_whole, Rect.mem_set_unit]
  exact Iff.rfl

/-- The 20 blocks of 5000 rows tile the 100000 rows: row r lies in the block of point r / 5000. -/
theorem cover (i : S100000x40.Idx) :
    ∃ t : Fin cfg3.N, (cfg3.win 1).flush t = true ∧ i ∈ ((cfg3.win 1).blk t).view.set := by
  have hN : cfg3.N = 20 := Gen.N_3
  have hi0 : (i 0).val < 100000 := (i 0).isLt
  have hi1 : (i 1).val < 40 := (i 1).isLt
  obtain ⟨t, ht⟩ : ∃ t : Fin cfg3.N, t.val = (i 0).val / 5000 := ⟨⟨(i 0).val / 5000, by rw [hN]; omega⟩, rfl⟩
  obtain ⟨e0, e1, e2, e3⟩ := index_facts t
  refine ⟨t, Gen.flush3_1 t, ?_⟩
  rw [mem_blk]
  intro a
  match a with
  | ⟨0, _⟩ =>
    show win3_1.index t (0 : Fin 2) * 5000 ≤ (i 0).val ∧ (i 0).val < win3_1.index t (0 : Fin 2) * 5000 + 5000
    rw [e2, ht]; omega
  | ⟨1, _⟩ =>
    show win3_1.index t (1 : Fin 2) * 40 ≤ (i 1).val ∧ (i 1).val < win3_1.index t (1 : Fin 2) * 40 + 40
    rw [e3]; omega

/-- After the 20 points the output array is the row log-softmax of the input array as the region found it. -/
theorem final3 (c : Dev nD) :
    (Gen.dat3 (F := Ideal) V c).arrAt 1 cfg3.N = Cert.Spec.lsm (V c main_v108) :=
  (Gen.dat3 (F := Ideal) V c).arrAt_eq_of_cover 1 (Cert.Spec.lsm (V c main_v108)) (fun t _ => flushed_eq V c t)
    (fun i => cover i)

end Cert.KernelIdeal.Softmax

end
-- ==== Proof.LogSoftmaxWhole.lean ====
/-
  The plain program's last stage is the row log-softmax of its logits h (100000 rows, 40 classes).

  It is written there as: M = max (−∞, reduce-max over the classes of h), kept as a column; s = h − M (the column
  repeated along the classes); S = 0 + ∑ over the classes of exp s, kept as a column; result = s − log S.
  Read at entry (p, q):
    * the reduce over one axis with a commutative, associative body is the fold of that body over the axis, so the
      reduce-max at row p is the fold of max from −∞ over h(p, ·), which is the specification's row maximum M_p;
    * a fold of max from b is at least b, so max (b, fold) = fold: the extra maximum with the −∞ splat is absorbed
      (the word of −∞ is never evaluated);
    * the sum starts from the zero word, which is 0, and 0 + x = x.
  Hence entry (p, q) is (h(p, q) − M_p) − log ∑_k exp (h(p, k) − M_p): the specification's lsm of h.
-/
import proofs.«153693_j23948737643064_1_alg».proof.Proof.Spec
import proofs.«153693_j23948737643064_1_alg».proof.Proof.ReadP
import Idealize.ShloMosaic.PureOps.Reduce
import Idealize.ShloMosaic.PureOps.Ideal
import Idealize.ShloMosaic.PureOps.Ideal.Laws
import Idealize.ShloMosaic.Lib.ValueIdx

noncomputable section

namespace Cert.ReferenceIdeal.Softmax

open Cert.ReferenceIdeal Cert.ReferenceIdeal.ReadP Cert.ReferenceIdeal.Facts₀ Idealize.ShloMosaic Idealize.ShloMosaic.ValueIdx

-- the logits are an opaque array here: nothing below depends on how they were computed
attribute [local irreducible] Cert.ReferenceIdeal.ReadP.val_main_v132

/-- The host's row maximum at row p: the fold of max from the word of minus infinity over the 40 classes. -/
theorem hostRowMax (y : S100000x40.Idx → Ideal .f32) (p : Fin 100000) :
    Host.reduce (FloatOps.maximumf (F := Ideal) (φ := .f32)) y (val_main_call3_cst (F := Ideal))
        reducesTo_S100000x40_S100000_d1 h_S_ (ix1 p)
      = Cert.Spec.rowMax y p := by
  refine (Host.reduce_eq_fold_single (FloatOps.maximumf (F := Ideal) (φ := .f32)) y _ reducesTo_S100000x40_S100000_d1 (by decide) h_S_ (ix1 p)).trans ?_
  unfold Cert.Spec.rowMax
  exact congrArg (fun f : Fin 40 → Ideal .f32 => Finset.fold max (Ideal.ofBits .f32 0xFF800000#32) f Finset.univ)
    (funext fun k => congrArg y (funext fun a => Fin.ext (by match a with | ⟨0, _⟩ => rfl | ⟨1, _⟩ => rfl)))

/-- The fold of max from b is at least b, so taking the maximum with b again changes nothing. -/
theorem max_rowMax (y : S100000x40.Idx → Ideal .f32) (p : Fin 100000) :
    max (Ideal.ofBits .f32 0xFF800000#32) (Cert.Spec.rowMax y p) = Cert.Spec.rowMax y p := by
  unfold Cert.Spec.rowMax
  exact max_eq_right ((Finset.le_fold_max _).2 (Or.inl le_rfl))

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x40, .f32⟩ : BufTy).Contents (Elt Ideal)) (x11 : (⟨S40, .f32⟩ : BufTy).Contents (Elt Ideal))

/-- The stabiliser M_p: the reduce over the classes, then the maximum with the splat of minus infinity, is the row maximum. -/
theorem stage_max (p : Fin 100000) :
    val_main_call3_v2 (F := Ideal) x0 x1 x2 x3 x4 x5 x6 x7 x8 x9 x10 x11 (ix1 p) = Cert.Spec.rowMax (val_main_v132 (F := Ideal) x0 x1 x2 x3 x4 x5 x6 x7 x8 x9 x10 x11) p := by
  rw [val_main_call3_v2_apply, val_main_call3_v1_apply, val_main_call3_cst_0_apply]
  unfold val_main_call3_v0
  generalize val_main_v132 (F := Ideal) x0 x1 x2 x3 x4 x5 x6 x7 x8 x9 x10 x11 = y
  rw [hostRowMax y p]
  exact max_rowMax y p

/-- The shifted logits: entry (p, q) is h(p, q) − M_p (the maximum's column broadcast along the classes). -/
theorem stage_shift (p : Fin 100000) (q : Fin 40) :
    val_main_call3_v5 (F := Ideal) x0 x1 x2 x3 x4 x5 x6 x7 x8 x9 x10 x11 (ix2 p q)
      = val_main_v132 (F := Ideal) x0 x1 x2 x3 x4 x5 x6 x7 x8 x9 x10 x11 (ix2 p q) - Cert.Spec.rowMax (val_main_v132 (F := Ideal) x0 x1 x2 x3 x4 x5 x6 x7 x8 x9 x10 x11) p := by
  rw [val_main_call3_v5_apply, val_main_call3_v4_apply, val_main_call3_v3_apply]
  have e : idx_main_call3_v3 (idx_main_call3_v4 (ix2 p q)) = ix1 p :=
    funext fun a => Fin.ext (by match a with | ⟨0, _⟩ => rfl)
  rw [e, stage_max]
  generalize val_main_v132 (F := Ideal) x0 x1 x2 x3 x4 x5 x6 x7 x8 x9 x10 x11 = y
  rfl

/-- The exponentials of the shifted row, summed from the zero word: ∑_k exp (h(p, k) − M_p). -/
theorem stage_sum (p : Fin 100000) :
    val_main_call3_v7 (F := Ideal) x0 x1 x2 x3 x4 x5 x6 x7 x8 x9 x10 x11 (ix1 p)
      = ∑ k : Fin 40, Ideal.exp (val_main_v132 (F := Ideal) x0 x1 x2 x3 x4 x5 x6 x7 x8 x9 x10 x11 (ix2 p k) - Cert.Spec.rowMax (val_main_v132 (F := Ideal) x0 x1 x2 x3 x4 x5 x6 x7 x8 x9 x10 x11) p) := by
  rw [val_main_call3_v7_apply, val_main_call3_cst_1_apply]
  have e : ∀ k : Fin 40, val_main_call3_v6 (F := Ideal) x0 x1 x2 x3 x4 x5 x6 x7 x8 x9 x10 x11 (idx_main_call3_v7 (ix1 p) k)
      = Ideal.exp (val_main_v132 (F := Ideal) x0 x1 x2 x3 x4 x5 x6 x7 x8 x9 x10 x11 (ix2 p k) - Cert.Spec.rowMax (val_main_v132 (F := Ideal) x0 x1 x2 x3 x4 x5 x6 x7 x8 x9 x10 x11) p) := fun k => by
    have e' : idx_main_call3_v7 (ix1 p) k = ix2 p k :=
      funext fun a => Fin.ext (by match a with | ⟨0, _⟩ => rfl | ⟨1, _⟩ => rfl)
    rw [e', val_main_call3_v6_apply, stage_shift]
    generalize val_main_v132 (F := Ideal) x0 x1 x2 x3 x4 x5 x6 x7 x8 x9 x10 x11 = y
    rfl
  refine (congrArg (FloatOps.ofBits (F := Ideal) .f32 0x00000000#32 + ·) (Finset.sum_congr rfl fun k _ => e k)).trans ?_
  generalize val_main_v132 (F := Ideal) x0 x1 x2 x3 x4 x5 x6 x7 x8 x9 x10 x11 = y
  exact (congrArg (· + _) Ideal.ofBits_zero_f32).trans (zero_add _)

/-- The plain program's log-softmax is the row log-softmax of its logits:
    entry (p, q) is (h(p, q) − M_p) − log ∑_k exp (h(p, k) − M_p). -/
theorem lsm_whole : val_main_v133 (F := Ideal) x0 x1 x2 x3 x4 x5 x6 x7 x8 x9 x10 x11 = Cert.Spec.lsm (val_main_v132 (F := Ideal) x0 x1 x2 x3 x4 x5 x6 x7 x8 x9 x10 x11) := by
  funext i
  obtain ⟨p, q, rfl⟩ : ∃ (p : Fin 100000) (q : Fin 40), i = ix2 p q := ⟨i 0, i 1, eq_ix2 i⟩
  rw [val_main_v133_apply, val_main_call3_v10_apply, val_main_call3_v9_apply, val_main_call3_v8_apply, stage_shift]
  have e : idx_main_call3_v8 (idx_main_call3_v10 (ix2 p q)) = ix1 p :=
    funext fun a => Fin.ext (by match a with | ⟨0, _⟩ => rfl)
  rw [e, stage_sum]
  generalize val_main_v132 (F := Ideal) x0 x1 x2 x3 x4 x5 x6 x7 x8 x9 x10 x11 = y
  rfl

end Cert.ReferenceIdeal.Softmax

end
-- ==== Proof.WholeProducts.lean ====
/-
  The plain program's three feature products are the specification's products.

  A feature product writes, at (r, c), the sum over the 128 input features k of the left operand at (r, k) times
  the right operand at (k, c). The reading lemmas of the plain program state exactly this sum, with the two operand indices
  given coordinate by coordinate; here those indices are identified with (r, k) and (k, c).
-/
import proofs.«153693_j23948737643064_1_alg».proof.Proof.ReadP
import proofs.«153693_j23948737643064_1_alg».proof.Proof.Spec
import Idealize.ShloMosaic.Lib.ValueIdx

noncomputable section

namespace Cert.ReferenceIdeal.Stages

open Cert.ReferenceIdeal Cert.ReferenceIdeal.Gen Idealize.ShloMosaic Idealize.ShloMosaic.ValueIdx

/-- The first product: the node features times the first weight matrix. -/
theorem lin_first (x0 : (⟨S100000x128, .f32⟩ : BufTy).Contents (Elt Ideal))
    (x2 : (⟨S128x128, .f32⟩ : BufTy).Contents (Elt Ideal)) :
    ReadP.val_main_v30 (F := Ideal) x0 x2 = Cert.Spec.lin128 x0 x2 := by
  funext i
  rw [ReadP.val_main_v30_apply]
  unfold Cert.Spec.lin128
  refine Finset.sum_congr rfl fun k _ => ?_
  have el : ReadP.lidx_main_v30 i k = ix2 (i 0) k :=
    funext fun a => Fin.ext (by match a with | ⟨0, _⟩ => rfl | ⟨1, _⟩ => rfl)
  have er : ReadP.ridx_main_v30 i k = ix2 k (i 1) :=
    funext fun a => Fin.ext (by match a with | ⟨0, _⟩ => rfl | ⟨1, _⟩ => rfl)
  rw [el, er]
  rfl

/-- The second product: the first layer's activations times the second weight matrix. -/
theorem lin_second (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 : (⟨S128, .f32⟩ : BufTy).Contents (Elt Ideal))
    (x6 : (⟨S128x128, .f32⟩ : BufTy).Contents (Elt Ideal)) :
    ReadP.val_main_v73 (F := Ideal) x0 x1 x2 x3 x4 x5 x6
      = Cert.Spec.lin128 (ReadP.val_main_v72 (F := Ideal) x0 x1 x2 x3 x4 x5) x6 := by
  funext i
  rw [ReadP.val_main_v73_apply]
  unfold Cert.Spec.lin128
  refine Finset.sum_congr rfl fun k _ => ?_
  have el : ReadP.lidx_main_v73 i k = ix2 (i 0) k :=
    funext fun a => Fin.ext (by match a with | ⟨0, _⟩ => rfl | ⟨1, _⟩ => rfl)
  have er : ReadP.ridx_main_v73 i k = ix2 k (i 1) :=
    funext fun a => Fin.ext (by match a with | ⟨0, _⟩ => rfl | ⟨1, _⟩ => rfl)
  rw [el, er]
  rfl

/-- The third product: the second layer's activations times the class weight matrix. -/
theorem lin_third (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (x10 : (⟨S128x40, .f32⟩ : BufTy).Contents (Elt Ideal)) :
    ReadP.val_main_v116 (F := Ideal) x0 x1 x2 x3 x4 x5 x6 x7 x8 x9 x10
      = Cert.Spec.lin40 (ReadP.val_main_v115 (F := Ideal) x0 x1 x2 x3 x4 x5 x6 x7 x8 x9) x10 := by
  funext i
  rw [ReadP.val_main_v116_apply]
  unfold Cert.Spec.lin40
  refine Finset.sum_congr rfl fun k _ => ?_
  have el : ReadP.lidx_main_v116 i k = ix2 (i 0) k :=
    funext fun a => Fin.ext (by match a with | ⟨0, _⟩ => rfl | ⟨1, _⟩ => rfl)
  have er : ReadP.ridx_main_v116 i k = ix2 k (i 1) :=
    funext fun a => Fin.ext (by match a with | ⟨0, _⟩ => rfl | ⟨1, _⟩ => rfl)
  rw [el, er]
  rfl

end Cert.ReferenceIdeal.Stages

end
-- ==== Proof.WholeActivations.lean ====
/-
  The plain program's two normalise-and-clamp stages are the specification's activation.

  The program spells γ · (h − μ) · rsqrt (v + ε) + β, clamped below at zero, on whole arrays: each per-feature vector
  (μ, v + ε under rsqrt, γ, β) is first laid out as one row of 128 and then repeated down the 100000 rows, so its
  entry at (r, k) is the vector's entry at k; ε and the zero of the clamp are constant arrays of one float word each.
  Reading the stage at an index therefore gives the specification's expression entry by entry.
-/
import proofs.«153693_j23948737643064_1_alg».proof.Proof.ReadP
import proofs.«153693_j23948737643064_1_alg».proof.Proof.Spec
import Idealize.ShloMosaic.Lib.ValueIdx

noncomputable section

namespace Cert.ReferenceIdeal.Stages

open Cert.ReferenceIdeal Cert.ReferenceIdeal.Gen Idealize.ShloMosaic Idealize.ShloMosaic.ValueIdx

/-- The first layer's activation, from its aggregated features, their per-feature mean and variance, and (γ, β). -/
theorem act_first (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 : (⟨S128, .f32⟩ : BufTy).Contents (Elt Ideal)) :
    ReadP.val_main_v72 (F := Ideal) x0 x1 x2 x3 x4 x5
      = Cert.Spec.act (ReadP.val_main_v46 (F := Ideal) x0 x1 x2 x3) (ReadP.val_main_v49 (F := Ideal) x0 x1 x2 x3)
          (ReadP.val_main_v56 (F := Ideal) x0 x1 x2 x3) x4 x5 := by
  funext i
  -- a vector laid out as a row and repeated down the rows is read at the column coordinate
  have eγ : ReadP.idx_main_v60 (ReadP.idx_main_v61 i) = ix1 (i 1) :=
    funext fun a => Fin.ext (by match a with | ⟨0, _⟩ => rfl)
  have eμ : ReadP.idx_main_v57 (ReadP.idx_main_v58 i) = ix1 (i 1) :=
    funext fun a => Fin.ext (by match a with | ⟨0, _⟩ => rfl)
  have ev : ReadP.idx_main_v66 (ReadP.idx_main_v67 i) = ix1 (i 1) :=
    funext fun a => Fin.ext (by match a with | ⟨0, _⟩ => rfl)
  have eβ : ReadP.idx_main_v69 (ReadP.idx_main_v70 i) = ix1 (i 1) :=
    funext fun a => Fin.ext (by match a with | ⟨0, _⟩ => rfl)
  rw [ReadP.val_main_v72_apply, ReadP.val_main_v71_apply, ReadP.val_main_v68_apply, ReadP.val_main_v62_apply, ReadP.val_main_v61_apply, ReadP.val_main_v60_apply, ReadP.val_main_v59_apply, ReadP.val_main_v58_apply, ReadP.val_main_v57_apply, ReadP.val_main_v67_apply, ReadP.val_main_v66_apply, ReadP.val_main_v65_apply, ReadP.val_main_v64_apply, ReadP.val_main_v63_apply, ReadP.val_main_cst_13_apply, ReadP.val_main_v70_apply, ReadP.val_main_v69_apply, ReadP.val_main_call1_v0_apply, ReadP.val_main_call1_cst_apply]
  rw [eγ, eμ, ev, eβ]
  rfl

/-- The second layer's activation, likewise. -/
theorem act_second (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal)) :
    ReadP.val_main_v115 (F := Ideal) x0 x1 x2 x3 x4 x5 x6 x7 x8 x9
      = Cert.Spec.act (ReadP.val_main_v89 (F := Ideal) x0 x1 x2 x3 x4 x5 x6 x7)
          (ReadP.val_main_v92 (F := Ideal) x0 x1 x2 x3 x4 x5 x6 x7)
          (ReadP.val_main_v99 (F := Ideal) x0 x1 x2 x3 x4 x5 x6 x7) x8 x9 := by
  funext i
  have eγ : ReadP.idx_main_v103 (ReadP.idx_main_v104 i) = ix1 (i 1) :=
    funext fun a => Fin.ext (by match a with | ⟨0, _⟩ => rfl)
  have eμ : ReadP.idx_main_v100 (ReadP.idx_main_v101 i) = ix1 (i 1) :=
    funext fun a => Fin.ext (by match a with | ⟨0, _⟩ => rfl)
  have ev : ReadP.idx_main_v109 (ReadP.idx_main_v110 i) = ix1 (i 1) :=
    funext fun a => Fin.ext (by match a with | ⟨0, _⟩ => rfl)
  have eβ : ReadP.idx_main_v112 (ReadP.idx_main_v113 i) = ix1 (i 1) :=
    funext fun a => Fin.ext (by match a with | ⟨0, _⟩ => rfl)
  rw [ReadP.val_main_v115_apply, ReadP.val_main_v114_apply, ReadP.val_main_v111_apply, ReadP.val_main_v105_apply, ReadP.val_main_v104_apply, ReadP.val_main_v103_apply, ReadP.val_main_v102_apply, ReadP.val_main_v101_apply, ReadP.val_main_v100_apply, ReadP.val_main_v110_apply, ReadP.val_main_v109_apply, ReadP.val_main_v108_apply, ReadP.val_main_v107_apply, ReadP.val_main_v106_apply, ReadP.val_main_cst_21_apply, ReadP.val_main_v113_apply, ReadP.val_main_v112_apply, ReadP.val_main_call2_v0_apply, ReadP.val_main_call2_cst_apply]
  rw [eγ, eμ, ev, eβ]
  rfl

end Cert.ReferenceIdeal.Stages

end
-- ==== Proof.BoundaryValues.lean ====
/-
  The tiled program's result as the plain program's last stage of the launch arrays.

  Boundary by boundary: before the first region the edge lists and edge weights are the plain program's; the first
  region leaves the feature product of the input rows; the next stretch aggregates it over the edges and takes the
  per-feature mean and variance; the second region leaves the product of the normalised, clamped rows with the second
  weight matrix; and so on through the third region and the row log-softmax. Each step cites the stretch's lemma (the
  host operations are the same on both sides) or the region's (its blocks tile the array) and the plain program's
  stage of the same name.
-/
import proofs.«153693_j23948737643064_1_alg».proof.Proof.Gen.KernelIdeal.Frame
import proofs.«153693_j23948737643064_1_alg».proof.Proof.ReadP
import proofs.«153693_j23948737643064_1_alg».proof.Proof.Spec
import proofs.«153693_j23948737643064_1_alg».proof.Proof.HostStagesEntry
import proofs.«153693_j23948737643064_1_alg».proof.Proof.HostStagesSelect
import proofs.«153693_j23948737643064_1_alg».proof.Proof.HostStagesFirst
import proofs.«153693_j23948737643064_1_alg».proof.Proof.HostStagesSecond
import proofs.«153693_j23948737643064_1_alg».proof.Proof.HostStagesThird
import proofs.«153693_j23948737643064_1_alg».proof.Proof.FeatureProductTile
import proofs.«153693_j23948737643064_1_alg».proof.Proof.NormalisedProductTile128
import proofs.«153693_j23948737643064_1_alg».proof.Proof.NormalisedProductTile40
import proofs.«153693_j23948737643064_1_alg».proof.Proof.LogSoftmaxTile
import proofs.«153693_j23948737643064_1_alg».proof.Proof.LogSoftmaxWhole
import proofs.«153693_j23948737643064_1_alg».proof.Proof.WholeProducts
import proofs.«153693_j23948737643064_1_alg».proof.Proof.WholeActivations
import Idealize.ShloMosaic.Lib.ValueIdx
import Idealize.ShloMosaic.Lib.Pipeline.Value

set_option maxRecDepth 16384

noncomputable section

namespace Cert.KernelIdeal.Whole

open Cert.KernelIdeal Cert.KernelIdeal.Gen Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- A 128-vector recast as a one-row array, read at (0, q), is the vector at q. -/
theorem cast_row (x : S128.Idx → EReal) (h : S128.ShapeCasts S1x128) :
    (fun j : (⟨1, ![128]⟩ : Shape).Idx => shapeCast S1x128 x h (ix2 (0 : Fin 1) (j 0))) = x := by
  funext j
  refine (shapeCast_apply x h _ j ?_).trans rfl
  rw [Shape.rowMajor_val_one, Shape.rowMajor_val_two]
  show (j 0).val = (0 : Fin 1).val * 128 + (j 0).val
  simp

/-! ## Before the first region -/

/-- An argument array is still the launch array when the first region is entered. -/
theorem arg_at3 (b : Ref sig .tc) (hb : b = main_arg0 ∨ b = main_arg2 ∨ b = main_arg3 ∨ b = main_arg4 ∨ b = main_arg5 ∨ b = main_arg6 ∨ b = main_arg7 ∨ b = main_arg8 ∨ b = main_arg9 ∨ b = main_arg10 ∨ b = main_arg11) :
    W3 m ρ c (Proc.devRef .tc b) = m ((c : Thread nD τ).loc b) := by
  rcases hb with rfl | rfl | rfl | rfl | rfl | rfl | rfl | rfl | rfl | rfl | rfl <;>
  exact (weight_keeps (W2 m ρ c) _ (by decide)).trans ((sel_keeps (W1 m ρ c) _ (by decide)).trans (open_keeps (W0 m ρ c) _ (by decide)))

theorem src_at3 : W3 m ρ c (Proc.devRef .tc main_v3) = val_main_v3 (F := Ideal) (m ((c : Thread nD τ).loc main_arg1)) :=
  (weight_keeps (W2 m ρ c) main_v3 (by decide)).trans ((sel_keeps (W1 m ρ c) main_v3 (by decide)).trans (open_src (W0 m ρ c) _ rfl))

theorem dst_at3 : W3 m ρ c (Proc.devRef .tc main_v6) = val_main_v6 (F := Ideal) (m ((c : Thread nD τ).loc main_arg1)) :=
  (weight_keeps (W2 m ρ c) main_v6 (by decide)).trans ((sel_keeps (W1 m ρ c) main_v6 (by decide)).trans (open_dst (W0 m ρ c) _ rfl))

theorem wgt_at3 : W3 m ρ c (Proc.devRef .tc main_v29) = val_main_v29 (F := Ideal) (m ((c : Thread nD τ).loc main_arg1)) :=
  edge_weight (W2 m ρ c) _
    (sel_inv (W1 m ρ c) _ (open_pos (W0 m ρ c) _ rfl) (open_inv (W0 m ρ c) _ rfl) (open_zero (W0 m ρ c)))
    ((sel_keeps (W1 m ρ c) main_v3 (by decide)).trans (open_src (W0 m ρ c) _ rfl))
    ((sel_keeps (W1 m ρ c) main_v6 (by decide)).trans (open_dst (W0 m ρ c) _ rfl))

/-! ## The first region and the first layer's stretch -/

theorem prod_at4 : W4 m ρ c (Proc.devRef .tc main_v30)
    = val_main_v30 (F := Ideal) (m ((c : Thread nD τ).loc main_arg0)) (m ((c : Thread nD τ).loc main_arg2)) :=
  (W4_arr m ρ c 2).trans ((Cert.KernelIdeal.Tiles.final0 (V3 m ρ) c).trans
    ((congrArg₂ Cert.Spec.lin128 (arg_at3 m ρ c main_arg0 (by decide)) (arg_at3 m ρ c main_arg2 (by decide))).trans
      (Cert.ReferenceIdeal.Stages.lin_first _ _).symm))

/-- A buffer that is not one of the first region's arrays, at its exit. -/
theorem src_at4 : W4 m ρ c (Proc.devRef .tc main_v3) = val_main_v3 (F := Ideal) (m ((c : Thread nD τ).loc main_arg1)) :=
  (W4_of_ne m ρ c main_v3 (by decide)).trans (src_at3 m ρ c)
theorem dst_at4 : W4 m ρ c (Proc.devRef .tc main_v6) = val_main_v6 (F := Ideal) (m ((c : Thread nD τ).loc main_arg1)) :=
  (W4_of_ne m ρ c main_v6 (by decide)).trans (dst_at3 m ρ c)
theorem wgt_at4 : W4 m ρ c (Proc.devRef .tc main_v29) = val_main_v29 (F := Ideal) (m ((c : Thread nD τ).loc main_arg1)) :=
  (W4_of_ne m ρ c main_v29 (by decide)).trans (wgt_at3 m ρ c)
theorem arg_at4 (b : Ref sig .tc) (hb : b = main_arg3 ∨ b = main_arg4 ∨ b = main_arg5 ∨ b = main_arg6 ∨ b = main_arg7 ∨ b = main_arg8 ∨ b = main_arg9 ∨ b = main_arg10 ∨ b = main_arg11) :
    W4 m ρ c (Proc.devRef .tc b) = m ((c : Thread nD τ).loc b) := by
  rcases hb with rfl | rfl | rfl | rfl | rfl | rfl | rfl | rfl | rfl <;>
  exact (W4_of_ne m ρ c _ (by decide)).trans (arg_at3 m ρ c _ (by decide))

theorem rows_at5 : W5 m ρ c (Proc.devRef .tc main_v46) = val_main_v46 (F := Ideal) (m ((c : Thread nD τ).loc main_arg0))
    (m ((c : Thread nD τ).loc main_arg1)) (m ((c : Thread nD τ).loc main_arg2)) (m ((c : Thread nD τ).loc main_arg3)) :=
  rows_first (W4 m ρ c) _ _ _ _ (prod_at4 m ρ c) (src_at4 m ρ c) (dst_at4 m ρ c) (wgt_at4 m ρ c) (arg_at4 m ρ c main_arg3 (by decide))
theorem mean_at5 : W5 m ρ c (Proc.devRef .tc main_v57) = shapeCast S1x128 (val_main_v49 (F := Ideal) (m ((c : Thread nD τ).loc main_arg0))
    (m ((c : Thread nD τ).loc main_arg1)) (m ((c : Thread nD τ).loc main_arg2)) (m ((c : Thread nD τ).loc main_arg3))) shapeCasts_S128_S1x128 :=
  mean_first (W4 m ρ c) _ _ _ _ (prod_at4 m ρ c) (src_at4 m ρ c) (dst_at4 m ρ c) (wgt_at4 m ρ c) (arg_at4 m ρ c main_arg3 (by decide))
theorem var_at5 : W5 m ρ c (Proc.devRef .tc main_v58) = shapeCast S1x128 (val_main_v56 (F := Ideal) (m ((c : Thread nD τ).loc main_arg0))
    (m ((c : Thread nD τ).loc main_arg1)) (m ((c : Thread nD τ).loc main_arg2)) (m ((c : Thread nD τ).loc main_arg3))) shapeCasts_S128_S1x128 :=
  var_first (W4 m ρ c) _ _ _ _ (prod_at4 m ρ c) (src_at4 m ρ c) (dst_at4 m ρ c) (wgt_at4 m ρ c) (arg_at4 m ρ c main_arg3 (by decide))
theorem scale_at5 : W5 m ρ c (Proc.devRef .tc main_v59) = shapeCast S1x128 (m ((c : Thread nD τ).loc main_arg4)) shapeCasts_S128_S1x128 :=
  scale_first (W4 m ρ c) _ (arg_at4 m ρ c main_arg4 (by decide))
theorem shift_at5 : W5 m ρ c (Proc.devRef .tc main_v60) = shapeCast S1x128 (m ((c : Thread nD τ).loc main_arg5)) shapeCasts_S128_S1x128 :=
  shift_first (W4 m ρ c) _ (arg_at4 m ρ c main_arg5 (by decide))
theorem src_at5 : W5 m ρ c (Proc.devRef .tc main_v3) = val_main_v3 (F := Ideal) (m ((c : Thread nD τ).loc main_arg1)) :=
  (first_keeps (W4 m ρ c) main_v3 (by decide)).trans (src_at4 m ρ c)
theorem dst_at5 : W5 m ρ c (Proc.devRef .tc main_v6) = val_main_v6 (F := Ideal) (m ((c : Thread nD τ).loc main_arg1)) :=
  (first_keeps (W4 m ρ c) main_v6 (by decide)).trans (dst_at4 m ρ c)
theorem wgt_at5 : W5 m ρ c (Proc.devRef .tc main_v29) = val_main_v29 (F := Ideal) (m ((c : Thread nD τ).loc main_arg1)) :=
  (first_keeps (W4 m ρ c) main_v29 (by decide)).trans (wgt_at4 m ρ c)
theorem arg_at5 (b : Ref sig .tc) (hb : b = main_arg6 ∨ b = main_arg7 ∨ b = main_arg8 ∨ b = main_arg9 ∨ b = main_arg10 ∨ b = main_arg11) :
    W5 m ρ c (Proc.devRef .tc b) = m ((c : Thread nD τ).loc b) := by
  rcases hb with rfl | rfl | rfl | rfl | rfl | rfl <;>
  exact (first_keeps (W4 m ρ c) _ (by decide)).trans (arg_at4 m ρ c _ (by decide))

/-! ## The second region and the second layer's stretch -/

theorem prod_at6 : W6 m ρ c (Proc.devRef .tc main_v61) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 6).trans ((Cert.KernelIdeal.Tiles.final1 (V5 m ρ) c).trans ?_)
  have e0 : V5 m ρ c main_v46 = val_main_v46 (F := Ideal) (m ((c : Thread nD τ).loc main_arg0)) (m ((c : Thread nD τ).loc main_arg1)) (m ((c : Thread nD τ).loc main_arg2)) (m ((c : Thread nD τ).loc main_arg3)) := rows_at5 m ρ c
  have e1 : (fun j : (⟨1, ![128]⟩ : Shape).Idx => V5 m ρ c main_v57 (ix2 0 (j 0))) = val_main_v49 (F := Ideal) (m ((c : Thread nD τ).loc main_arg0)) (m ((c : Thread nD τ).loc main_arg1)) (m ((c : Thread nD τ).loc main_arg2)) (m ((c : Thread nD τ).loc main_arg3)) :=
    (congrArg (fun (w : S1x128.Idx → EReal) => fun j : (⟨1, ![128]⟩ : Shape).Idx => w (ix2 (0 : Fin 1) (j 0))) (mean_at5 m ρ c)).trans (cast_row _ _)
  have e2 : (fun j : (⟨1, ![128]⟩ : Shape).Idx => V5 m ρ c main_v58 (ix2 0 (j 0))) = val_main_v56 (F := Ideal) (m ((c : Thread nD τ).loc main_arg0)) (m ((c : Thread nD τ).loc main_arg1)) (m ((c : Thread nD τ).loc main_arg2)) (m ((c : Thread nD τ).loc main_arg3)) :=
    (congrArg (fun (w : S1x128.Idx → EReal) => fun j : (⟨1, ![128]⟩ : Shape).Idx => w (ix2 (0 : Fin 1) (j 0))) (var_at5 m ρ c)).trans (cast_row _ _)
  have e3 : (fun j : (⟨1, ![128]⟩ : Shape).Idx => V5 m ρ c main_v59 (ix2 0 (j 0))) = (m ((c : Thread nD τ).loc main_arg4)) :=
    (congrArg (fun (w : S1x128.Idx → EReal) => fun j : (⟨1, ![128]⟩ : Shape).Idx => w (ix2 (0 : Fin 1) (j 0))) (scale_at5 m ρ c)).trans (cast_row _ _)
  have e4 : (fun j : (⟨1, ![128]⟩ : Shape).Idx => V5 m ρ c main_v60 (ix2 0 (j 0))) = (m ((c : Thread nD τ).loc main_arg5)) :=
    (congrArg (fun (w : S1x128.Idx → EReal) => fun j : (⟨1, ![128]⟩ : Shape).Idx => w (ix2 (0 : Fin 1) (j 0))) (shift_at5 m ρ c)).trans (cast_row _ _)
  have e5 : V5 m ρ c main_arg6 = (m ((c : Thread nD τ).loc main_arg6)) := arg_at5 m ρ c main_arg6 (by decide)
  rewrite [e0, e1, e2, e3, e4, e5]
  exact ((Cert.ReferenceIdeal.Stages.lin_second _ _ _ _ _ _ _).trans
    (congrArg (fun t => Cert.Spec.lin128 t _) (Cert.ReferenceIdeal.Stages.act_first _ _ _ _ _ _))).symm

theorem src_at6 : W6 m ρ c (Proc.devRef .tc main_v3) = val_main_v3 (F := Ideal) (m ((c : Thread nD τ).loc main_arg1)) :=
  (W6_of_ne m ρ c main_v3 (by decide)).trans (src_at5 m ρ c)
theorem dst_at6 : W6 m ρ c (Proc.devRef .tc main_v6) = val_main_v6 (F := Ideal) (m ((c : Thread nD τ).loc main_arg1)) :=
  (W6_of_ne m ρ c main_v6 (by decide)).trans (dst_at5 m ρ c)
theorem wgt_at6 : W6 m ρ c (Proc.devRef .tc main_v29) = val_main_v29 (F := Ideal) (m ((c : Thread nD τ).loc main_arg1)) :=
  (W6_of_ne m ρ c main_v29 (by decide)).trans (wgt_at5 m ρ c)
theorem arg_at6 (b : Ref sig .tc) (hb : b = main_arg7 ∨ b = main_arg8 ∨ b = main_arg9 ∨ b = main_arg10 ∨ b = main_arg11) :
    W6 m ρ c (Proc.devRef .tc b) = m ((c : Thread nD τ).loc b) := by
  rcases hb with rfl | rfl | rfl | rfl | rfl <;>
  exact (W6_of_ne m ρ c _ (by decide)).trans (arg_at5 m ρ c _ (by decide))

theorem rows_at7 : W7 m ρ c (Proc.devRef .tc main_v77) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  rows_second (W6 m ρ c) _ _ _ _ _ _ _ _ (prod_at6 m ρ c) (src_at6 m ρ c) (dst_at6 m ρ c) (wgt_at6 m ρ c) (arg_at6 m ρ c main_arg7 (by decide))
theorem mean_at7 : W7 m ρ c (Proc.devRef .tc main_v88) = shapeCast S1x128 (val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) shapeCasts_S128_S1x128 :=
  mean_second (W6 m ρ c) _ _ _ _ _ _ _ _ (prod_at6 m ρ c) (src_at6 m ρ c) (dst_at6 m ρ c) (wgt_at6 m ρ c) (arg_at6 m ρ c main_arg7 (by decide))
theorem var_at7 : W7 m ρ c (Proc.devRef .tc main_v89) = shapeCast S1x128 (val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) shapeCasts_S128_S1x128 :=
  var_second (W6 m ρ c) _ _ _ _ _ _ _ _ (prod_at6 m ρ c) (src_at6 m ρ c) (dst_at6 m ρ c) (wgt_at6 m ρ c) (arg_at6 m ρ c main_arg7 (by decide))
theorem scale_at7 : W7 m ρ c (Proc.devRef .tc main_v90) = shapeCast S1x128 (m ((c : Thread nD τ).loc main_arg8)) shapeCasts_S128_S1x128 :=
  scale_second (W6 m ρ c) _ (arg_at6 m ρ c main_arg8 (by decide))
theorem shift_at7 : W7 m ρ c (Proc.devRef .tc main_v91) = shapeCast S1x128 (m ((c : Thread nD τ).loc main_arg9)) shapeCasts_S128_S1x128 :=
  shift_second (W6 m ρ c) _ (arg_at6 m ρ c main_arg9 (by decide))
theorem src_at7 : W7 m ρ c (Proc.devRef .tc main_v3) = val_main_v3 (F := Ideal) (m ((c : Thread nD τ).loc main_arg1)) :=
  (second_keeps (W6 m ρ c) main_v3 (by decide)).trans (src_at6 m ρ c)
theorem dst_at7 : W7 m ρ c (Proc.devRef .tc main_v6) = val_main_v6 (F := Ideal) (m ((c : Thread nD τ).loc main_arg1)) :=
  (second_keeps (W6 m ρ c) main_v6 (by decide)).trans (dst_at6 m ρ c)
theorem wgt_at7 : W7 m ρ c (Proc.devRef .tc main_v29) = val_main_v29 (F := Ideal) (m ((c : Thread nD τ).loc main_arg1)) :=
  (second_keeps (W6 m ρ c) main_v29 (by decide)).trans (wgt_at6 m ρ c)
theorem arg_at7 (b : Ref sig .tc) (hb : b = main_arg10 ∨ b = main_arg11) :
    W7 m ρ c (Proc.devRef .tc b) = m ((c : Thread nD τ).loc b) := by
  rcases hb with rfl | rfl <;>
  exact (second_keeps (W6 m ρ c) _ (by decide)).trans (arg_at6 m ρ c _ (by decide))

/-! ## The third region, the third layer's stretch, and the row log-softmax -/

theorem prod_at8 : W8 m ρ c (Proc.devRef .tc main_v92) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 6).trans ((Cert.KernelIdeal.Tiles.final2 (V7 m ρ) c).trans ?_)
  have e0 : V7 m ρ c main_v77 = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := rows_at7 m ρ c
  have e1 : (fun j : (⟨1, ![128]⟩ : Shape).Idx => V7 m ρ c main_v88 (ix2 0 (j 0))) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    (congrArg (fun (w : S1x128.Idx → EReal) => fun j : (⟨1, ![128]⟩ : Shape).Idx => w (ix2 (0 : Fin 1) (j 0))) (mean_at7 m ρ c)).trans (cast_row _ _)
  have e2 : (fun j : (⟨1, ![128]⟩ : Shape).Idx => V7 m ρ c main_v89 (ix2 0 (j 0))) = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    (congrArg (fun (w : S1x128.Idx → EReal) => fun j : (⟨1, ![128]⟩ : Shape).Idx => w (ix2 (0 : Fin 1) (j 0))) (var_at7 m ρ c)).trans (cast_row _ _)
  have e3 : (fun j : (⟨1, ![128]⟩ : Shape).Idx => V7 m ρ c main_v90 (ix2 0 (j 0))) = (m ((c : Thread nD τ).loc main_arg8)) :=
    (congrArg (fun (w : S1x128.Idx → EReal) => fun j : (⟨1, ![128]⟩ : Shape).Idx => w (ix2 (0 : Fin 1) (j 0))) (scale_at7 m ρ c)).trans (cast_row _ _)
  have e4 : (fun j : (⟨1, ![128]⟩ : Shape).Idx => V7 m ρ c main_v91 (ix2 0 (j 0))) = (m ((c : Thread nD τ).loc main_arg9)) :=
    (congrArg (fun (w : S1x128.Idx → EReal) => fun j : (⟨1, ![128]⟩ : Shape).Idx => w (ix2 (0 : Fin 1) (j 0))) (shift_at7 m ρ c)).trans (cast_row _ _)
  have e5 : V7 m ρ c main_arg10 = (m ((c : Thread nD τ).loc main_arg10)) := arg_at7 m ρ c main_arg10 (by decide)
  rewrite [e0, e1, e2, e3, e4, e5]
  exact ((Cert.ReferenceIdeal.Stages.lin_third _ _ _ _ _ _ _ _ _ _ _).trans
    (congrArg (fun t => Cert.Spec.lin40 t _) (Cert.ReferenceIdeal.Stages.act_second _ _ _ _ _ _ _ _ _ _))).symm

theorem rows_at9 : W9 m ρ c (Proc.devRef .tc main_v108) = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  rows_third (W8 m ρ c) _ _ _ _ _ _ _ _ _ _ _ _ (prod_at8 m ρ c)
    ((W8_of_ne m ρ c main_v3 (by decide)).trans (src_at7 m ρ c)) ((W8_of_ne m ρ c main_v6 (by decide)).trans (dst_at7 m ρ c))
    ((W8_of_ne m ρ c main_v29 (by decide)).trans (wgt_at7 m ρ c))
    ((W8_of_ne m ρ c main_arg11 (by decide)).trans (arg_at7 m ρ c main_arg11 (by decide)))

/-- The result array after the run is the plain program's last stage of the launch arrays. -/
theorem result_value : W10 m ρ c (Proc.devRef .tc main_v109) = val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_arr m ρ c 1).trans ((Cert.KernelIdeal.Softmax.final3 (V9 m ρ) c).trans ?_)
  have e0 : V9 m ρ c main_v108 = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := rows_at9 m ρ c
  rewrite [e0]
  exact (Cert.ReferenceIdeal.Softmax.lsm_whole _ _ _ _ _ _ _ _ _ _ _ _).symm

end Cert.KernelIdeal.Whole

end
-- ==== Proof.RunCuts.lean ====
/-
  Running a line of host operations in consecutive pieces.

  The contents after a line is a fold over its operations, so the contents after two lines run one after the other is
  the second's fold started from the first's result; and a line from its a-th operation on is its next n operations
  followed by the line from its (a + n)-th operation on. Together: what any buffer holds after the whole line can be
  read piece by piece, each piece started from the contents the pieces before it leave.
-/
import Idealize.ShloMosaic.Lib.StableHlo.Run

noncomputable section

namespace Cert.ReferenceIdeal.Whole

open Idealize.ShloMosaic Idealize.ShloMosaic.StableHlo

variable {τ : Topo} {sig : RefSig} {Val : EltTy → Type}

/-- Two lines one after the other: the second's fold from the first's result. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line from its a-th operation on: its next n operations, then the line from its (a + n)-th operation on. -/
theorem after_cut (l : List (HloOp τ sig Val)) (a n : Nat) (V : Valuation τ sig Val) :
    after (List.drop a l) V = after (List.drop (a + n) l) (after (List.take n (List.drop a l)) V) := by
  rw [← after_append, ← List.drop_drop, List.take_append_drop]

/-- Past its end a line is empty. -/
theorem after_drop_length (l : List (HloOp τ sig Val)) (n : Nat) (h : l.length ≤ n) (V : Valuation τ sig Val) :
    after (List.drop n l) V = V := by
  rw [List.drop_eq_nil_of_le h]; rfl

end Cert.ReferenceIdeal.Whole

end
-- ==== Proof.RunOpening.lean ====
/-
  The plain program's opening stretch of host operations (its first 18), read as stages: the source and destination
  lists with a self loop appended for every node, each node's degree as a scatter-add of ones over the destinations,
  whether that degree is positive, its inverse square root, and the zero used where it is not. Each lemma takes ANY
  contents V of the buffers before the stretch and says which stage a buffer holds after it; a buffer that no operation
  of the stretch writes keeps its contents.
-/
import proofs.«153693_j23948737643064_1_alg».proof.Proof.RunP
import proofs.«153693_j23948737643064_1_alg».proof.Proof.ReadP
import proofs.«153693_j23948737643064_1_alg».proof.Proof.ReadBack
import Idealize.ShloMosaic.Lib.StableHlo.Run

set_option maxRecDepth 16384

noncomputable section

namespace Cert.ReferenceIdeal.Whole

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable (V : Valuation τ sig (Elt Ideal))
variable (x0 : (⟨S100000x128, .f32⟩ : BufTy).Contents (Elt Ideal))
  (x1 : (⟨S2x1600000, .i32⟩ : BufTy).Contents (Elt Ideal))
  (x2 : (⟨S128x128, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))
  (x10 : (⟨S128x40, .f32⟩ : BufTy).Contents (Elt Ideal))
  (x11 : (⟨S40, .f32⟩ : BufTy).Contents (Elt Ideal))

theorem run_0_v3 (ha1 : V (Proc.devRef .tc main_arg1) = x1) :
    StableHlo.after (List.take 18 (List.drop 0 (ValueP.ops (F := Ideal)))) V (Proc.devRef .tc main_v3) = val_main_v3 (F := Ideal) x1 := by
  simp only [ValueP.ops, List.drop_succ_cons, List.drop_zero, List.take_succ_cons, List.take_zero]
  read_back; read_lists; rw [ha1]
  simp only [val_main_v0, val_main_v1, val_main_v2, val_main_v3]
  first | done | (rfl)

theorem run_0_v6 (ha1 : V (Proc.devRef .tc main_arg1) = x1) :
    StableHlo.after (List.take 18 (List.drop 0 (ValueP.ops (F := Ideal)))) V (Proc.devRef .tc main_v6) = val_main_v6 (F := Ideal) x1 := by
  simp only [ValueP.ops, List.drop_succ_cons, List.drop_zero, List.take_succ_cons, List.take_zero]
  read_back; read_lists; rw [ha1]
  simp only [val_main_v0, val_main_v4, val_main_v5, val_main_v6]
  first | done | (rfl)

theorem run_0_v12 (ha1 : V (Proc.devRef .tc main_arg1) = x1) :
    StableHlo.after (List.take 18 (List.drop 0 (ValueP.ops (F := Ideal)))) V (Proc.devRef .tc main_v12) = val_main_v12 (F := Ideal) x1 := by
  simp only [ValueP.ops, List.drop_succ_cons, List.drop_zero, List.take_succ_cons, List.take_zero]
  read_back; read_lists; rw [ha1]
  simp only [val_main_v0, val_main_v4, val_main_v5, val_main_v6, val_main_cst, val_main_v7, val_main_cst_0, val_main_v8, val_main_v9, val_main_v10, val_main_cst_1, val_main_v11, val_main_v12]
  first | done | (rfl)

theorem run_0_v13 (ha1 : V (Proc.devRef .tc main_arg1) = x1) :
    StableHlo.after (List.take 18 (List.drop 0 (ValueP.ops (F := Ideal)))) V (Proc.devRef .tc main_v13) = val_main_v13 (F := Ideal) x1 := by
  simp only [ValueP.ops, List.drop_succ_cons, List.drop_zero, List.take_succ_cons, List.take_zero]
  read_back; read_lists; rw [ha1]
  simp only [val_main_v0, val_main_v4, val_main_v5, val_main_v6, val_main_cst, val_main_v7, val_main_cst_0, val_main_v8, val_main_v9, val_main_v10, val_main_v13]
  first | done | (rfl)

theorem run_0_cst_2 :
    StableHlo.after (List.take 18 (List.drop 0 (ValueP.ops (F := Ideal)))) V (Proc.devRef .tc main_cst_2) = val_main_cst_2 (F := Ideal) := by
  simp only [ValueP.ops, List.drop_succ_cons, List.drop_zero, List.take_succ_cons, List.take_zero]
  read_back; read_lists; skip
  simp only [val_main_cst_2]
  first | done | (rfl)

theorem keeps_0 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    StableHlo.after (List.take 18 (List.drop 0 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl <;> read_back

end Cert.ReferenceIdeal.Whole

end
-- ==== Proof.PlainRunSelectClamp.lean ====
/-
  Three short stretches of the plain program's run, each the body of a called function, read as the plain program's
  stages: the selection (the scalar zero copied, repeated into a vector, and chosen where the mask fails) and the two
  clamps at zero (the scalar zero repeated into an array, then the entrywise maximum with it). Each is first read
  back over ARBITRARY operands, where the stretch's result is the operations' own term, and then instantiated at the
  stages; every buffer the stretch does not write keeps its contents.
-/
import proofs.«153693_j23948737643064_1_alg».proof.Proof.RunP
import proofs.«153693_j23948737643064_1_alg».proof.Proof.ReadP
import proofs.«153693_j23948737643064_1_alg».proof.Proof.ReadBack
import Idealize.ShloMosaic.Lib.StableHlo.Run

set_option maxRecDepth 16384

noncomputable section

namespace Cert.ReferenceIdeal.Whole

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable (V : Valuation τ sig (Elt Ideal))
variable (x0 : (⟨S100000x128, .f32⟩ : BufTy).Contents (Elt Ideal))
  (x1 : (⟨S2x1600000, .i32⟩ : BufTy).Contents (Elt Ideal))
  (x2 : (⟨S128x128, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))
  (x10 : (⟨S128x40, .f32⟩ : BufTy).Contents (Elt Ideal))
  (x11 : (⟨S40, .f32⟩ : BufTy).Contents (Elt Ideal))

/-! ## The called selection: operations 18, 19, 20 -/

/-- Over arbitrary operands: the result is the second operand where the mask holds, the splat of the scalar elsewhere. -/
theorem sel_of (y12 : (⟨S100000, .i1⟩ : BufTy).Contents (Elt Ideal)) (y13 : (⟨S100000, .f32⟩ : BufTy).Contents (Elt Ideal))
    (z : (⟨S_, .f32⟩ : BufTy).Contents (Elt Ideal))
    (h12 : V (Proc.devRef .tc main_v12) = y12) (h13 : V (Proc.devRef .tc main_v13) = y13)
    (hz : V (Proc.devRef .tc main_cst_2) = z) :
    StableHlo.after (List.take 3 (List.drop 18 (ValueP.ops (F := Ideal)))) V (Proc.devRef .tc main_v14)
      = select y12 y13 (broadcastInDim S100000 ![] Gen.bcast_S_S100000 (id z)) := by
  simp only [ValueP.ops, List.drop_succ_cons, List.drop_zero, List.take_succ_cons, List.take_zero]
  read_back
  rw [h12, h13, hz]
  rfl

theorem run_18_v14 (h_v12 : V (Proc.devRef .tc main_v12) = val_main_v12 (F := Ideal) x1)
    (h_v13 : V (Proc.devRef .tc main_v13) = val_main_v13 (F := Ideal) x1)
    (h_cst_2 : V (Proc.devRef .tc main_cst_2) = val_main_cst_2 (F := Ideal)) :
    StableHlo.after (List.take 3 (List.drop 18 (ValueP.ops (F := Ideal)))) V (Proc.devRef .tc main_v14)
      = val_main_v14 (F := Ideal) x1 := by
  refine (sel_of V _ _ _ h_v12 h_v13 h_cst_2).trans ?_
  unfold val_main_v14 val_main_call0_v1 val_main_call0_v0
  generalize val_main_v12 (F := Ideal) x1 = y12
  generalize val_main_v13 (F := Ideal) x1 = y13
  rfl

theorem keeps_18 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v6) :
    StableHlo.after (List.take 3 (List.drop 18 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl | rfl | rfl <;> read_back

/-! ## The first clamp at zero: operations 90, 91, 92 -/

/-- Over an arbitrary operand: the entrywise maximum with the splat of zero. -/
theorem relu_90_of (y : (⟨S100000x128, .f32⟩ : BufTy).Contents (Elt Ideal)) (h : V (Proc.devRef .tc main_v71) = y) :
    StableHlo.after (List.take 3 (List.drop 90 (ValueP.ops (F := Ideal)))) V (Proc.devRef .tc main_v72)
      = maximumf y (broadcastInDim S100000x128 ![] Gen.bcast_S_S100000x128 (constant (F := Ideal) S_ .f32 0x00000000#32)) := by
  simp only [ValueP.ops, List.drop_succ_cons, List.drop_zero, List.take_succ_cons, List.take_zero]
  read_back
  rw [h]
  rfl

theorem run_90_v72 (h_v71 : V (Proc.devRef .tc main_v71) = val_main_v71 (F := Ideal) x0 x1 x2 x3 x4 x5) :
    StableHlo.after (List.take 3 (List.drop 90 (ValueP.ops (F := Ideal)))) V (Proc.devRef .tc main_v72)
      = val_main_v72 (F := Ideal) x0 x1 x2 x3 x4 x5 := by
  refine (relu_90_of V _ h_v71).trans ?_
  unfold val_main_v72 val_main_call1_v0 val_main_call1_cst
  generalize val_main_v71 (F := Ideal) x0 x1 x2 x3 x4 x5 = y
  rfl

theorem keeps_90 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v29 ∨ b = main_v6) :
    StableHlo.after (List.take 3 (List.drop 90 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl | rfl | rfl | rfl <;> read_back

/-! ## The second clamp at zero: operations 143, 144, 145 -/

/-- Over an arbitrary operand: the entrywise maximum with the splat of zero. -/
theorem relu_143_of (y : (⟨S100000x128, .f32⟩ : BufTy).Contents (Elt Ideal)) (h : V (Proc.devRef .tc main_v114) = y) :
    StableHlo.after (List.take 3 (List.drop 143 (ValueP.ops (F := Ideal)))) V (Proc.devRef .tc main_v115)
      = maximumf y (broadcastInDim S100000x128 ![] Gen.bcast_S_S100000x128 (constant (F := Ideal) S_ .f32 0x00000000#32)) := by
  simp only [ValueP.ops, List.drop_succ_cons, List.drop_zero, List.take_succ_cons, List.take_zero]
  read_back
  rw [h]
  rfl

theorem run_143_v115 (h_v114 : V (Proc.devRef .tc main_v114) = val_main_v114 (F := Ideal) x0 x1 x2 x3 x4 x5 x6 x7 x8 x9) :
    StableHlo.after (List.take 3 (List.drop 143 (ValueP.ops (F := Ideal)))) V (Proc.devRef .tc main_v115)
      = val_main_v115 (F := Ideal) x0 x1 x2 x3 x4 x5 x6 x7 x8 x9 := by
  refine (relu_143_of V _ h_v114).trans ?_
  unfold val_main_v115 val_main_call2_v0 val_main_call2_cst
  generalize val_main_v114 (F := Ideal) x0 x1 x2 x3 x4 x5 x6 x7 x8 x9 = y
  rfl

theorem keeps_143 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v29 ∨ b = main_v6) :
    StableHlo.after (List.take 3 (List.drop 143 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl | rfl | rfl | rfl <;> read_back

end Cert.ReferenceIdeal.Whole

end
-- ==== Proof.RunWeights.lean ====
/-
  The plain program's operations 21 … 39, read as one stage: every edge's weight, the product of the normalising factors
  at its two end points (each looked up by the end point's index, a negative index counted from the end). Any contents V
  before the stretch that hold the earlier stages at the buffers the stretch reads; buffers it does not write are kept.
-/
import proofs.«153693_j23948737643064_1_alg».proof.Proof.RunP
import proofs.«153693_j23948737643064_1_alg».proof.Proof.ReadP
import proofs.«153693_j23948737643064_1_alg».proof.Proof.ReadBack
import Idealize.ShloMosaic.Lib.StableHlo.Run

set_option maxRecDepth 16384

noncomputable section

namespace Cert.ReferenceIdeal.Whole

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable (V : Valuation τ sig (Elt Ideal))
variable (x0 : (⟨S100000x128, .f32⟩ : BufTy).Contents (Elt Ideal))
  (x1 : (⟨S2x1600000, .i32⟩ : BufTy).Contents (Elt Ideal))
  (x2 : (⟨S128x128, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))
  (x10 : (⟨S128x40, .f32⟩ : BufTy).Contents (Elt Ideal))
  (x11 : (⟨S40, .f32⟩ : BufTy).Contents (Elt Ideal))

theorem run_21_v29 (h_v14 : V (Proc.devRef .tc main_v14) = val_main_v14 (F := Ideal) x1)
    (h_v3 : V (Proc.devRef .tc main_v3) = val_main_v3 (F := Ideal) x1)
    (h_v6 : V (Proc.devRef .tc main_v6) = val_main_v6 (F := Ideal) x1) :
    StableHlo.after (List.take 19 (List.drop 21 (ValueP.ops (F := Ideal)))) V (Proc.devRef .tc main_v29) = val_main_v29 (F := Ideal) x1 := by
  simp only [ValueP.ops, List.drop_succ_cons, List.drop_zero, List.take_succ_cons, List.take_zero]
  read_back; rw [h_v14, h_v3, h_v6]
  simp only [val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29]
  first | done | (generalize val_main_v14 (F := Ideal) x1 = y0; generalize val_main_v3 (F := Ideal) x1 = y1; generalize val_main_v6 (F := Ideal) x1 = y2; rfl)

theorem keeps_21 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v6) :
    StableHlo.after (List.take 19 (List.drop 21 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl | rfl | rfl <;> read_back

end Cert.ReferenceIdeal.Whole

end
-- ==== Proof.RunFirstRows.lean ====
/-
  The plain program's operations 40 … 73, read as stages: the first layer's feature product; its rows aggregated over
  the edges (each destination row the sum over its incoming edges of the source row times the edge weight) plus the bias;
  their per-feature mean (the column sums divided by the number of nodes) and variance (the mean of the squared
  deviations). Any contents V before a stretch that hold the earlier stages at the buffers it reads; buffers it does not
  write are kept.
-/
import proofs.«153693_j23948737643064_1_alg».proof.Proof.RunP
import proofs.«153693_j23948737643064_1_alg».proof.Proof.ReadP
import proofs.«153693_j23948737643064_1_alg».proof.Proof.ReadBack
import Idealize.ShloMosaic.Lib.StableHlo.Run

set_option maxRecDepth 16384

noncomputable section

namespace Cert.ReferenceIdeal.Whole

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable (V : Valuation τ sig (Elt Ideal))
variable (x0 : (⟨S100000x128, .f32⟩ : BufTy).Contents (Elt Ideal))
  (x1 : (⟨S2x1600000, .i32⟩ : BufTy).Contents (Elt Ideal))
  (x2 : (⟨S128x128, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))
  (x10 : (⟨S128x40, .f32⟩ : BufTy).Contents (Elt Ideal))
  (x11 : (⟨S40, .f32⟩ : BufTy).Contents (Elt Ideal))

theorem run_40_v30 (ha0 : V (Proc.devRef .tc main_arg0) = x0)
    (ha2 : V (Proc.devRef .tc main_arg2) = x2) :
    StableHlo.after (List.take 1 (List.drop 40 (ValueP.ops (F := Ideal)))) V (Proc.devRef .tc main_v30) = val_main_v30 (F := Ideal) x0 x2 := by
  simp only [ValueP.ops, List.drop_succ_cons, List.drop_zero, List.take_succ_cons, List.take_zero]
  read_back; rw [ha0, ha2]
  simp only [val_main_v30]
  first | done | (rfl)

set_option maxHeartbeats 4000000 in
theorem keeps_40 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v29 ∨ b = main_v6) :
    StableHlo.after (List.take 1 (List.drop 40 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl | rfl | rfl | rfl <;> read_back

theorem run_41_v46 (h_v6 : V (Proc.devRef .tc main_v6) = val_main_v6 (F := Ideal) x1)
    (h_v30 : V (Proc.devRef .tc main_v30) = val_main_v30 (F := Ideal) x0 x2)
    (h_v3 : V (Proc.devRef .tc main_v3) = val_main_v3 (F := Ideal) x1)
    (h_v29 : V (Proc.devRef .tc main_v29) = val_main_v29 (F := Ideal) x1)
    (ha3 : V (Proc.devRef .tc main_arg3) = x3) :
    StableHlo.after (List.take 33 (List.drop 41 (ValueP.ops (F := Ideal)))) V (Proc.devRef .tc main_v46) = val_main_v46 (F := Ideal) x0 x1 x2 x3 := by
  simp only [ValueP.ops, List.drop_succ_cons, List.drop_zero, List.take_succ_cons, List.take_zero]
  read_back; rw [h_v6, h_v30, h_v3, h_v29, ha3]
  simp only [val_main_c_6, val_main_v31, val_main_v32, val_main_c_7, val_main_v33, val_main_v34, val_main_v35, val_main_v36, val_main_v37, val_main_v38, val_main_v39, val_main_v40, val_main_cst_8, val_main_v41, val_main_v42, val_main_v43, val_main_v44, val_main_v45, val_main_v46]
  first | done | (generalize val_main_v6 (F := Ideal) x1 = y0; generalize val_main_v30 (F := Ideal) x0 x2 = y1; generalize val_main_v3 (F := Ideal) x1 = y2; generalize val_main_v29 (F := Ideal) x1 = y3; rfl)

theorem run_41_v49 (h_v6 : V (Proc.devRef .tc main_v6) = val_main_v6 (F := Ideal) x1)
    (h_v30 : V (Proc.devRef .tc main_v30) = val_main_v30 (F := Ideal) x0 x2)
    (h_v3 : V (Proc.devRef .tc main_v3) = val_main_v3 (F := Ideal) x1)
    (h_v29 : V (Proc.devRef .tc main_v29) = val_main_v29 (F := Ideal) x1)
    (ha3 : V (Proc.devRef .tc main_arg3) = x3) :
    StableHlo.after (List.take 33 (List.drop 41 (ValueP.ops (F := Ideal)))) V (Proc.devRef .tc main_v49) = val_main_v49 (F := Ideal) x0 x1 x2 x3 := by
  simp only [ValueP.ops, List.drop_succ_cons, List.drop_zero, List.take_succ_cons, List.take_zero]
  read_back; rw [h_v6, h_v30, h_v3, h_v29, ha3]
  simp only [val_main_c_6, val_main_v31, val_main_v32, val_main_c_7, val_main_v33, val_main_v34, val_main_v35, val_main_v36, val_main_v37, val_main_v38, val_main_v39, val_main_v40, val_main_cst_8, val_main_v41, val_main_v42, val_main_v43, val_main_v44, val_main_v45, val_main_v46, val_main_cst_9, val_main_v47, val_main_cst_10, val_main_v48, val_main_v49]
  first | done | (generalize val_main_v6 (F := Ideal) x1 = y0; generalize val_main_v30 (F := Ideal) x0 x2 = y1; generalize val_main_v3 (F := Ideal) x1 = y2; generalize val_main_v29 (F := Ideal) x1 = y3; rfl)

theorem run_41_v56 (h_v6 : V (Proc.devRef .tc main_v6) = val_main_v6 (F := Ideal) x1)
    (h_v30 : V (Proc.devRef .tc main_v30) = val_main_v30 (F := Ideal) x0 x2)
    (h_v3 : V (Proc.devRef .tc main_v3) = val_main_v3 (F := Ideal) x1)
    (h_v29 : V (Proc.devRef .tc main_v29) = val_main_v29 (F := Ideal) x1)
    (ha3 : V (Proc.devRef .tc main_arg3) = x3) :
    StableHlo.after (List.take 33 (List.drop 41 (ValueP.ops (F := Ideal)))) V (Proc.devRef .tc main_v56) = val_main_v56 (F := Ideal) x0 x1 x2 x3 := by
  simp only [ValueP.ops, List.drop_succ_cons, List.drop_zero, List.take_succ_cons, List.take_zero]
  read_back; rw [h_v6, h_v30, h_v3, h_v29, ha3]
  simp only [val_main_c_6, val_main_v31, val_main_v32, val_main_c_7, val_main_v33, val_main_v34, val_main_v35, val_main_v36, val_main_v37, val_main_v38, val_main_v39, val_main_v40, val_main_cst_8, val_main_v41, val_main_v42, val_main_v43, val_main_v44, val_main_v45, val_main_v46, val_main_cst_9, val_main_v47, val_main_cst_10, val_main_v48, val_main_v49, val_main_v50, val_main_v51, val_main_v52, val_main_v53, val_main_cst_11, val_main_v54, val_main_cst_12, val_main_v55, val_main_v56]
  first | done | (generalize val_main_v6 (F := Ideal) x1 = y0; generalize val_main_v30 (F := Ideal) x0 x2 = y1; generalize val_main_v3 (F := Ideal) x1 = y2; generalize val_main_v29 (F := Ideal) x1 = y3; rfl)

set_option maxHeartbeats 4000000 in
theorem keeps_41 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v29 ∨ b = main_v6) :
    StableHlo.after (List.take 33 (List.drop 41 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl | rfl | rfl | rfl <;> read_back

end Cert.ReferenceIdeal.Whole

end
-- ==== Proof.RunFirstLayer.lean ====
/-
  Two stretches of the plain program's run, read back to the contents before them.

  The first stretch normalises the first layer's aggregated rows: from the rows h, their per-feature mean μ and variance v,
  and the scale γ and shift β, it writes γ · (h − μ) · rsqrt (v + ε) + β, each per-feature vector laid out as one row and
  repeated down the rows. The second stretch is the single feature product of the clamped result with the second weight
  matrix. Each lemma takes ANY contents `V` before its stretch that hold the program's earlier stages at the buffers the
  stretch reads.
-/
import proofs.«153693_j23948737643064_1_alg».proof.Proof.RunP
import proofs.«153693_j23948737643064_1_alg».proof.Proof.ReadP
import proofs.«153693_j23948737643064_1_alg».proof.Proof.ReadBack
import Idealize.ShloMosaic.Lib.StableHlo.Run

set_option maxRecDepth 16384

noncomputable section

namespace Cert.ReferenceIdeal.Whole

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable (V : Valuation τ sig (Elt Ideal))
variable (x0 : (⟨S100000x128, .f32⟩ : BufTy).Contents (Elt Ideal))
  (x1 : (⟨S2x1600000, .i32⟩ : BufTy).Contents (Elt Ideal))
  (x2 : (⟨S128x128, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))
  (x10 : (⟨S128x40, .f32⟩ : BufTy).Contents (Elt Ideal))
  (x11 : (⟨S40, .f32⟩ : BufTy).Contents (Elt Ideal))

/-- The first layer's normalised rows, before the clamp. -/
theorem run_74_v71 (ha4 : V (Proc.devRef .tc main_arg4) = x4)
    (h_v46 : V (Proc.devRef .tc main_v46) = val_main_v46 (F := Ideal) x0 x1 x2 x3)
    (h_v49 : V (Proc.devRef .tc main_v49) = val_main_v49 (F := Ideal) x0 x1 x2 x3)
    (h_v56 : V (Proc.devRef .tc main_v56) = val_main_v56 (F := Ideal) x0 x1 x2 x3)
    (ha5 : V (Proc.devRef .tc main_arg5) = x5) :
    StableHlo.after (List.take 16 (List.drop 74 (ValueP.ops (F := Ideal)))) V (Proc.devRef .tc main_v71)
      = val_main_v71 (F := Ideal) x0 x1 x2 x3 x4 x5 := by
  simp only [ValueP.ops, List.drop_succ_cons, List.drop_zero, List.take_succ_cons, List.take_zero]
  read_back; rw [ha4, h_v46, h_v49, h_v56, ha5]
  simp only [val_main_v57, val_main_v58, val_main_v59, val_main_v60, val_main_v61, val_main_v62, val_main_cst_13, val_main_v63, val_main_v64, val_main_v65, val_main_v66, val_main_v67, val_main_v68, val_main_v69, val_main_v70, val_main_v71]
  first | done | (generalize val_main_v46 (F := Ideal) x0 x1 x2 x3 = y0; generalize val_main_v49 (F := Ideal) x0 x1 x2 x3 = y1; generalize val_main_v56 (F := Ideal) x0 x1 x2 x3 = y2; rfl)

/-- The stretch writes no argument array, no edge list and not the edge weights. -/
theorem keeps_74 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v29 ∨ b = main_v6) :
    StableHlo.after (List.take 16 (List.drop 74 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl | rfl | rfl | rfl <;> read_back

/-- The second feature product. -/
theorem run_93_v73 (h_v72 : V (Proc.devRef .tc main_v72) = val_main_v72 (F := Ideal) x0 x1 x2 x3 x4 x5)
    (ha6 : V (Proc.devRef .tc main_arg6) = x6) :
    StableHlo.after (List.take 1 (List.drop 93 (ValueP.ops (F := Ideal)))) V (Proc.devRef .tc main_v73)
      = val_main_v73 (F := Ideal) x0 x1 x2 x3 x4 x5 x6 := by
  simp only [ValueP.ops, List.drop_succ_cons, List.drop_zero, List.take_succ_cons, List.take_zero]
  read_back; rw [h_v72, ha6]
  simp only [val_main_v73]
  first | done | (generalize val_main_v72 (F := Ideal) x0 x1 x2 x3 x4 x5 = y0; rfl)

/-- The stretch writes no argument array, no edge list and not the edge weights. -/
theorem keeps_93 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v29 ∨ b = main_v6) :
    StableHlo.after (List.take 1 (List.drop 93 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl | rfl | rfl | rfl <;> read_back

end Cert.ReferenceIdeal.Whole

end
-- ==== Proof.RunSecondLayer.lean ====
/-
  Two stretches of the plain program's run, read back to the contents before them.

  The first stretch aggregates the second layer's rows over the edges (each destination row is the sum over its incoming
  edges of the source row times the edge weight), adds the bias, and takes the per-feature mean (the column sums divided
  by the number of nodes) and variance (the mean of the squared deviations). The second stretch normalises: from the rows
  h, the mean μ, the variance v, the scale γ and the shift β it writes γ · (h − μ) · rsqrt (v + ε) + β. Each lemma takes ANY
  contents `V` before its stretch that hold the program's earlier stages at the buffers the stretch reads.
-/
import proofs.«153693_j23948737643064_1_alg».proof.Proof.RunP
import proofs.«153693_j23948737643064_1_alg».proof.Proof.ReadP
import proofs.«153693_j23948737643064_1_alg».proof.Proof.ReadBack
import Idealize.ShloMosaic.Lib.StableHlo.Run

set_option maxRecDepth 16384

noncomputable section

namespace Cert.ReferenceIdeal.Whole

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable (V : Valuation τ sig (Elt Ideal))
variable (x0 : (⟨S100000x128, .f32⟩ : BufTy).Contents (Elt Ideal))
  (x1 : (⟨S2x1600000, .i32⟩ : BufTy).Contents (Elt Ideal))
  (x2 : (⟨S128x128, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))
  (x10 : (⟨S128x40, .f32⟩ : BufTy).Contents (Elt Ideal))
  (x11 : (⟨S40, .f32⟩ : BufTy).Contents (Elt Ideal))

/-- The aggregated rows of the second layer. -/
theorem run_94_v89 (h_v6 : V (Proc.devRef .tc main_v6) = val_main_v6 (F := Ideal) x1)
    (h_v73 : V (Proc.devRef .tc main_v73) = val_main_v73 (F := Ideal) x0 x1 x2 x3 x4 x5 x6)
    (h_v3 : V (Proc.devRef .tc main_v3) = val_main_v3 (F := Ideal) x1)
    (h_v29 : V (Proc.devRef .tc main_v29) = val_main_v29 (F := Ideal) x1)
    (ha7 : V (Proc.devRef .tc main_arg7) = x7) :
    StableHlo.after (List.take 33 (List.drop 94 (ValueP.ops (F := Ideal)))) V (Proc.devRef .tc main_v89)
      = val_main_v89 (F := Ideal) x0 x1 x2 x3 x4 x5 x6 x7 := by
  simp only [ValueP.ops, List.drop_succ_cons, List.drop_zero, List.take_succ_cons, List.take_zero]
  read_back; rw [h_v6, h_v73, h_v3, h_v29, ha7]
  simp only [val_main_c_14, val_main_v74, val_main_v75, val_main_c_15, val_main_v76, val_main_v77, val_main_v78, val_main_v79, val_main_v80, val_main_v81, val_main_v82, val_main_v83, val_main_cst_16, val_main_v84, val_main_v85, val_main_v86, val_main_v87, val_main_v88, val_main_v89, val_main_cst_17, val_main_v90, val_main_cst_18, val_main_v91, val_main_v92, val_main_v93, val_main_v94, val_main_v95, val_main_v96, val_main_cst_19, val_main_v97, val_main_cst_20, val_main_v98, val_main_v99]
  first | done | (generalize val_main_v6 (F := Ideal) x1 = y0; generalize val_main_v73 (F := Ideal) x0 x1 x2 x3 x4 x5 x6 = y1; generalize val_main_v3 (F := Ideal) x1 = y2; generalize val_main_v29 (F := Ideal) x1 = y3; rfl)

/-- Their per-feature mean. -/
theorem run_94_v92 (h_v6 : V (Proc.devRef .tc main_v6) = val_main_v6 (F := Ideal) x1)
    (h_v73 : V (Proc.devRef .tc main_v73) = val_main_v73 (F := Ideal) x0 x1 x2 x3 x4 x5 x6)
    (h_v3 : V (Proc.devRef .tc main_v3) = val_main_v3 (F := Ideal) x1)
    (h_v29 : V (Proc.devRef .tc main_v29) = val_main_v29 (F := Ideal) x1)
    (ha7 : V (Proc.devRef .tc main_arg7) = x7) :
    StableHlo.after (List.take 33 (List.drop 94 (ValueP.ops (F := Ideal)))) V (Proc.devRef .tc main_v92)
      = val_main_v92 (F := Ideal) x0 x1 x2 x3 x4 x5 x6 x7 := by
  simp only [ValueP.ops, List.drop_succ_cons, List.drop_zero, List.take_succ_cons, List.take_zero]
  read_back; rw [h_v6, h_v73, h_v3, h_v29, ha7]
  simp only [val_main_c_14, val_main_v74, val_main_v75, val_main_c_15, val_main_v76, val_main_v77, val_main_v78, val_main_v79, val_main_v80, val_main_v81, val_main_v82, val_main_v83, val_main_cst_16, val_main_v84, val_main_v85, val_main_v86, val_main_v87, val_main_v88, val_main_v89, val_main_cst_17, val_main_v90, val_main_cst_18, val_main_v91, val_main_v92, val_main_v93, val_main_v94, val_main_v95, val_main_v96, val_main_cst_19, val_main_v97, val_main_cst_20, val_main_v98, val_main_v99]
  first | done | (generalize val_main_v6 (F := Ideal) x1 = y0; generalize val_main_v73 (F := Ideal) x0 x1 x2 x3 x4 x5 x6 = y1; generalize val_main_v3 (F := Ideal) x1 = y2; generalize val_main_v29 (F := Ideal) x1 = y3; rfl)

/-- Their per-feature variance. -/
theorem run_94_v99 (h_v6 : V (Proc.devRef .tc main_v6) = val_main_v6 (F := Ideal) x1)
    (h_v73 : V (Proc.devRef .tc main_v73) = val_main_v73 (F := Ideal) x0 x1 x2 x3 x4 x5 x6)
    (h_v3 : V (Proc.devRef .tc main_v3) = val_main_v3 (F := Ideal) x1)
    (h_v29 : V (Proc.devRef .tc main_v29) = val_main_v29 (F := Ideal) x1)
    (ha7 : V (Proc.devRef .tc main_arg7) = x7) :
    StableHlo.after (List.take 33 (List.drop 94 (ValueP.ops (F := Ideal)))) V (Proc.devRef .tc main_v99)
      = val_main_v99 (F := Ideal) x0 x1 x2 x3 x4 x5 x6 x7 := by
  simp only [ValueP.ops, List.drop_succ_cons, List.drop_zero, List.take_succ_cons, List.take_zero]
  read_back; rw [h_v6, h_v73, h_v3, h_v29, ha7]
  simp only [val_main_c_14, val_main_v74, val_main_v75, val_main_c_15, val_main_v76, val_main_v77, val_main_v78, val_main_v79, val_main_v80, val_main_v81, val_main_v82, val_main_v83, val_main_cst_16, val_main_v84, val_main_v85, val_main_v86, val_main_v87, val_main_v88, val_main_v89, val_main_cst_17, val_main_v90, val_main_cst_18, val_main_v91, val_main_v92, val_main_v93, val_main_v94, val_main_v95, val_main_v96, val_main_cst_19, val_main_v97, val_main_cst_20, val_main_v98, val_main_v99]
  first | done | (generalize val_main_v6 (F := Ideal) x1 = y0; generalize val_main_v73 (F := Ideal) x0 x1 x2 x3 x4 x5 x6 = y1; generalize val_main_v3 (F := Ideal) x1 = y2; generalize val_main_v29 (F := Ideal) x1 = y3; rfl)

set_option maxHeartbeats 1000000 in
/-- The stretch writes no argument array, no edge list and not the edge weights. -/
theorem keeps_94 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v29 ∨ b = main_v6) :
    StableHlo.after (List.take 33 (List.drop 94 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl | rfl | rfl | rfl <;> read_back

/-- The second layer's normalised rows, before the clamp. -/
theorem run_127_v114 (ha8 : V (Proc.devRef .tc main_arg8) = x8)
    (h_v89 : V (Proc.devRef .tc main_v89) = val_main_v89 (F := Ideal) x0 x1 x2 x3 x4 x5 x6 x7)
    (h_v92 : V (Proc.devRef .tc main_v92) = val_main_v92 (F := Ideal) x0 x1 x2 x3 x4 x5 x6 x7)
    (h_v99 : V (Proc.devRef .tc main_v99) = val_main_v99 (F := Ideal) x0 x1 x2 x3 x4 x5 x6 x7)
    (ha9 : V (Proc.devRef .tc main_arg9) = x9) :
    StableHlo.after (List.take 16 (List.drop 127 (ValueP.ops (F := Ideal)))) V (Proc.devRef .tc main_v114)
      = val_main_v114 (F := Ideal) x0 x1 x2 x3 x4 x5 x6 x7 x8 x9 := by
  simp only [ValueP.ops, List.drop_succ_cons, List.drop_zero, List.take_succ_cons, List.take_zero]
  read_back; rw [ha8, h_v89, h_v92, h_v99, ha9]
  simp only [val_main_v100, val_main_v101, val_main_v102, val_main_v103, val_main_v104, val_main_v105, val_main_cst_21, val_main_v106, val_main_v107, val_main_v108, val_main_v109, val_main_v110, val_main_v111, val_main_v112, val_main_v113, val_main_v114]
  first | done | (generalize val_main_v89 (F := Ideal) x0 x1 x2 x3 x4 x5 x6 x7 = y0; generalize val_main_v92 (F := Ideal) x0 x1 x2 x3 x4 x5 x6 x7 = y1; generalize val_main_v99 (F := Ideal) x0 x1 x2 x3 x4 x5 x6 x7 = y2; rfl)

/-- The stretch writes no argument array, no edge list and not the edge weights. -/
theorem keeps_127 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v29 ∨ b = main_v6) :
    StableHlo.after (List.take 16 (List.drop 127 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl | rfl | rfl | rfl <;> read_back

end Cert.ReferenceIdeal.Whole

end
-- ==== Proof.RunThirdLayer.lean ====
/-
  Two stretches of the plain program's run, read back to the contents before them.

  The first stretch is the single feature product of the second layer's clamped rows with the class weight matrix. The
  second aggregates the class scores over the edges (each destination row is the sum over its incoming edges of the
  source row times the edge weight) and adds the class bias. Each lemma takes ANY contents `V` before its stretch that
  hold the program's earlier stages at the buffers the stretch reads.
-/
import proofs.«153693_j23948737643064_1_alg».proof.Proof.RunP
import proofs.«153693_j23948737643064_1_alg».proof.Proof.ReadP
import proofs.«153693_j23948737643064_1_alg».proof.Proof.ReadBack
import Idealize.ShloMosaic.Lib.StableHlo.Run

set_option maxRecDepth 16384

noncomputable section

namespace Cert.ReferenceIdeal.Whole

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable (V : Valuation τ sig (Elt Ideal))
variable (x0 : (⟨S100000x128, .f32⟩ : BufTy).Contents (Elt Ideal))
  (x1 : (⟨S2x1600000, .i32⟩ : BufTy).Contents (Elt Ideal))
  (x2 : (⟨S128x128, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))
  (x10 : (⟨S128x40, .f32⟩ : BufTy).Contents (Elt Ideal))
  (x11 : (⟨S40, .f32⟩ : BufTy).Contents (Elt Ideal))

/-- The third feature product. -/
theorem run_146_v116 (h_v115 : V (Proc.devRef .tc main_v115) = val_main_v115 (F := Ideal) x0 x1 x2 x3 x4 x5 x6 x7 x8 x9)
    (ha10 : V (Proc.devRef .tc main_arg10) = x10) :
    StableHlo.after (List.take 1 (List.drop 146 (ValueP.ops (F := Ideal)))) V (Proc.devRef .tc main_v116)
      = val_main_v116 (F := Ideal) x0 x1 x2 x3 x4 x5 x6 x7 x8 x9 x10 := by
  simp only [ValueP.ops, List.drop_succ_cons, List.drop_zero, List.take_succ_cons, List.take_zero]
  read_back; rw [h_v115, ha10]
  simp only [val_main_v116]
  first | done | (generalize val_main_v115 (F := Ideal) x0 x1 x2 x3 x4 x5 x6 x7 x8 x9 = y0; rfl)

/-- The stretch writes no argument array, no edge list and not the edge weights. -/
theorem keeps_146 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v3 ∨ b = main_v29 ∨ b = main_v6) :
    StableHlo.after (List.take 1 (List.drop 146 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl | rfl | rfl | rfl <;> read_back

/-- The aggregated rows of the third layer. -/
theorem run_147_v132 (h_v6 : V (Proc.devRef .tc main_v6) = val_main_v6 (F := Ideal) x1)
    (h_v116 : V (Proc.devRef .tc main_v116) = val_main_v116 (F := Ideal) x0 x1 x2 x3 x4 x5 x6 x7 x8 x9 x10)
    (h_v3 : V (Proc.devRef .tc main_v3) = val_main_v3 (F := Ideal) x1)
    (h_v29 : V (Proc.devRef .tc main_v29) = val_main_v29 (F := Ideal) x1)
    (ha11 : V (Proc.devRef .tc main_arg11) = x11) :
    StableHlo.after (List.take 19 (List.drop 147 (ValueP.ops (F := Ideal)))) V (Proc.devRef .tc main_v132)
      = val_main_v132 (F := Ideal) x0 x1 x2 x3 x4 x5 x6 x7 x8 x9 x10 x11 := by
  simp only [ValueP.ops, List.drop_succ_cons, List.drop_zero, List.take_succ_cons, List.take_zero]
  read_back; rw [h_v6, h_v116, h_v3, h_v29, ha11]
  simp only [val_main_c_22, val_main_v117, val_main_v118, val_main_c_23, val_main_v119, val_main_v120, val_main_v121, val_main_v122, val_main_v123, val_main_v124, val_main_v125, val_main_v126, val_main_cst_24, val_main_v127, val_main_v128, val_main_v129, val_main_v130, val_main_v131, val_main_v132]
  first | done | (generalize val_main_v6 (F := Ideal) x1 = y0; generalize val_main_v116 (F := Ideal) x0 x1 x2 x3 x4 x5 x6 x7 x8 x9 x10 = y1; generalize val_main_v3 (F := Ideal) x1 = y2; generalize val_main_v29 (F := Ideal) x1 = y3; rfl)

/-- The stretch writes no argument array. -/
theorem keeps_147 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    StableHlo.after (List.take 19 (List.drop 147 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl <;> read_back

end Cert.ReferenceIdeal.Whole

end
-- ==== Proof.PlainRunLogSoftmax.lean ====
/-
  The last stretch of the plain program's run — the fifteen operations of the called row log-softmax — read as the
  plain program's stage. The stretch is cut into four pieces: the reduce-max over the classes from −∞; the maximum
  with the splat of −∞; the maxima kept as a column, repeated along the classes, subtracted from the logits; and,
  from those shifted logits s, s − log (0 + ∑ over the classes of exp s). Each piece is read back over ARBITRARY
  operands, where its result is the operations' own term; the contents after the whole stretch are the contents
  after each piece in turn; composing the four terms at the plain program's logits gives its last stage. No buffer
  of an argument array is written.
-/
import proofs.«153693_j23948737643064_1_alg».proof.Proof.RunP
import proofs.«153693_j23948737643064_1_alg».proof.Proof.ReadP
import proofs.«153693_j23948737643064_1_alg».proof.Proof.ReadBack
import Idealize.ShloMosaic.Lib.StableHlo.Run

set_option maxRecDepth 16384

noncomputable section

namespace Cert.ReferenceIdeal.Whole

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable (V : Valuation τ sig (Elt Ideal))
variable (x0 : (⟨S100000x128, .f32⟩ : BufTy).Contents (Elt Ideal))
  (x1 : (⟨S2x1600000, .i32⟩ : BufTy).Contents (Elt Ideal))
  (x2 : (⟨S128x128, .f32⟩ : BufTy).Contents (Elt Ideal))
  (x3 x4 x5 : (⟨S128, .f32⟩ : BufTy).Contents (Elt Ideal))
  (x6 : (⟨S128x128, .f32⟩ : BufTy).Contents (Elt Ideal))
  (x7 x8 x9 : (⟨S128, .f32⟩ : BufTy).Contents (Elt Ideal))
  (x10 : (⟨S128x40, .f32⟩ : BufTy).Contents (Elt Ideal))
  (x11 : (⟨S40, .f32⟩ : BufTy).Contents (Elt Ideal))

-- the reduce over an axis is compared by its arguments only, never by its defining fold over the four million entries
attribute [local irreducible] Idealize.ShloMosaic.Host.reduce

/-! ## The four pieces of the called row log-softmax, as terms of their operands -/

section Terms
variable {F : FTy → Type} [FloatOps F]

/-- The reduce-max over the classes from the word of −∞. -/
def maxTerm (y : (⟨S100000x40, .f32⟩ : BufTy).Contents (Elt F)) : (⟨S100000, .f32⟩ : BufTy).Contents (Elt F) :=
  Host.reduce FloatOps.maximumf y (constant S_ .f32 0xFF800000#32) Gen.reducesTo_S100000x40_S100000_d1 Gen.h_S_

/-- The maximum with the splat of −∞. -/
def guardTerm (m : (⟨S100000, .f32⟩ : BufTy).Contents (Elt F)) : (⟨S100000, .f32⟩ : BufTy).Contents (Elt F) :=
  maximumf (broadcastInDim S100000 ![] Gen.bcast_S_S100000 (constant S_ .f32 0xFF800000#32)) m

/-- The maxima kept as a column, repeated along the classes, and subtracted from the logits. -/
def shiftTerm (y : (⟨S100000x40, .f32⟩ : BufTy).Contents (Elt F)) (m : (⟨S100000, .f32⟩ : BufTy).Contents (Elt F)) : (⟨S100000x40, .f32⟩ : BufTy).Contents (Elt F) :=
  subf y (broadcastInDim S100000x40 ![0, 1] Gen.bcast_S100000x1_S100000x40_0_1
    (broadcastInDim S100000x1 ![0] Gen.bcast_S100000_S100000x1_0 m))

/-- From the shifted logits s: S = 0 + ∑ over the classes of exp s, kept as a column; s − log S. -/
def tailTerm (s : (⟨S100000x40, .f32⟩ : BufTy).Contents (Elt F)) : (⟨S100000x40, .f32⟩ : BufTy).Contents (Elt F) :=
  subf s (broadcastInDim S100000x40 ![0, 1] Gen.bcast_S100000x1_S100000x40_0_1
    (Host.log (broadcastInDim S100000x1 ![0] Gen.bcast_S100000_S100000x1_0
      (Host.reduceAdd (Host.exp s) (constant S_ .f32 0x00000000#32) Gen.reducesTo_S100000x40_S100000_d1 Gen.h_S_))))

end Terms

/-! ## Each piece read back over arbitrary operands -/

theorem max_of (y : (⟨S100000x40, .f32⟩ : BufTy).Contents (Elt Ideal)) (h : V (Proc.devRef .tc main_v132) = y) :
    StableHlo.after (List.take 2 (List.drop 166 (ValueP.ops (F := Ideal)))) V (Proc.devRef .tc main_call3_v0) = maxTerm (F := Ideal) y := by
  simp only [ValueP.ops, List.drop_succ_cons, List.drop_zero, List.take_succ_cons, List.take_zero]
  read_back
  rw [h]
  rfl

theorem guard_of (m : (⟨S100000, .f32⟩ : BufTy).Contents (Elt Ideal)) (h : V (Proc.devRef .tc main_call3_v0) = m) :
    StableHlo.after (List.take 3 (List.drop 168 (ValueP.ops (F := Ideal)))) V (Proc.devRef .tc main_call3_v2) = guardTerm (F := Ideal) m := by
  simp only [ValueP.ops, List.drop_succ_cons, List.drop_zero, List.take_succ_cons, List.take_zero]
  read_back
  rw [h]
  rfl

theorem shift_of (y : (⟨S100000x40, .f32⟩ : BufTy).Contents (Elt Ideal)) (m : (⟨S100000, .f32⟩ : BufTy).Contents (Elt Ideal)) (hy : V (Proc.devRef .tc main_v132) = y)
    (hm : V (Proc.devRef .tc main_call3_v2) = m) :
    StableHlo.after (List.take 3 (List.drop 171 (ValueP.ops (F := Ideal)))) V (Proc.devRef .tc main_call3_v5) = shiftTerm (F := Ideal) y m := by
  simp only [ValueP.ops, List.drop_succ_cons, List.drop_zero, List.take_succ_cons, List.take_zero]
  read_back
  rw [hy, hm]
  rfl

theorem tail_of (s : (⟨S100000x40, .f32⟩ : BufTy).Contents (Elt Ideal)) (h : V (Proc.devRef .tc main_call3_v5) = s) :
    StableHlo.after (List.take 7 (List.drop 174 (ValueP.ops (F := Ideal)))) V (Proc.devRef .tc main_v133) = tailTerm (F := Ideal) s := by
  simp only [ValueP.ops, List.drop_succ_cons, List.drop_zero, List.take_succ_cons, List.take_zero]
  read_back
  rw [h]
  rfl

/-- The first two pieces do not write the logits' buffer. -/
theorem logits_kept_166 : StableHlo.after (List.take 2 (List.drop 166 (ValueP.ops (F := Ideal)))) V (Proc.devRef .tc main_v132) = V (Proc.devRef .tc main_v132) := by
  simp only [ValueP.ops, List.drop_succ_cons, List.drop_zero, List.take_succ_cons, List.take_zero]
  read_back

theorem logits_kept_168 : StableHlo.after (List.take 3 (List.drop 168 (ValueP.ops (F := Ideal)))) V (Proc.devRef .tc main_v132) = V (Proc.devRef .tc main_v132) := by
  simp only [ValueP.ops, List.drop_succ_cons, List.drop_zero, List.take_succ_cons, List.take_zero]
  read_back

/-! ## The pieces chained -/

/-- The fifteen operations are the four pieces in order: the contents after them are the contents after each in turn. -/
theorem after_pieces :
    StableHlo.after (List.take 15 (List.drop 166 (ValueP.ops (F := Ideal)))) V
      = StableHlo.after (List.take 7 (List.drop 174 (ValueP.ops (F := Ideal)))) (StableHlo.after (List.take 3 (List.drop 171 (ValueP.ops (F := Ideal))))
          (StableHlo.after (List.take 3 (List.drop 168 (ValueP.ops (F := Ideal)))) (StableHlo.after (List.take 2 (List.drop 166 (ValueP.ops (F := Ideal)))) V))) := by
  simp only [ValueP.ops, List.drop_succ_cons, List.drop_zero, List.take_succ_cons, List.take_zero]
  rfl

/-- Over arbitrary logits y the result buffer holds the four terms composed. -/
theorem lsm_of (y : (⟨S100000x40, .f32⟩ : BufTy).Contents (Elt Ideal)) (h : V (Proc.devRef .tc main_v132) = y) :
    StableHlo.after (List.take 15 (List.drop 166 (ValueP.ops (F := Ideal)))) V (Proc.devRef .tc main_v133)
      = tailTerm (F := Ideal) (shiftTerm y (guardTerm (maxTerm y))) := by
  rw [after_pieces V]
  have h1 := max_of V y h
  have k1 : StableHlo.after (List.take 2 (List.drop 166 (ValueP.ops (F := Ideal)))) V (Proc.devRef .tc main_v132) = y := (logits_kept_166 V).trans h
  have h2 := guard_of (StableHlo.after (List.take 2 (List.drop 166 (ValueP.ops (F := Ideal)))) V) _ h1
  have k2 : StableHlo.after (List.take 3 (List.drop 168 (ValueP.ops (F := Ideal)))) (StableHlo.after (List.take 2 (List.drop 166 (ValueP.ops (F := Ideal)))) V) (Proc.devRef .tc main_v132) = y :=
    (logits_kept_168 (StableHlo.after (List.take 2 (List.drop 166 (ValueP.ops (F := Ideal)))) V)).trans k1
  have h3 := shift_of (StableHlo.after (List.take 3 (List.drop 168 (ValueP.ops (F := Ideal)))) (StableHlo.after (List.take 2 (List.drop 166 (ValueP.ops (F := Ideal)))) V)) y _ k2 h2
  exact tail_of _ _ h3

theorem run_166_v133 (h_v132 : V (Proc.devRef .tc main_v132) = val_main_v132 (F := Ideal) x0 x1 x2 x3 x4 x5 x6 x7 x8 x9 x10 x11) :
    StableHlo.after (List.take 15 (List.drop 166 (ValueP.ops (F := Ideal)))) V (Proc.devRef .tc main_v133)
      = val_main_v133 (F := Ideal) x0 x1 x2 x3 x4 x5 x6 x7 x8 x9 x10 x11 := by
  refine (lsm_of V _ h_v132).trans ?_
  unfold tailTerm shiftTerm guardTerm maxTerm val_main_v133 val_main_call3_v10 val_main_call3_v9 val_main_call3_v8
    val_main_call3_v7 val_main_call3_cst_1 val_main_call3_v6 val_main_call3_v5 val_main_call3_v4 val_main_call3_v3
    val_main_call3_v2 val_main_call3_v1 val_main_call3_cst_0 val_main_call3_v0 val_main_call3_cst
  generalize val_main_v132 (F := Ideal) x0 x1 x2 x3 x4 x5 x6 x7 x8 x9 x10 x11 = y
  rfl

theorem keeps_166 (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    StableHlo.after (List.take 15 (List.drop 166 (ValueP.ops (F := Ideal)))) V (Proc.devRef .tc b) = V (Proc.devRef .tc b) := by
  simp only [ValueP.ops, List.drop_succ_cons, List.drop_zero, List.take_succ_cons, List.take_zero]
  rcases hb with rfl | rfl | rfl | rfl | rfl | rfl | rfl | rfl | rfl | rfl | rfl | rfl <;> read_back

end Cert.ReferenceIdeal.Whole

end
-- ==== Proof.WholeRun.lean ====
/-
  The plain program's run, read whole.

  The program is a line of 181 host operations. It is cut into fourteen consecutive pieces; for each piece, separate
  modules say which stage of the network each buffer a later piece reads holds after it, given what the buffers it reads
  held before it, and that it leaves the other buffers alone. Here the pieces are chained from the launch contents: at each
  cut, every argument array still holds what it was launched with, and every stage that a later piece reads is held by
  its buffer as a function of the twelve argument arrays. After the last piece the result buffer holds the last stage (the
  row log-softmax of the third layer's aggregated rows), and the arguments are unchanged.
-/
import proofs.«153693_j23948737643064_1_alg».proof.Proof.RunP
import proofs.«153693_j23948737643064_1_alg».proof.Proof.ReadP
import proofs.«153693_j23948737643064_1_alg».proof.Proof.RunCuts
import proofs.«153693_j23948737643064_1_alg».proof.Proof.RunOpening
import proofs.«153693_j23948737643064_1_alg».proof.Proof.PlainRunSelectClamp
import proofs.«153693_j23948737643064_1_alg».proof.Proof.RunWeights
import proofs.«153693_j23948737643064_1_alg».proof.Proof.RunFirstRows
import proofs.«153693_j23948737643064_1_alg».proof.Proof.RunFirstLayer
import proofs.«153693_j23948737643064_1_alg».proof.Proof.RunSecondLayer
import proofs.«153693_j23948737643064_1_alg».proof.Proof.RunThirdLayer
import proofs.«153693_j23948737643064_1_alg».proof.Proof.PlainRunLogSoftmax
import Idealize.ShloMosaic.Lib.StableHlo.Run

set_option maxRecDepth 16384

noncomputable section

namespace Cert.ReferenceIdeal.Whole

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable (m : (ℓ : Loc nD τ sig) → Buf (Elt Ideal) ℓ) (c : Dev nD)

/-- The contents of every buffer at the launch. -/
def at0 : Valuation τ sig (Elt Ideal) := launchContents m c
/-- The contents after the first 18 operations. -/
def at18 : Valuation τ sig (Elt Ideal) := StableHlo.after (List.take 18 (List.drop 0 (ValueP.ops (F := Ideal)))) (at0 m c)
/-- The contents after the first 21 operations. -/
def at21 : Valuation τ sig (Elt Ideal) := StableHlo.after (List.take 3 (List.drop 18 (ValueP.ops (F := Ideal)))) (at18 m c)
/-- The contents after the first 40 operations. -/
def at40 : Valuation τ sig (Elt Ideal) := StableHlo.after (List.take 19 (List.drop 21 (ValueP.ops (F := Ideal)))) (at21 m c)
/-- The contents after the first 41 operations. -/
def at41 : Valuation τ sig (Elt Ideal) := StableHlo.after (List.take 1 (List.drop 40 (ValueP.ops (F := Ideal)))) (at40 m c)
/-- The contents after the first 74 operations. -/
def at74 : Valuation τ sig (Elt Ideal) := StableHlo.after (List.take 33 (List.drop 41 (ValueP.ops (F := Ideal)))) (at41 m c)
/-- The contents after the first 90 operations. -/
def at90 : Valuation τ sig (Elt Ideal) := StableHlo.after (List.take 16 (List.drop 74 (ValueP.ops (F := Ideal)))) (at74 m c)
/-- The contents after the first 93 operations. -/
def at93 : Valuation τ sig (Elt Ideal) := StableHlo.after (List.take 3 (List.drop 90 (ValueP.ops (F := Ideal)))) (at90 m c)
/-- The contents after the first 94 operations. -/
def at94 : Valuation τ sig (Elt Ideal) := StableHlo.after (List.take 1 (List.drop 93 (ValueP.ops (F := Ideal)))) (at93 m c)
/-- The contents after the first 127 operations. -/
def at127 : Valuation τ sig (Elt Ideal) := StableHlo.after (List.take 33 (List.drop 94 (ValueP.ops (F := Ideal)))) (at94 m c)
/-- The contents after the first 143 operations. -/
def at143 : Valuation τ sig (Elt Ideal) := StableHlo.after (List.take 16 (List.drop 127 (ValueP.ops (F := Ideal)))) (at127 m c)
/-- The contents after the first 146 operations. -/
def at146 : Valuation τ sig (Elt Ideal) := StableHlo.after (List.take 3 (List.drop 143 (ValueP.ops (F := Ideal)))) (at143 m c)
/-- The contents after the first 147 operations. -/
def at147 : Valuation τ sig (Elt Ideal) := StableHlo.after (List.take 1 (List.drop 146 (ValueP.ops (F := Ideal)))) (at146 m c)
/-- The contents after the first 166 operations. -/
def at166 : Valuation τ sig (Elt Ideal) := StableHlo.after (List.take 19 (List.drop 147 (ValueP.ops (F := Ideal)))) (at147 m c)
/-- The contents after the first 181 operations. -/
def at181 : Valuation τ sig (Elt Ideal) := StableHlo.after (List.take 15 (List.drop 166 (ValueP.ops (F := Ideal)))) (at166 m c)

/-! ## What the argument arrays and the stages still to be read hold at each cut -/

theorem at0_arg0 : at0 m c (Proc.devRef .tc main_arg0) = (m ((c.tc : Thread nD τ).loc main_arg0)) := rfl
theorem at0_arg1 : at0 m c (Proc.devRef .tc main_arg1) = (m ((c.tc : Thread nD τ).loc main_arg1)) := rfl
theorem at0_arg2 : at0 m c (Proc.devRef .tc main_arg2) = (m ((c.tc : Thread nD τ).loc main_arg2)) := rfl
theorem at0_arg3 : at0 m c (Proc.devRef .tc main_arg3) = (m ((c.tc : Thread nD τ).loc main_arg3)) := rfl
theorem at0_arg4 : at0 m c (Proc.devRef .tc main_arg4) = (m ((c.tc : Thread nD τ).loc main_arg4)) := rfl
theorem at0_arg5 : at0 m c (Proc.devRef .tc main_arg5) = (m ((c.tc : Thread nD τ).loc main_arg5)) := rfl
theorem at0_arg6 : at0 m c (Proc.devRef .tc main_arg6) = (m ((c.tc : Thread nD τ).loc main_arg6)) := rfl
theorem at0_arg7 : at0 m c (Proc.devRef .tc main_arg7) = (m ((c.tc : Thread nD τ).loc main_arg7)) := rfl
theorem at0_arg8 : at0 m c (Proc.devRef .tc main_arg8) = (m ((c.tc : Thread nD τ).loc main_arg8)) := rfl
theorem at0_arg9 : at0 m c (Proc.devRef .tc main_arg9) = (m ((c.tc : Thread nD τ).loc main_arg9)) := rfl
theorem at0_arg10 : at0 m c (Proc.devRef .tc main_arg10) = (m ((c.tc : Thread nD τ).loc main_arg10)) := rfl
theorem at0_arg11 : at0 m c (Proc.devRef .tc main_arg11) = (m ((c.tc : Thread nD τ).loc main_arg11)) := rfl

-- operations 0 … 17
theorem at18_arg0 : at18 m c (Proc.devRef .tc main_arg0) = (m ((c.tc : Thread nD τ).loc main_arg0)) :=
  (keeps_0 (at0 m c) main_arg0 (Or.inl rfl)).trans (at0_arg0 m c)
theorem at18_arg1 : at18 m c (Proc.devRef .tc main_arg1) = (m ((c.tc : Thread nD τ).loc main_arg1)) :=
  (keeps_0 (at0 m c) main_arg1 (Or.inr (Or.inl rfl))).trans (at0_arg1 m c)
theorem at18_arg2 : at18 m c (Proc.devRef .tc main_arg2) = (m ((c.tc : Thread nD τ).loc main_arg2)) :=
  (keeps_0 (at0 m c) main_arg2 (Or.inr (Or.inr (Or.inl rfl)))).trans (at0_arg2 m c)
theorem at18_arg3 : at18 m c (Proc.devRef .tc main_arg3) = (m ((c.tc : Thread nD τ).loc main_arg3)) :=
  (keeps_0 (at0 m c) main_arg3 (Or.inr (Or.inr (Or.inr (Or.inl rfl))))).trans (at0_arg3 m c)
theorem at18_arg4 : at18 m c (Proc.devRef .tc main_arg4) = (m ((c.tc : Thread nD τ).loc main_arg4)) :=
  (keeps_0 (at0 m c) main_arg4 (Or.inr (Or.inr (Or.inr (Or.inr (Or.inl rfl)))))).trans (at0_arg4 m c)
theorem at18_arg5 : at18 m c (Proc.devRef .tc main_arg5) = (m ((c.tc : Thread nD τ).loc main_arg5)) :=
  (keeps_0 (at0 m c) main_arg5 (Or.inr (Or.inr (Or.inr (Or.inr (Or.inr (Or.inl rfl))))))).trans (at0_arg5 m c)
theorem at18_arg6 : at18 m c (Proc.devRef .tc main_arg6) = (m ((c.tc : Thread nD τ).loc main_arg6)) :=
  (keeps_0 (at0 m c) main_arg6 (Or.inr (Or.inr (Or.inr (Or.inr (Or.inr (Or.inr (Or.inl rfl)))))))).trans (at0_arg6 m c)
theorem at18_arg7 : at18 m c (Proc.devRef .tc main_arg7) = (m ((c.tc : Thread nD τ).loc main_arg7)) :=
  (keeps_0 (at0 m c) main_arg7 (Or.inr (Or.inr (Or.inr (Or.inr (Or.inr (Or.inr (Or.inr (Or.inl rfl))))))))).trans (at0_arg7 m c)
theorem at18_arg8 : at18 m c (Proc.devRef .tc main_arg8) = (m ((c.tc : Thread nD τ).loc main_arg8)) :=
  (keeps_0 (at0 m c) main_arg8 (Or.inr (Or.inr (Or.inr (Or.inr (Or.inr (Or.inr (Or.inr (Or.inr (Or.inl rfl)))))))))).trans (at0_arg8 m c)
theorem at18_arg9 : at18 m c (Proc.devRef .tc main_arg9) = (m ((c.tc : Thread nD τ).loc main_arg9)) :=
  (keeps_0 (at0 m c) main_arg9 (Or.inr (Or.inr (Or.inr (Or.inr (Or.inr (Or.inr (Or.inr (Or.inr (Or.inr (Or.inl rfl))))))))))).trans (at0_arg9 m c)
theorem at18_arg10 : at18 m c (Proc.devRef .tc main_arg10) = (m ((c.tc : Thread nD τ).loc main_arg10)) :=
  (keeps_0 (at0 m c) main_arg10 (Or.inr (Or.inr (Or.inr (Or.inr (Or.inr (Or.inr (Or.inr (Or.inr (Or.inr (Or.inr (Or.inl rfl)))))))))))).trans (at0_arg10 m c)
theorem at18_arg11 : at18 m c (Proc.devRef .tc main_arg11) = (m ((c.tc : Thread nD τ).loc main_arg11)) :=
  (keeps_0 (at0 m c) main_arg11 (Or.inr (Or.inr (Or.inr (Or.inr (Or.inr (Or.inr (Or.inr (Or.inr (Or.inr (Or.inr (Or.inr (rfl))))))))))))).trans (at0_arg11 m c)
theorem at18_v3 : at18 m c (Proc.devRef .tc main_v3) = val_main_v3 (F := Ideal) (m ((c.tc : Thread nD τ).loc main_arg1)) :=
  run_0_v3 (at0 m c) (m ((c.tc : Thread nD τ).loc main_arg1)) (ha1 := at0_arg1 m c)
theorem at18_v6 : at18 m c (Proc.devRef .tc main_v6) = val_main_v6 (F := Ideal) (m ((c.tc : Thread nD τ).loc main_arg1)) :=
  run_0_v6 (at0 m c) (m ((c.tc : Thread nD τ).loc main_arg1)) (ha1 := at0_arg1 m c)
theorem at18_v12 : at18 m c (Proc.devRef .tc main_v12) = val_main_v12 (F := Ideal) (m ((c.tc : Thread nD τ).loc main_arg1)) :=
  run_0_v12 (at0 m c) (m ((c.tc : Thread nD τ).loc main_arg1)) (ha1 := at0_arg1 m c)
theorem at18_v13 : at18 m c (Proc.devRef .tc main_v13) = val_main_v13 (F := Ideal) (m ((c.tc : Thread nD τ).loc main_arg1)) :=
  run_0_v13 (at0 m c) (m ((c.tc : Thread nD τ).loc main_arg1)) (ha1 := at0_arg1 m c)
theorem at18_cst_2 : at18 m c (Proc.devRef .tc main_cst_2) = val_main_cst_2 (F := Ideal) :=
  run_0_cst_2 (at0 m c)

-- operations 18 … 20
theorem at21_arg0 : at21 m c (Proc.devRef .tc main_arg0) = (m ((c.tc : Thread nD τ).loc main_arg0)) :=
  (keeps_18 (at18 m c) main_arg0 (Or.inl rfl)).trans (at18_arg0 m c)
theorem at21_arg1 : at21 m c (Proc.devRef .tc main_arg1) = (m ((c.tc : Thread nD τ).loc main_arg1)) :=
  (keeps_18 (at18 m c) main_arg1 (Or.inr (Or.inl rfl))).trans (at18_arg1 m c)
theorem at21_arg2 : at21 m c (Proc.devRef .tc main_arg2) = (m ((c.tc : Thread nD τ).loc main_arg2)) :=
  (keeps_18 (at18 m c) main_arg2 (Or.inr (Or.inr (Or.inl rfl)))).trans (at18_arg2 m c)
theorem at21_arg3 : at21 m c (Proc.devRef .tc main_arg3) = (m ((c.tc : Thread nD τ).loc main_arg3)) :=
  (keeps_18 (at18 m c) main_arg3 (Or.inr (Or.inr (Or.inr (Or.inl rfl))))).trans (at18_arg3 m c)
theorem at21_arg4 : at21 m c (Proc.devRef .tc main_arg4) = (m ((c.tc : Thread nD τ).loc main_arg4)) :=
  (keeps_18 (at18 m c) main_arg4 (Or.inr (Or.inr (Or.inr (Or.inr (Or.inl rfl)))))).trans (at18_arg4 m c)
theorem at21_arg5 : at21 m c (Proc.devRef .tc main_arg5) = (m ((c.tc : Thread nD τ).loc main_arg5)) :=
  (keeps_18 (at18 m c) main_arg5 (Or.inr (Or.inr (Or.inr (Or.inr (Or.inr (Or.inl rfl))))))).trans (at18_arg5 m c)
theorem at21_arg6 : at21 m c (Proc.devRef .tc main_arg6) = (m ((c.tc : Thread nD τ).loc main_arg6)) :=
  (keeps_18 (at18 m c) main_arg6 (Or.inr (Or.inr (Or.inr (Or.inr (Or.inr (Or.inr (Or.inl rfl)))))))).trans (at18_arg6 m c)
theorem at21_arg7 : at21 m c (Proc.devRef .tc main_arg7) = (m ((c.tc : Thread nD τ).loc main_arg7)) :=
  (keeps_18 (at18 m c) main_arg7 (Or.inr (Or.inr (Or.inr (Or.inr (Or.inr (Or.inr (Or.inr (Or.inl rfl))))))))).trans (at18_arg7 m c)
theorem at21_arg8 : at21 m c (Proc.devRef .tc main_arg8) = (m ((c.tc : Thread nD τ).loc main_arg8)) :=
  (keeps_18 (at18 m c) main_arg8 (Or.inr (Or.inr (Or.inr (Or.inr (Or.inr (Or.inr (Or.inr (Or.inr (Or.inl rfl)))))))))).trans (at18_arg8 m c)
theorem at21_arg9 : at21 m c (Proc.devRef .tc main_arg9) = (m ((c.tc : Thread nD τ).loc main_arg9)) :=
  (keeps_18 (at18 m c) main_arg9 (Or.inr (Or.inr (Or.inr (Or.inr (Or.inr (Or.inr (Or.inr (Or.inr (Or.inr (Or.inl rfl))))))))))).trans (at18_arg9 m c)
theorem at21_arg10 : at21 m c (Proc.devRef .tc main_arg10) = (m ((c.tc : Thread nD τ).loc main_arg10)) :=
  (keeps_18 (at18 m c) main_arg10 (Or.inr (Or.inr (Or.inr (Or.inr (Or.inr (Or.inr (Or.inr (Or.inr (Or.inr (Or.inr (Or.inl rfl)))))))))))).trans (at18_arg10 m c)
theorem at21_arg11 : at21 m c (Proc.devRef .tc main_arg11) = (m ((c.tc : Thread nD τ).loc main_arg11)) :=
  (keeps_18 (at18 m c) main_arg11 (Or.inr (Or.inr (Or.inr (Or.inr (Or.inr (Or.inr (Or.inr (Or.inr (Or.inr (Or.inr (Or.inr (Or.inl rfl))))))))))))).trans (at18_arg11 m c)
theorem at21_v3 : at21 m c (Proc.devRef .tc main_v3) = val_main_v3 (F := Ideal) (m ((c.tc : Thread nD τ).loc main_arg1)) :=
  (keeps_18 (at18 m c) main_v3 (Or.inr (Or.inr (Or.inr (Or.inr (Or.inr (Or.inr (Or.inr (Or.inr (Or.inr (Or.inr (Or.inr (Or.inr (Or.inl rfl)))))))))))))).trans (at18_v3 m c)
theorem at21_v6 : at21 m c (Proc.devRef .tc main_v6) = val_main_v6 (F := Ideal) (m ((c.tc : Thread nD τ).loc main_arg1)) :=
  (keeps_18 (at18 m c) main_v6 (Or.inr (Or.inr (Or.inr (Or.inr (Or.inr (Or.inr (Or.inr (Or.inr (Or.inr (Or.inr (Or.inr (Or.inr (Or.inr (rfl))))))))))))))).trans (at18_v6 m c)
theorem at21_v14 : at21 m c (Proc.devRef .tc main_v14) = val_main_v14 (F := Ideal) (m ((c.tc : Thread nD τ).loc main_arg1)) :=
  run_18_v14 (at18 m c) (m ((c.tc : Thread nD τ).loc main_arg1)) (h_v12 := at18_v12 m c) (h_v13 := at18_v13 m c) (h_cst_2 := at18_cst_2 m c)

-- operations 21 … 39
theorem at40_arg0 : at40 m c (Proc.devRef .tc main_arg0) = (m ((c.tc : Thread nD τ).loc main_arg0)) :=
  (keeps_21 (at21 m c) main_arg0 (Or.inl rfl)).trans (at21_arg0 m c)
theorem at40_arg1 : at40 m c (Proc.devRef .tc main_arg1) = (m ((c.tc : Thread nD τ).loc main_arg1)) :=
  (keeps_21 (at21 m c) main_arg1 (Or.inr (Or.inl rfl))).trans (at21_arg1 m c)
theorem at40_arg2 : at40 m c (Proc.devRef .tc main_arg2) = (m ((c.tc : Thread nD τ).loc main_arg2)) :=
  (keeps_21 (at21 m c) main_arg2 (Or.inr (Or.inr (Or.inl rfl)))).trans (at21_arg2 m c)
theorem at40_arg3 : at40 m c (Proc.devRef .tc main_arg3) = (m ((c.tc : Thread nD τ).loc main_arg3)) :=
  (keeps_21 (at21 m c) main_arg3 (Or.inr (Or.inr (Or.inr (Or.inl rfl))))).trans (at21_arg3 m c)
theorem at40_arg4 : at40 m c (Proc.devRef .tc main_arg4) = (m ((c.tc : Thread nD τ).loc main_arg4)) :=
  (keeps_21 (at21 m c) main_arg4 (Or.inr (Or.inr (Or.inr (Or.inr (Or.inl rfl)))))).trans (at21_arg4 m c)
theorem at40_arg5 : at40 m c (Proc.devRef .tc main_arg5) = (m ((c.tc : Thread nD τ).loc main_arg5)) :=
  (keeps_21 (at21 m c) main_arg5 (Or.inr (Or.inr (Or.inr (Or.inr (Or.inr (Or.inl rfl))))))).trans (at21_arg5 m c)
theorem at40_arg6 : at40 m c (Proc.devRef .tc main_arg6) = (m ((c.tc : Thread nD τ).loc main_arg6)) :=
  (keeps_21 (at21 m c) main_arg6 (Or.inr (Or.inr (Or.inr (Or.inr (Or.inr (Or.inr (Or.inl rfl)))))))).trans (at21_arg6 m c)
theorem at40_arg7 : at40 m c (Proc.devRef .tc main_arg7) = (m ((c.tc : Thread nD τ).loc main_arg7)) :=
  (keeps_21 (at21 m c) main_arg7 (Or.inr (Or.inr (Or.inr (Or.inr (Or.inr (Or.inr (Or.inr (Or.inl rfl))))))))).trans (at21_arg7 m c)
theorem at40_arg8 : at40 m c (Proc.devRef .tc main_arg8) = (m ((c.tc : Thread nD τ).loc main_arg8)) :=
  (keeps_21 (at21 m c) main_arg8 (Or.inr (Or.inr (Or.inr (Or.inr (Or.inr (Or.inr (Or.inr (Or.inr (Or.inl rfl)))))))))).trans (at21_arg8 m c)
theorem at40_arg9 : at40 m c (Proc.devRef .tc main_arg9) = (m ((c.tc : Thread nD τ).loc main_arg9)) :=
  (keeps_21 (at21 m c) main_arg9 (Or.inr (Or.inr (Or.inr (Or.inr (Or.inr (Or.inr (Or.inr (Or.inr (Or.inr (Or.inl rfl))))))))))).trans (at21_arg9 m c)
theorem at40_arg10 : at40 m c (Proc.devRef .tc main_arg10) = (m ((c.tc : Thread nD τ).loc main_arg10)) :=
  (keeps_21 (at21 m c) main_arg10 (Or.inr (Or.inr (Or.inr (Or.inr (Or.inr (Or.inr (Or.inr (Or.inr (Or.inr (Or.inr (Or.inl rfl)))))))))))).trans (at21_arg10 m c)
theorem at40_arg11 : at40 m c (Proc.devRef .tc main_arg11) = (m ((c.tc : Thread nD τ).loc main_arg11)) :=
  (keeps_21 (at21 m c) main_arg11 (Or.inr (Or.inr (Or.inr (Or.inr (Or.inr (Or.inr (Or.inr (Or.inr (Or.inr (Or.inr (Or.inr (Or.inl rfl))))))))))))).trans (at21_arg11 m c)
theorem at40_v3 : at40 m c (Proc.devRef .tc main_v3) = val_main_v3 (F := Ideal) (m ((c.tc : Thread nD τ).loc main_arg1)) :=
  (keeps_21 (at21 m c) main_v3 (Or.inr (Or.inr (Or.inr (Or.inr (Or.inr (Or.inr (Or.inr (Or.inr (Or.inr (Or.inr (Or.inr (Or.inr (Or.inl rfl)))))))))))))).trans (at21_v3 m c)
theorem at40_v6 : at40 m c (Proc.devRef .tc main_v6) = val_main_v6 (F := Ideal) (m ((c.tc : Thread nD τ).loc main_arg1)) :=
  (keeps_21 (at21 m c) main_v6 (Or.inr (Or.inr (Or.inr (Or.inr (Or.inr (Or.inr (Or.inr (Or.inr (Or.inr (Or.inr (Or.inr (Or.inr (Or.inr (rfl))))))))))))))).trans (at21_v6 m c)
theorem at40_v29 : at40 m c (Proc.devRef .tc main_v29) = val_main_v29 (F := Ideal) (m ((c.tc : Thread nD τ).loc main_arg1)) :=
  run_21_v29 (at21 m c) (m ((c.tc : Thread nD τ).loc main_arg1)) (h_v14 := at21_v14 m c) (h_v3 := at21_v3 m c) (h_v6 := at21_v6 m c)

-- operations 40 … 40
theorem at41_arg0 : at41 m c (Proc.devRef .tc main_arg0) = (m ((c.tc : Thread nD τ).loc main_arg0)) :=
  (keeps_40 (at40 m c) main_arg0 (Or.inl rfl)).trans (at40_arg0 m c)
theorem at41_arg1 : at41 m c (Proc.devRef .tc main_arg1) = (m ((c.tc : Thread nD τ).loc main_arg1)) :=
  (keeps_40 (at40 m c) main_arg1 (Or.inr (Or.inl rfl))).trans (at40_arg1 m c)
theorem at41_arg2 : at41 m c (Proc.devRef .tc main_arg2) = (m ((c.tc : Thread nD τ).loc main_arg2)) :=
  (keeps_40 (at40 m c) main_arg2 (Or.inr (Or.inr (Or.inl rfl)))).trans (at40_arg2 m c)
theorem at41_arg3 : at41 m c (Proc.devRef .tc main_arg3) = (m ((c.tc : Thread nD τ).loc main_arg3)) :=
  (keeps_40 (at40 m c) main_arg3 (Or.inr (Or.inr (Or.inr (Or.inl rfl))))).trans (at40_arg3 m c)
theorem at41_arg4 : at41 m c (Proc.devRef .tc main_arg4) = (m ((c.tc : Thread nD τ).loc main_arg4)) :=
  (keeps_40 (at40 m c) main_arg4 (Or.inr (Or.inr (Or.inr (Or.inr (Or.inl rfl)))))).trans (at40_arg4 m c)
theorem at41_arg5 : at41 m c (Proc.devRef .tc main_arg5) = (m ((c.tc : Thread nD τ).loc main_arg5)) :=
  (keeps_40 (at40 m c) main_arg5 (Or.inr (Or.inr (Or.inr (Or.inr (Or.inr (Or.inl rfl))))))).trans (at40_arg5 m c)
theorem at41_arg6 : at41 m c (Proc.devRef .tc main_arg6) = (m ((c.tc : Thread nD τ).loc main_arg6)) :=
  (keeps_40 (at40 m c) main_arg6 (Or.inr (Or.inr (Or.inr (Or.inr (Or.inr (Or.inr (Or.inl rfl)))))))).trans (at40_arg6 m c)
theorem at41_arg7 : at41 m c (Proc.devRef .tc main_arg7) = (m ((c.tc : Thread nD τ).loc main_arg7)) :=
  (keeps_40 (at40 m c) main_arg7 (Or.inr (Or.inr (Or.inr (Or.inr (Or.inr (Or.inr (Or.inr (Or.inl rfl))))))))).trans (at40_arg7 m c)
theorem at41_arg8 : at41 m c (Proc.devRef .tc main_arg8) = (m ((c.tc : Thread nD τ).loc main_arg8)) :=
  (keeps_40 (at40 m c) main_arg8 (Or.inr (Or.inr (Or.inr (Or.inr (Or.inr (Or.inr (Or.inr (Or.inr (Or.inl rfl)))))))))).trans (at40_arg8 m c)
theorem at41_arg9 : at41 m c (Proc.devRef .tc main_arg9) = (m ((c.tc : Thread nD τ).loc main_arg9)) :=
  (keeps_40 (at40 m c) main_arg9 (Or.inr (Or.inr (Or.inr (Or.inr (Or.inr (Or.inr (Or.inr (Or.inr (Or.inr (Or.inl rfl))))))))))).trans (at40_arg9 m c)
theorem at41_arg10 : at41 m c (Proc.devRef .tc main_arg10) = (m ((c.tc : Thread nD τ).loc main_arg10)) :=
  (keeps_40 (at40 m c) main_arg10 (Or.inr (Or.inr (Or.inr (Or.inr (Or.inr (Or.inr (Or.inr (Or.inr (Or.inr (Or.inr (Or.inl rfl)))))))))))).trans (at40_arg10 m c)
theorem at41_arg11 : at41 m c (Proc.devRef .tc main_arg11) = (m ((c.tc : Thread nD τ).loc main_arg11)) :=
  (keeps_40 (at40 m c) main_arg11 (Or.inr (Or.inr (Or.inr (Or.inr (Or.inr (Or.inr (Or.inr (Or.inr (Or.inr (Or.inr (Or.inr (Or.inl rfl))))))))))))).trans (at40_arg11 m c)
theorem at41_v3 : at41 m c (Proc.devRef .tc main_v3) = val_main_v3 (F := Ideal) (m ((c.tc : Thread nD τ).loc main_arg1)) :=
  (keeps_40 (at40 m c) main_v3 (Or.inr (Or.inr (Or.inr (Or.inr (Or.inr (Or.inr (Or.inr (Or.inr (Or.inr (Or.inr (Or.inr (Or.inr (Or.inl rfl)))))))))))))).trans (at40_v3 m c)
theorem at41_v6 : at41 m c (Proc.devRef .tc main_v6) = val_main_v6 (F := Ideal) (m ((c.tc : Thread nD τ).loc main_arg1)) :=
  (keeps_40 (at40 m c) main_v6 (Or.inr (Or.inr (Or.inr (Or.inr (Or.inr (Or.inr (Or.inr (Or.inr (Or.inr (Or.inr (Or.inr (Or.inr (Or.inr (Or.inr (rfl)))))))))))))))).trans (at40_v6 m c)
theorem at41_v29 : at41 m c (Proc.devRef .tc main_v29) = val_main_v29 (F := Ideal) (m ((c.tc : Thread nD τ).loc main_arg1)) :=
  (keeps_40 (at40 m c) main_v29 (Or.inr (Or.inr (Or.inr (Or.inr (Or.inr (Or.inr (Or.inr (Or.inr (Or.inr (Or.inr (Or.inr (Or.inr (Or.inr (Or.inl rfl))))))))))))))).trans (at40_v29 m c)
theorem at41_v30 : at41 m c (Proc.devRef .tc main_v30) = val_main_v30 (F := Ideal) (m ((c.tc : Thread nD τ).loc main_arg0)) (m ((c.tc : Thread nD τ).loc main_arg2)) :=
  run_40_v30 (at40 m c) (m ((c.tc : Thread nD τ).loc main_arg0)) (m ((c.tc : Thread nD τ).loc main_arg2)) (ha0 := at40_arg0 m c) (ha2 := at40_arg2 m c)

-- operations 41 … 73
theorem at74_arg0 : at74 m c (Proc.devRef .tc main_arg0) = (m ((c.tc : Thread nD τ).loc main_arg0)) :=
  (keeps_41 (at41 m c) main_arg0 (Or.inl rfl)).trans (at41_arg0 m c)
theorem at74_arg1 : at74 m c (Proc.devRef .tc main_arg1) = (m ((c.tc : Thread nD τ).loc main_arg1)) :=
  (keeps_41 (at41 m c) main_arg1 (Or.inr (Or.inl rfl))).trans (at41_arg1 m c)
theorem at74_arg2 : at74 m c (Proc.devRef .tc main_arg2) = (m ((c.tc : Thread nD τ).loc main_arg2)) :=
  (keeps_41 (at41 m c) main_arg2 (Or.inr (Or.inr (Or.inl rfl)))).trans (at41_arg2 m c)
theorem at74_arg3 : at74 m c (Proc.devRef .tc main_arg3) = (m ((c.tc : Thread nD τ).loc main_arg3)) :=
  (keeps_41 (at41 m c) main_arg3 (Or.inr (Or.inr (Or.inr (Or.inl rfl))))).trans (at41_arg3 m c)
theorem at74_arg4 : at74 m c (Proc.devRef .tc main_arg4) = (m ((c.tc : Thread nD τ).loc main_arg4)) :=
  (keeps_41 (at41 m c) main_arg4 (Or.inr (Or.inr (Or.inr (Or.inr (Or.inl rfl)))))).trans (at41_arg4 m c)
theorem at74_arg5 : at74 m c (Proc.devRef .tc main_arg5) = (m ((c.tc : Thread nD τ).loc main_arg5)) :=
  (keeps_41 (at41 m c) main_arg5 (Or.inr (Or.inr (Or.inr (Or.inr (Or.inr (Or.inl rfl))))))).trans (at41_arg5 m c)
theorem at74_arg6 : at74 m c (Proc.devRef .tc main_arg6) = (m ((c.tc : Thread nD τ).loc main_arg6)) :=
  (keeps_41 (at41 m c) main_arg6 (Or.inr (Or.inr (Or.inr (Or.inr (Or.inr (Or.inr (Or.inl rfl)))))))).trans (at41_arg6 m c)
theorem at74_arg7 : at74 m c (Proc.devRef .tc main_arg7) = (m ((c.tc : Thread nD τ).loc main_arg7)) :=
  (keeps_41 (at41 m c) main_arg7 (Or.inr (Or.inr (Or.inr (Or.inr (Or.inr (Or.inr (Or.inr (Or.inl rfl))))))))).trans (at41_arg7 m c)
theorem at74_arg8 : at74 m c (Proc.devRef .tc main_arg8) = (m ((c.tc : Thread nD τ).loc main_arg8)) :=
  (keeps_41 (at41 m c) main_arg8 (Or.inr (Or.inr (Or.inr (Or.inr (Or.inr (Or.inr (Or.inr (Or.inr (Or.inl rfl)))))))))).trans (at41_arg8 m c)
theorem at74_arg9 : at74 m c (Proc.devRef .tc main_arg9) = (m ((c.tc : Thread nD τ).loc main_arg9)) :=
  (keeps_41 (at41 m c) main_arg9 (Or.inr (Or.inr (Or.inr (Or.inr (Or.inr (Or.inr (Or.inr (Or.inr (Or.inr (Or.inl rfl))))))))))).trans (at41_arg9 m c)
theorem at74_arg10 : at74 m c (Proc.devRef .tc main_arg10) = (m ((c.tc : Thread nD τ).loc main_arg10)) :=
  (keeps_41 (at41 m c) main_arg10 (Or.inr (Or.inr (Or.inr (Or.inr (Or.inr (Or.inr (Or.inr (Or.inr (Or.inr (Or.inr (Or.inl rfl)))))))))))).trans (at41_arg10 m c)
theorem at74_arg11 : at74 m c (Proc.devRef .tc main_arg11) = (m ((c.tc : Thread nD τ).loc main_arg11)) :=
  (keeps_41 (at41 m c) main_arg11 (Or.inr (Or.inr (Or.inr (Or.inr (Or.inr (Or.inr (Or.inr (Or.inr (Or.inr (Or.inr (Or.inr (Or.inl rfl))))))))))))).trans (at41_arg11 m c)
theorem at74_v3 : at74 m c (Proc.devRef .tc main_v3) = val_main_v3 (F := Ideal) (m ((c.tc : Thread nD τ).loc main_arg1)) :=
  (keeps_41 (at41 m c) main_v3 (Or.inr (Or.inr (Or.inr (Or.inr (Or.inr (Or.inr (Or.inr (Or.inr (Or.inr (Or.inr (Or.inr (Or.inr (Or.inl rfl)))))))))))))).trans (at41_v3 m c)
theorem at74_v6 : at74 m c (Proc.devRef .tc main_v6) = val_main_v6 (F := Ideal) (m ((c.tc : Thread nD τ).loc main_arg1)) :=
  (keeps_41 (at41 m c) main_v6 (Or.inr (Or.inr (Or.inr (Or.inr (Or.inr (Or.inr (Or.inr (Or.inr (Or.inr (Or.inr (Or.inr (Or.inr (Or.inr (Or.inr (rfl)))))))))))))))).trans (at41_v6 m c)
theorem at74_v29 : at74 m c (Proc.devRef .tc main_v29) = val_main_v29 (F := Ideal) (m ((c.tc : Thread nD τ).loc main_arg1)) :=
  (keeps_41 (at41 m c) main_v29 (Or.inr (Or.inr (Or.inr (Or.inr (Or.inr (Or.inr (Or.inr (Or.inr (Or.inr (Or.inr (Or.inr (Or.inr (Or.inr (Or.inl rfl))))))))))))))).trans (at41_v29 m c)
theorem at74_v46 : at74 m c (Proc.devRef .tc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) :=
  run_41_v46 (at41 m c) (m ((c.tc : Thread nD τ).loc main_arg0)) (m ((c.tc : Thread nD τ).loc main_arg1)) (m ((c.tc : Thread nD τ).loc main_arg2)) (m ((c.tc : Thread nD τ).loc main_arg3)) (h_v6 := at41_v6 m c) (h_v30 := at41_v30 m c) (h_v3 := at41_v3 m c) (h_v29 := at41_v29 m c) (ha3 := at41_arg3 m c)
theorem at74_v49 : at74 m c (Proc.devRef .tc main_v49) = val_main_v49 (F := Ideal) (m ((c.tc : Thread nD τ).loc main_arg0)) (m ((c.tc : Thread nD τ).loc main_arg1)) (m ((c.tc : Thread nD τ).loc main_arg2)) (m ((c.tc : Thread nD τ).loc main_arg3)) :=
  run_41_v49 (at41 m c) (m ((c.tc : Thread nD τ).loc main_arg0)) (m ((c.tc : Thread nD τ).loc main_arg1)) (m ((c.tc : Thread nD τ).loc main_arg2)) (m ((c.tc : Thread nD τ).loc main_arg3)) (h_v6 := at41_v6 m c) (h_v30 := at41_v30 m c) (h_v3 := at41_v3 m c) (h_v29 := at41_v29 m c) (ha3 := at41_arg3 m c)
theorem at74_v56 : at74 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) :=
  run_41_v56 (at41 m c) (m ((c.tc : Thread nD τ).loc main_arg0)) (m ((c.tc : Thread nD τ).loc main_arg1)) (m ((c.tc : Thread nD τ).loc main_arg2)) (m ((c.tc : Thread nD τ).loc main_arg3)) (h_v6 := at41_v6 m c) (h_v30 := at41_v30 m c) (h_v3 := at41_v3 m c) (h_v29 := at41_v29 m c) (ha3 := at41_arg3 m c)

-- operations 74 … 89
theorem at90_arg0 : at90 m c (Proc.devRef .tc main_arg0) = (m ((c.tc : Thread nD τ).loc main_arg0)) :=
  (keeps_74 (at74 m c) main_arg0 (Or.inl rfl)).trans (at74_arg0 m c)
theorem at90_arg1 : at90 m c (Proc.devRef .tc main_arg1) = (m ((c.tc : Thread nD τ).loc main_arg1)) :=
  (keeps_74 (at74 m c) main_arg1 (Or.inr (Or.inl rfl))).trans (at74_arg1 m c)
theorem at90_arg2 : at90 m c (Proc.devRef .tc main_arg2) = (m ((c.tc : Thread nD τ).loc main_arg2)) :=
  (keeps_74 (at74 m c) main_arg2 (Or.inr (Or.inr (Or.inl rfl)))).trans (at74_arg2 m c)
theorem at90_arg3 : at90 m c (Proc.devRef .tc main_arg3) = (m ((c.tc : Thread nD τ).loc main_arg3)) :=
  (keeps_74 (at74 m c) main_arg3 (Or.inr (Or.inr (Or.inr (Or.inl rfl))))).trans (at74_arg3 m c)
theorem at90_arg4 : at90 m c (Proc.devRef .tc main_arg4) = (m ((c.tc : Thread nD τ).loc main_arg4)) :=
  (keeps_74 (at74 m c) main_arg4 (Or.inr (Or.inr (Or.inr (Or.inr (Or.inl rfl)))))).trans (at74_arg4 m c)
theorem at90_arg5 : at90 m c (Proc.devRef .tc main_arg5) = (m ((c.tc : Thread nD τ).loc main_arg5)) :=
  (keeps_74 (at74 m c) main_arg5 (Or.inr (Or.inr (Or.inr (Or.inr (Or.inr (Or.inl rfl))))))).trans (at74_arg5 m c)
theorem at90_arg6 : at90 m c (Proc.devRef .tc main_arg6) = (m ((c.tc : Thread nD τ).loc main_arg6)) :=
  (keeps_74 (at74 m c) main_arg6 (Or.inr (Or.inr (Or.inr (Or.inr (Or.inr (Or.inr (Or.inl rfl)))))))).trans (at74_arg6 m c)
theorem at90_arg7 : at90 m c (Proc.devRef .tc main_arg7) = (m ((c.tc : Thread nD τ).loc main_arg7)) :=
  (keeps_74 (at74 m c) main_arg7 (Or.inr (Or.inr (Or.inr (Or.inr (Or.inr (Or.inr (Or.inr (Or.inl rfl))))))))).trans (at74_arg7 m c)
theorem at90_arg8 : at90 m c (Proc.devRef .tc main_arg8) = (m ((c.tc : Thread nD τ).loc main_arg8)) :=
  (keeps_74 (at74 m c) main_arg8 (Or.inr (Or.inr (Or.inr (Or.inr (Or.inr (Or.inr (Or.inr (Or.inr (Or.inl rfl)))))))))).trans (at74_arg8 m c)
theorem at90_arg9 : at90 m c (Proc.devRef .tc main_arg9) = (m ((c.tc : Thread nD τ).loc main_arg9)) :=
  (keeps_74 (at74 m c) main_arg9 (Or.inr (Or.inr (Or.inr (Or.inr (Or.inr (Or.inr (Or.inr (Or.inr (Or.inr (Or.inl rfl))))))))))).trans (at74_arg9 m c)
theorem at90_arg10 : at90 m c (Proc.devRef .tc main_arg10) = (m ((c.tc : Thread nD τ).loc main_arg10)) :=
  (keeps_74 (at74 m c) main_arg10 (Or.inr (Or.inr (Or.inr (Or.inr (Or.inr (Or.inr (Or.inr (Or.inr (Or.inr (Or.inr (Or.inl rfl)))))))))))).trans (at74_arg10 m c)
theorem at90_arg11 : at90 m c (Proc.devRef .tc main_arg11) = (m ((c.tc : Thread nD τ).loc main_arg11)) :=
  (keeps_74 (at74 m c) main_arg11 (Or.inr (Or.inr (Or.inr (Or.inr (Or.inr (Or.inr (Or.inr (Or.inr (Or.inr (Or.inr (Or.inr (Or.inl rfl))))))))))))).trans (at74_arg11 m c)
theorem at90_v3 : at90 m c (Proc.devRef .tc main_v3) = val_main_v3 (F := Ideal) (m ((c.tc : Thread nD τ).loc main_arg1)) :=
  (keeps_74 (at74 m c) main_v3 (Or.inr (Or.inr (Or.inr (Or.inr (Or.inr (Or.inr (Or.inr (Or.inr (Or.inr (Or.inr (Or.inr (Or.inr (Or.inl rfl)))))))))))))).trans (at74_v3 m c)
theorem at90_v6 : at90 m c (Proc.devRef .tc main_v6) = val_main_v6 (F := Ideal) (m ((c.tc : Thread nD τ).loc main_arg1)) :=
  (keeps_74 (at74 m c) main_v6 (Or.inr (Or.inr (Or.inr (Or.inr (Or.inr (Or.inr (Or.inr (Or.inr (Or.inr (Or.inr (Or.inr (Or.inr (Or.inr (Or.inr (rfl)))))))))))))))).trans (at74_v6 m c)
theorem at90_v29 : at90 m c (Proc.devRef .tc main_v29) = val_main_v29 (F := Ideal) (m ((c.tc : Thread nD τ).loc main_arg1)) :=
  (keeps_74 (at74 m c) main_v29 (Or.inr (Or.inr (Or.inr (Or.inr (Or.inr (Or.inr (Or.inr (Or.inr (Or.inr (Or.inr (Or.inr (Or.inr (Or.inr (Or.inl rfl))))))))))))))).trans (at74_v29 m c)
theorem at90_v71 : at90 m c (Proc.devRef .tc main_v71) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  run_74_v71 (at74 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ha4 := at74_arg4 m c) (h_v46 := at74_v46 m c) (h_v49 := at74_v49 m c) (h_v56 := at74_v56 m c) (ha5 := at74_arg5 m c)

-- operations 90 … 92
theorem at93_arg0 : at93 m c (Proc.devRef .tc main_arg0) = (m ((c.tc : Thread nD τ).loc main_arg0)) :=
  (keeps_90 (at90 m c) main_arg0 (Or.inl rfl)).trans (at90_arg0 m c)
theorem at93_arg1 : at93 m c (Proc.devRef .tc main_arg1) = (m ((c.tc : Thread nD τ).loc main_arg1)) :=
  (keeps_90 (at90 m c) main_arg1 (Or.inr (Or.inl rfl))).trans (at90_arg1 m c)
theorem at93_arg2 : at93 m c (Proc.devRef .tc main_arg2) = (m ((c.tc : Thread nD τ).loc main_arg2)) :=
  (keeps_90 (at90 m c) main_arg2 (Or.inr (Or.inr (Or.inl rfl)))).trans (at90_arg2 m c)
theorem at93_arg3 : at93 m c (Proc.devRef .tc main_arg3) = (m ((c.tc : Thread nD τ).loc main_arg3)) :=
  (keeps_90 (at90 m c) main_arg3 (Or.inr (Or.inr (Or.inr (Or.inl rfl))))).trans (at90_arg3 m c)
theorem at93_arg4 : at93 m c (Proc.devRef .tc main_arg4) = (m ((c.tc : Thread nD τ).loc main_arg4)) :=
  (keeps_90 (at90 m c) main_arg4 (Or.inr (Or.inr (Or.inr (Or.inr (Or.inl rfl)))))).trans (at90_arg4 m c)
theorem at93_arg5 : at93 m c (Proc.devRef .tc main_arg5) = (m ((c.tc : Thread nD τ).loc main_arg5)) :=
  (keeps_90 (at90 m c) main_arg5 (Or.inr (Or.inr (Or.inr (Or.inr (Or.inr (Or.inl rfl))))))).trans (at90_arg5 m c)
theorem at93_arg6 : at93 m c (Proc.devRef .tc main_arg6) = (m ((c.tc : Thread nD τ).loc main_arg6)) :=
  (keeps_90 (at90 m c) main_arg6 (Or.inr (Or.inr (Or.inr (Or.inr (Or.inr (Or.inr (Or.inl rfl)))))))).trans (at90_arg6 m c)
theorem at93_arg7 : at93 m c (Proc.devRef .tc main_arg7) = (m ((c.tc : Thread nD τ).loc main_arg7)) :=
  (keeps_90 (at90 m c) main_arg7 (Or.inr (Or.inr (Or.inr (Or.inr (Or.inr (Or.inr (Or.inr (Or.inl rfl))))))))).trans (at90_arg7 m c)
theorem at93_arg8 : at93 m c (Proc.devRef .tc main_arg8) = (m ((c.tc : Thread nD τ).loc main_arg8)) :=
  (keeps_90 (at90 m c) main_arg8 (Or.inr (Or.inr (Or.inr (Or.inr (Or.inr (Or.inr (Or.inr (Or.inr (Or.inl rfl)))))))))).trans (at90_arg8 m c)
theorem at93_arg9 : at93 m c (Proc.devRef .tc main_arg9) = (m ((c.tc : Thread nD τ).loc main_arg9)) :=
  (keeps_90 (at90 m c) main_arg9 (Or.inr (Or.inr (Or.inr (Or.inr (Or.inr (Or.inr (Or.inr (Or.inr (Or.inr (Or.inl rfl))))))))))).trans (at90_arg9 m c)
theorem at93_arg10 : at93 m c (Proc.devRef .tc main_arg10) = (m ((c.tc : Thread nD τ).loc main_arg10)) :=
  (keeps_90 (at90 m c) main_arg10 (Or.inr (Or.inr (Or.inr (Or.inr (Or.inr (Or.inr (Or.inr (Or.inr (Or.inr (Or.inr (Or.inl rfl)))))))))))).trans (at90_arg10 m c)
theorem at93_arg11 : at93 m c (Proc.devRef .tc main_arg11) = (m ((c.tc : Thread nD τ).loc main_arg11)) :=
  (keeps_90 (at90 m c) main_arg11 (Or.inr (Or.inr (Or.inr (Or.inr (Or.inr (Or.inr (Or.inr (Or.inr (Or.inr (Or.inr (Or.inr (Or.inl rfl))))))))))))).trans (at90_arg11 m c)
theorem at93_v3 : at93 m c (Proc.devRef .tc main_v3) = val_main_v3 (F := Ideal) (m ((c.tc : Thread nD τ).loc main_arg1)) :=
  (keeps_90 (at90 m c) main_v3 (Or.inr (Or.inr (Or.inr (Or.inr (Or.inr (Or.inr (Or.inr (Or.inr (Or.inr (Or.inr (Or.inr (Or.inr (Or.inl rfl)))))))))))))).trans (at90_v3 m c)
theorem at93_v6 : at93 m c (Proc.devRef .tc main_v6) = val_main_v6 (F := Ideal) (m ((c.tc : Thread nD τ).loc main_arg1)) :=
  (keeps_90 (at90 m c) main_v6 (Or.inr (Or.inr (Or.inr (Or.inr (Or.inr (Or.inr (Or.inr (Or.inr (Or.inr (Or.inr (Or.inr (Or.inr (Or.inr (Or.inr (rfl)))))))))))))))).trans (at90_v6 m c)
theorem at93_v29 : at93 m c (Proc.devRef .tc main_v29) = val_main_v29 (F := Ideal) (m ((c.tc : Thread nD τ).loc main_arg1)) :=
  (keeps_90 (at90 m c) main_v29 (Or.inr (Or.inr (Or.inr (Or.inr (Or.inr (Or.inr (Or.inr (Or.inr (Or.inr (Or.inr (Or.inr (Or.inr (Or.inr (Or.inl rfl))))))))))))))).trans (at90_v29 m c)
theorem at93_v72 : at93 m c (Proc.devRef .tc main_v72) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  run_90_v72 (at90 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (h_v71 := at90_v71 m c)

-- operations 93 … 93
theorem at94_arg0 : at94 m c (Proc.devRef .tc main_arg0) = (m ((c.tc : Thread nD τ).loc main_arg0)) :=
  (keeps_93 (at93 m c) main_arg0 (Or.inl rfl)).trans (at93_arg0 m c)
theorem at94_arg1 : at94 m c (Proc.devRef .tc main_arg1) = (m ((c.tc : Thread nD τ).loc main_arg1)) :=
  (keeps_93 (at93 m c) main_arg1 (Or.inr (Or.inl rfl))).trans (at93_arg1 m c)
theorem at94_arg2 : at94 m c (Proc.devRef .tc main_arg2) = (m ((c.tc : Thread nD τ).loc main_arg2)) :=
  (keeps_93 (at93 m c) main_arg2 (Or.inr (Or.inr (Or.inl rfl)))).trans (at93_arg2 m c)
theorem at94_arg3 : at94 m c (Proc.devRef .tc main_arg3) = (m ((c.tc : Thread nD τ).loc main_arg3)) :=
  (keeps_93 (at93 m c) main_arg3 (Or.inr (Or.inr (Or.inr (Or.inl rfl))))).trans (at93_arg3 m c)
theorem at94_arg4 : at94 m c (Proc.devRef .tc main_arg4) = (m ((c.tc : Thread nD τ).loc main_arg4)) :=
  (keeps_93 (at93 m c) main_arg4 (Or.inr (Or.inr (Or.inr (Or.inr (Or.inl rfl)))))).trans (at93_arg4 m c)
theorem at94_arg5 : at94 m c (Proc.devRef .tc main_arg5) = (m ((c.tc : Thread nD τ).loc main_arg5)) :=
  (keeps_93 (at93 m c) main_arg5 (Or.inr (Or.inr (Or.inr (Or.inr (Or.inr (Or.inl rfl))))))).trans (at93_arg5 m c)
theorem at94_arg6 : at94 m c (Proc.devRef .tc main_arg6) = (m ((c.tc : Thread nD τ).loc main_arg6)) :=
  (keeps_93 (at93 m c) main_arg6 (Or.inr (Or.inr (Or.inr (Or.inr (Or.inr (Or.inr (Or.inl rfl)))))))).trans (at93_arg6 m c)
theorem at94_arg7 : at94 m c (Proc.devRef .tc main_arg7) = (m ((c.tc : Thread nD τ).loc main_arg7)) :=
  (keeps_93 (at93 m c) main_arg7 (Or.inr (Or.inr (Or.inr (Or.inr (Or.inr (Or.inr (Or.inr (Or.inl rfl))))))))).trans (at93_arg7 m c)
theorem at94_arg8 : at94 m c (Proc.devRef .tc main_arg8) = (m ((c.tc : Thread nD τ).loc main_arg8)) :=
  (keeps_93 (at93 m c) main_arg8 (Or.inr (Or.inr (Or.inr (Or.inr (Or.inr (Or.inr (Or.inr (Or.inr (Or.inl rfl)))))))))).trans (at93_arg8 m c)
theorem at94_arg9 : at94 m c (Proc.devRef .tc main_arg9) = (m ((c.tc : Thread nD τ).loc main_arg9)) :=
  (keeps_93 (at93 m c) main_arg9 (Or.inr (Or.inr (Or.inr (Or.inr (Or.inr (Or.inr (Or.inr (Or.inr (Or.inr (Or.inl rfl))))))))))).trans (at93_arg9 m c)
theorem at94_arg10 : at94 m c (Proc.devRef .tc main_arg10) = (m ((c.tc : Thread nD τ).loc main_arg10)) :=
  (keeps_93 (at93 m c) main_arg10 (Or.inr (Or.inr (Or.inr (Or.inr (Or.inr (Or.inr (Or.inr (Or.inr (Or.inr (Or.inr (Or.inl rfl)))))))))))).trans (at93_arg10 m c)
theorem at94_arg11 : at94 m c (Proc.devRef .tc main_arg11) = (m ((c.tc : Thread nD τ).loc main_arg11)) :=
  (keeps_93 (at93 m c) main_arg11 (Or.inr (Or.inr (Or.inr (Or.inr (Or.inr (Or.inr (Or.inr (Or.inr (Or.inr (Or.inr (Or.inr (Or.inl rfl))))))))))))).trans (at93_arg11 m c)
theorem at94_v3 : at94 m c (Proc.devRef .tc main_v3) = val_main_v3 (F := Ideal) (m ((c.tc : Thread nD τ).loc main_arg1)) :=
  (keeps_93 (at93 m c) main_v3 (Or.inr (Or.inr (Or.inr (Or.inr (Or.inr (Or.inr (Or.inr (Or.inr (Or.inr (Or.inr (Or.inr (Or.inr (Or.inl rfl)))))))))))))).trans (at93_v3 m c)
theorem at94_v6 : at94 m c (Proc.devRef .tc main_v6) = val_main_v6 (F := Ideal) (m ((c.tc : Thread nD τ).loc main_arg1)) :=
  (keeps_93 (at93 m c) main_v6 (Or.inr (Or.inr (Or.inr (Or.inr (Or.inr (Or.inr (Or.inr (Or.inr (Or.inr (Or.inr (Or.inr (Or.inr (Or.inr (Or.inr (rfl)))))))))))))))).trans (at93_v6 m c)
theorem at94_v29 : at94 m c (Proc.devRef .tc main_v29) = val_main_v29 (F := Ideal) (m ((c.tc : Thread nD τ).loc main_arg1)) :=
  (keeps_93 (at93 m c) main_v29 (Or.inr (Or.inr (Or.inr (Or.inr (Or.inr (Or.inr (Or.inr (Or.inr (Or.inr (Or.inr (Or.inr (Or.inr (Or.inr (Or.inl rfl))))))))))))))).trans (at93_v29 m c)
theorem at94_v73 : at94 m c (Proc.devRef .tc main_v73) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  run_93_v73 (at93 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (h_v72 := at93_v72 m c) (ha6 := at93_arg6 m c)

-- operations 94 … 126
theorem at127_arg0 : at127 m c (Proc.devRef .tc main_arg0) = (m ((c.tc : Thread nD τ).loc main_arg0)) :=
  (keeps_94 (at94 m c) main_arg0 (Or.inl rfl)).trans (at94_arg0 m c)
theorem at127_arg1 : at127 m c (Proc.devRef .tc main_arg1) = (m ((c.tc : Thread nD τ).loc main_arg1)) :=
  (keeps_94 (at94 m c) main_arg1 (Or.inr (Or.inl rfl))).trans (at94_arg1 m c)
theorem at127_arg2 : at127 m c (Proc.devRef .tc main_arg2) = (m ((c.tc : Thread nD τ).loc main_arg2)) :=
  (keeps_94 (at94 m c) main_arg2 (Or.inr (Or.inr (Or.inl rfl)))).trans (at94_arg2 m c)
theorem at127_arg3 : at127 m c (Proc.devRef .tc main_arg3) = (m ((c.tc : Thread nD τ).loc main_arg3)) :=
  (keeps_94 (at94 m c) main_arg3 (Or.inr (Or.inr (Or.inr (Or.inl rfl))))).trans (at94_arg3 m c)
theorem at127_arg4 : at127 m c (Proc.devRef .tc main_arg4) = (m ((c.tc : Thread nD τ).loc main_arg4)) :=
  (keeps_94 (at94 m c) main_arg4 (Or.inr (Or.inr (Or.inr (Or.inr (Or.inl rfl)))))).trans (at94_arg4 m c)
theorem at127_arg5 : at127 m c (Proc.devRef .tc main_arg5) = (m ((c.tc : Thread nD τ).loc main_arg5)) :=
  (keeps_94 (at94 m c) main_arg5 (Or.inr (Or.inr (Or.inr (Or.inr (Or.inr (Or.inl rfl))))))).trans (at94_arg5 m c)
theorem at127_arg6 : at127 m c (Proc.devRef .tc main_arg6) = (m ((c.tc : Thread nD τ).loc main_arg6)) :=
  (keeps_94 (at94 m c) main_arg6 (Or.inr (Or.inr (Or.inr (Or.inr (Or.inr (Or.inr (Or.inl rfl)))))))).trans (at94_arg6 m c)
theorem at127_arg7 : at127 m c (Proc.devRef .tc main_arg7) = (m ((c.tc : Thread nD τ).loc main_arg7)) :=
  (keeps_94 (at94 m c) main_arg7 (Or.inr (Or.inr (Or.inr (Or.inr (Or.inr (Or.inr (Or.inr (Or.inl rfl))))))))).trans (at94_arg7 m c)
theorem at127_arg8 : at127 m c (Proc.devRef .tc main_arg8) = (m ((c.tc : Thread nD τ).loc main_arg8)) :=
  (keeps_94 (at94 m c) main_arg8 (Or.inr (Or.inr (Or.inr (Or.inr (Or.inr (Or.inr (Or.inr (Or.inr (Or.inl rfl)))))))))).trans (at94_arg8 m c)
theorem at127_arg9 : at127 m c (Proc.devRef .tc main_arg9) = (m ((c.tc : Thread nD τ).loc main_arg9)) :=
  (keeps_94 (at94 m c) main_arg9 (Or.inr (Or.inr (Or.inr (Or.inr (Or.inr (Or.inr (Or.inr (Or.inr (Or.inr (Or.inl rfl))))))))))).trans (at94_arg9 m c)
theorem at127_arg10 : at127 m c (Proc.devRef .tc main_arg10) = (m ((c.tc : Thread nD τ).loc main_arg10)) :=
  (keeps_94 (at94 m c) main_arg10 (Or.inr (Or.inr (Or.inr (Or.inr (Or.inr (Or.inr (Or.inr (Or.inr (Or.inr (Or.inr (Or.inl rfl)))))))))))).trans (at94_arg10 m c)
theorem at127_arg11 : at127 m c (Proc.devRef .tc main_arg11) = (m ((c.tc : Thread nD τ).loc main_arg11)) :=
  (keeps_94 (at94 m c) main_arg11 (Or.inr (Or.inr (Or.inr (Or.inr (Or.inr (Or.inr (Or.inr (Or.inr (Or.inr (Or.inr (Or.inr (Or.inl rfl))))))))))))).trans (at94_arg11 m c)
theorem at127_v3 : at127 m c (Proc.devRef .tc main_v3) = val_main_v3 (F := Ideal) (m ((c.tc : Thread nD τ).loc main_arg1)) :=
  (keeps_94 (at94 m c) main_v3 (Or.inr (Or.inr (Or.inr (Or.inr (Or.inr (Or.inr (Or.inr (Or.inr (Or.inr (Or.inr (Or.inr (Or.inr (Or.inl rfl)))))))))))))).trans (at94_v3 m c)
theorem at127_v6 : at127 m c (Proc.devRef .tc main_v6) = val_main_v6 (F := Ideal) (m ((c.tc : Thread nD τ).loc main_arg1)) :=
  (keeps_94 (at94 m c) main_v6 (Or.inr (Or.inr (Or.inr (Or.inr (Or.inr (Or.inr (Or.inr (Or.inr (Or.inr (Or.inr (Or.inr (Or.inr (Or.inr (Or.inr (rfl)))))))))))))))).trans (at94_v6 m c)
theorem at127_v29 : at127 m c (Proc.devRef .tc main_v29) = val_main_v29 (F := Ideal) (m ((c.tc : Thread nD τ).loc main_arg1)) :=
  (keeps_94 (at94 m c) main_v29 (Or.inr (Or.inr (Or.inr (Or.inr (Or.inr (Or.inr (Or.inr (Or.inr (Or.inr (Or.inr (Or.inr (Or.inr (Or.inr (Or.inl rfl))))))))))))))).trans (at94_v29 m c)
theorem at127_v89 : at127 m c (Proc.devRef .tc main_v89) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  run_94_v89 (at94 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (h_v6 := at94_v6 m c) (h_v73 := at94_v73 m c) (h_v3 := at94_v3 m c) (h_v29 := at94_v29 m c) (ha7 := at94_arg7 m c)
theorem at127_v92 : at127 m c (Proc.devRef .tc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  run_94_v92 (at94 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (h_v6 := at94_v6 m c) (h_v73 := at94_v73 m c) (h_v3 := at94_v3 m c) (h_v29 := at94_v29 m c) (ha7 := at94_arg7 m c)
theorem at127_v99 : at127 m c (Proc.devRef .tc main_v99) = val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  run_94_v99 (at94 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (h_v6 := at94_v6 m c) (h_v73 := at94_v73 m c) (h_v3 := at94_v3 m c) (h_v29 := at94_v29 m c) (ha7 := at94_arg7 m c)

-- operations 127 … 142
theorem at143_arg0 : at143 m c (Proc.devRef .tc main_arg0) = (m ((c.tc : Thread nD τ).loc main_arg0)) :=
  (keeps_127 (at127 m c) main_arg0 (Or.inl rfl)).trans (at127_arg0 m c)
theorem at143_arg1 : at143 m c (Proc.devRef .tc main_arg1) = (m ((c.tc : Thread nD τ).loc main_arg1)) :=
  (keeps_127 (at127 m c) main_arg1 (Or.inr (Or.inl rfl))).trans (at127_arg1 m c)
theorem at143_arg2 : at143 m c (Proc.devRef .tc main_arg2) = (m ((c.tc : Thread nD τ).loc main_arg2)) :=
  (keeps_127 (at127 m c) main_arg2 (Or.inr (Or.inr (Or.inl rfl)))).trans (at127_arg2 m c)
theorem at143_arg3 : at143 m c (Proc.devRef .tc main_arg3) = (m ((c.tc : Thread nD τ).loc main_arg3)) :=
  (keeps_127 (at127 m c) main_arg3 (Or.inr (Or.inr (Or.inr (Or.inl rfl))))).trans (at127_arg3 m c)
theorem at143_arg4 : at143 m c (Proc.devRef .tc main_arg4) = (m ((c.tc : Thread nD τ).loc main_arg4)) :=
  (keeps_127 (at127 m c) main_arg4 (Or.inr (Or.inr (Or.inr (Or.inr (Or.inl rfl)))))).trans (at127_arg4 m c)
theorem at143_arg5 : at143 m c (Proc.devRef .tc main_arg5) = (m ((c.tc : Thread nD τ).loc main_arg5)) :=
  (keeps_127 (at127 m c) main_arg5 (Or.inr (Or.inr (Or.inr (Or.inr (Or.inr (Or.inl rfl))))))).trans (at127_arg5 m c)
theorem at143_arg6 : at143 m c (Proc.devRef .tc main_arg6) = (m ((c.tc : Thread nD τ).loc main_arg6)) :=
  (keeps_127 (at127 m c) main_arg6 (Or.inr (Or.inr (Or.inr (Or.inr (Or.inr (Or.inr (Or.inl rfl)))))))).trans (at127_arg6 m c)
theorem at143_arg7 : at143 m c (Proc.devRef .tc main_arg7) = (m ((c.tc : Thread nD τ).loc main_arg7)) :=
  (keeps_127 (at127 m c) main_arg7 (Or.inr (Or.inr (Or.inr (Or.inr (Or.inr (Or.inr (Or.inr (Or.inl rfl))))))))).trans (at127_arg7 m c)
theorem at143_arg8 : at143 m c (Proc.devRef .tc main_arg8) = (m ((c.tc : Thread nD τ).loc main_arg8)) :=
  (keeps_127 (at127 m c) main_arg8 (Or.inr (Or.inr (Or.inr (Or.inr (Or.inr (Or.inr (Or.inr (Or.inr (Or.inl rfl)))))))))).trans (at127_arg8 m c)
theorem at143_arg9 : at143 m c (Proc.devRef .tc main_arg9) = (m ((c.tc : Thread nD τ).loc main_arg9)) :=
  (keeps_127 (at127 m c) main_arg9 (Or.inr (Or.inr (Or.inr (Or.inr (Or.inr (Or.inr (Or.inr (Or.inr (Or.inr (Or.inl rfl))))))))))).trans (at127_arg9 m c)
theorem at143_arg10 : at143 m c (Proc.devRef .tc main_arg10) = (m ((c.tc : Thread nD τ).loc main_arg10)) :=
  (keeps_127 (at127 m c) main_arg10 (Or.inr (Or.inr (Or.inr (Or.inr (Or.inr (Or.inr (Or.inr (Or.inr (Or.inr (Or.inr (Or.inl rfl)))))))))))).trans (at127_arg10 m c)
theorem at143_arg11 : at143 m c (Proc.devRef .tc main_arg11) = (m ((c.tc : Thread nD τ).loc main_arg11)) :=
  (keeps_127 (at127 m c) main_arg11 (Or.inr (Or.inr (Or.inr (Or.inr (Or.inr (Or.inr (Or.inr (Or.inr (Or.inr (Or.inr (Or.inr (Or.inl rfl))))))))))))).trans (at127_arg11 m c)
theorem at143_v3 : at143 m c (Proc.devRef .tc main_v3) = val_main_v3 (F := Ideal) (m ((c.tc : Thread nD τ).loc main_arg1)) :=
  (keeps_127 (at127 m c) main_v3 (Or.inr (Or.inr (Or.inr (Or.inr (Or.inr (Or.inr (Or.inr (Or.inr (Or.inr (Or.inr (Or.inr (Or.inr (Or.inl rfl)))))))))))))).trans (at127_v3 m c)
theorem at143_v6 : at143 m c (Proc.devRef .tc main_v6) = val_main_v6 (F := Ideal) (m ((c.tc : Thread nD τ).loc main_arg1)) :=
  (keeps_127 (at127 m c) main_v6 (Or.inr (Or.inr (Or.inr (Or.inr (Or.inr (Or.inr (Or.inr (Or.inr (Or.inr (Or.inr (Or.inr (Or.inr (Or.inr (Or.inr (rfl)))))))))))))))).trans (at127_v6 m c)
theorem at143_v29 : at143 m c (Proc.devRef .tc main_v29) = val_main_v29 (F := Ideal) (m ((c.tc : Thread nD τ).loc main_arg1)) :=
  (keeps_127 (at127 m c) main_v29 (Or.inr (Or.inr (Or.inr (Or.inr (Or.inr (Or.inr (Or.inr (Or.inr (Or.inr (Or.inr (Or.inr (Or.inr (Or.inr (Or.inl rfl))))))))))))))).trans (at127_v29 m c)
theorem at143_v114 : at143 m c (Proc.devRef .tc main_v114) = val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  run_127_v114 (at127 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ha8 := at127_arg8 m c) (h_v89 := at127_v89 m c) (h_v92 := at127_v92 m c) (h_v99 := at127_v99 m c) (ha9 := at127_arg9 m c)

-- operations 143 … 145
theorem at146_arg0 : at146 m c (Proc.devRef .tc main_arg0) = (m ((c.tc : Thread nD τ).loc main_arg0)) :=
  (keeps_143 (at143 m c) main_arg0 (Or.inl rfl)).trans (at143_arg0 m c)
theorem at146_arg1 : at146 m c (Proc.devRef .tc main_arg1) = (m ((c.tc : Thread nD τ).loc main_arg1)) :=
  (keeps_143 (at143 m c) main_arg1 (Or.inr (Or.inl rfl))).trans (at143_arg1 m c)
theorem at146_arg2 : at146 m c (Proc.devRef .tc main_arg2) = (m ((c.tc : Thread nD τ).loc main_arg2)) :=
  (keeps_143 (at143 m c) main_arg2 (Or.inr (Or.inr (Or.inl rfl)))).trans (at143_arg2 m c)
theorem at146_arg3 : at146 m c (Proc.devRef .tc main_arg3) = (m ((c.tc : Thread nD τ).loc main_arg3)) :=
  (keeps_143 (at143 m c) main_arg3 (Or.inr (Or.inr (Or.inr (Or.inl rfl))))).trans (at143_arg3 m c)
theorem at146_arg4 : at146 m c (Proc.devRef .tc main_arg4) = (m ((c.tc : Thread nD τ).loc main_arg4)) :=
  (keeps_143 (at143 m c) main_arg4 (Or.inr (Or.inr (Or.inr (Or.inr (Or.inl rfl)))))).trans (at143_arg4 m c)
theorem at146_arg5 : at146 m c (Proc.devRef .tc main_arg5) = (m ((c.tc : Thread nD τ).loc main_arg5)) :=
  (keeps_143 (at143 m c) main_arg5 (Or.inr (Or.inr (Or.inr (Or.inr (Or.inr (Or.inl rfl))))))).trans (at143_arg5 m c)
theorem at146_arg6 : at146 m c (Proc.devRef .tc main_arg6) = (m ((c.tc : Thread nD τ).loc main_arg6)) :=
  (keeps_143 (at143 m c) main_arg6 (Or.inr (Or.inr (Or.inr (Or.inr (Or.inr (Or.inr (Or.inl rfl)))))))).trans (at143_arg6 m c)
theorem at146_arg7 : at146 m c (Proc.devRef .tc main_arg7) = (m ((c.tc : Thread nD τ).loc main_arg7)) :=
  (keeps_143 (at143 m c) main_arg7 (Or.inr (Or.inr (Or.inr (Or.inr (Or.inr (Or.inr (Or.inr (Or.inl rfl))))))))).trans (at143_arg7 m c)
theorem at146_arg8 : at146 m c (Proc.devRef .tc main_arg8) = (m ((c.tc : Thread nD τ).loc main_arg8)) :=
  (keeps_143 (at143 m c) main_arg8 (Or.inr (Or.inr (Or.inr (Or.inr (Or.inr (Or.inr (Or.inr (Or.inr (Or.inl rfl)))))))))).trans (at143_arg8 m c)
theorem at146_arg9 : at146 m c (Proc.devRef .tc main_arg9) = (m ((c.tc : Thread nD τ).loc main_arg9)) :=
  (keeps_143 (at143 m c) main_arg9 (Or.inr (Or.inr (Or.inr (Or.inr (Or.inr (Or.inr (Or.inr (Or.inr (Or.inr (Or.inl rfl))))))))))).trans (at143_arg9 m c)
theorem at146_arg10 : at146 m c (Proc.devRef .tc main_arg10) = (m ((c.tc : Thread nD τ).loc main_arg10)) :=
  (keeps_143 (at143 m c) main_arg10 (Or.inr (Or.inr (Or.inr (Or.inr (Or.inr (Or.inr (Or.inr (Or.inr (Or.inr (Or.inr (Or.inl rfl)))))))))))).trans (at143_arg10 m c)
theorem at146_arg11 : at146 m c (Proc.devRef .tc main_arg11) = (m ((c.tc : Thread nD τ).loc main_arg11)) :=
  (keeps_143 (at143 m c) main_arg11 (Or.inr (Or.inr (Or.inr (Or.inr (Or.inr (Or.inr (Or.inr (Or.inr (Or.inr (Or.inr (Or.inr (Or.inl rfl))))))))))))).trans (at143_arg11 m c)
theorem at146_v3 : at146 m c (Proc.devRef .tc main_v3) = val_main_v3 (F := Ideal) (m ((c.tc : Thread nD τ).loc main_arg1)) :=
  (keeps_143 (at143 m c) main_v3 (Or.inr (Or.inr (Or.inr (Or.inr (Or.inr (Or.inr (Or.inr (Or.inr (Or.inr (Or.inr (Or.inr (Or.inr (Or.inl rfl)))))))))))))).trans (at143_v3 m c)
theorem at146_v6 : at146 m c (Proc.devRef .tc main_v6) = val_main_v6 (F := Ideal) (m ((c.tc : Thread nD τ).loc main_arg1)) :=
  (keeps_143 (at143 m c) main_v6 (Or.inr (Or.inr (Or.inr (Or.inr (Or.inr (Or.inr (Or.inr (Or.inr (Or.inr (Or.inr (Or.inr (Or.inr (Or.inr (Or.inr (rfl)))))))))))))))).trans (at143_v6 m c)
theorem at146_v29 : at146 m c (Proc.devRef .tc main_v29) = val_main_v29 (F := Ideal) (m ((c.tc : Thread nD τ).loc main_arg1)) :=
  (keeps_143 (at143 m c) main_v29 (Or.inr (Or.inr (Or.inr (Or.inr (Or.inr (Or.inr (Or.inr (Or.inr (Or.inr (Or.inr (Or.inr (Or.inr (Or.inr (Or.inl rfl))))))))))))))).trans (at143_v29 m c)
theorem at146_v115 : at146 m c (Proc.devRef .tc main_v115) = val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  run_143_v115 (at143 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (h_v114 := at143_v114 m c)

-- operations 146 … 146
theorem at147_arg0 : at147 m c (Proc.devRef .tc main_arg0) = (m ((c.tc : Thread nD τ).loc main_arg0)) :=
  (keeps_146 (at146 m c) main_arg0 (Or.inl rfl)).trans (at146_arg0 m c)
theorem at147_arg1 : at147 m c (Proc.devRef .tc main_arg1) = (m ((c.tc : Thread nD τ).loc main_arg1)) :=
  (keeps_146 (at146 m c) main_arg1 (Or.inr (Or.inl rfl))).trans (at146_arg1 m c)
theorem at147_arg2 : at147 m c (Proc.devRef .tc main_arg2) = (m ((c.tc : Thread nD τ).loc main_arg2)) :=
  (keeps_146 (at146 m c) main_arg2 (Or.inr (Or.inr (Or.inl rfl)))).trans (at146_arg2 m c)
theorem at147_arg3 : at147 m c (Proc.devRef .tc main_arg3) = (m ((c.tc : Thread nD τ).loc main_arg3)) :=
  (keeps_146 (at146 m c) main_arg3 (Or.inr (Or.inr (Or.inr (Or.inl rfl))))).trans (at146_arg3 m c)
theorem at147_arg4 : at147 m c (Proc.devRef .tc main_arg4) = (m ((c.tc : Thread nD τ).loc main_arg4)) :=
  (keeps_146 (at146 m c) main_arg4 (Or.inr (Or.inr (Or.inr (Or.inr (Or.inl rfl)))))).trans (at146_arg4 m c)
theorem at147_arg5 : at147 m c (Proc.devRef .tc main_arg5) = (m ((c.tc : Thread nD τ).loc main_arg5)) :=
  (keeps_146 (at146 m c) main_arg5 (Or.inr (Or.inr (Or.inr (Or.inr (Or.inr (Or.inl rfl))))))).trans (at146_arg5 m c)
theorem at147_arg6 : at147 m c (Proc.devRef .tc main_arg6) = (m ((c.tc : Thread nD τ).loc main_arg6)) :=
  (keeps_146 (at146 m c) main_arg6 (Or.inr (Or.inr (Or.inr (Or.inr (Or.inr (Or.inr (Or.inl rfl)))))))).trans (at146_arg6 m c)
theorem at147_arg7 : at147 m c (Proc.devRef .tc main_arg7) = (m ((c.tc : Thread nD τ).loc main_arg7)) :=
  (keeps_146 (at146 m c) main_arg7 (Or.inr (Or.inr (Or.inr (Or.inr (Or.inr (Or.inr (Or.inr (Or.inl rfl))))))))).trans (at146_arg7 m c)
theorem at147_arg8 : at147 m c (Proc.devRef .tc main_arg8) = (m ((c.tc : Thread nD τ).loc main_arg8)) :=
  (keeps_146 (at146 m c) main_arg8 (Or.inr (Or.inr (Or.inr (Or.inr (Or.inr (Or.inr (Or.inr (Or.inr (Or.inl rfl)))))))))).trans (at146_arg8 m c)
theorem at147_arg9 : at147 m c (Proc.devRef .tc main_arg9) = (m ((c.tc : Thread nD τ).loc main_arg9)) :=
  (keeps_146 (at146 m c) main_arg9 (Or.inr (Or.inr (Or.inr (Or.inr (Or.inr (Or.inr (Or.inr (Or.inr (Or.inr (Or.inl rfl))))))))))).trans (at146_arg9 m c)
theorem at147_arg10 : at147 m c (Proc.devRef .tc main_arg10) = (m ((c.tc : Thread nD τ).loc main_arg10)) :=
  (keeps_146 (at146 m c) main_arg10 (Or.inr (Or.inr (Or.inr (Or.inr (Or.inr (Or.inr (Or.inr (Or.inr (Or.inr (Or.inr (Or.inl rfl)))))))))))).trans (at146_arg10 m c)
theorem at147_arg11 : at147 m c (Proc.devRef .tc main_arg11) = (m ((c.tc : Thread nD τ).loc main_arg11)) :=
  (keeps_146 (at146 m c) main_arg11 (Or.inr (Or.inr (Or.inr (Or.inr (Or.inr (Or.inr (Or.inr (Or.inr (Or.inr (Or.inr (Or.inr (Or.inl rfl))))))))))))).trans (at146_arg11 m c)
theorem at147_v3 : at147 m c (Proc.devRef .tc main_v3) = val_main_v3 (F := Ideal) (m ((c.tc : Thread nD τ).loc main_arg1)) :=
  (keeps_146 (at146 m c) main_v3 (Or.inr (Or.inr (Or.inr (Or.inr (Or.inr (Or.inr (Or.inr (Or.inr (Or.inr (Or.inr (Or.inr (Or.inr (Or.inl rfl)))))))))))))).trans (at146_v3 m c)
theorem at147_v6 : at147 m c (Proc.devRef .tc main_v6) = val_main_v6 (F := Ideal) (m ((c.tc : Thread nD τ).loc main_arg1)) :=
  (keeps_146 (at146 m c) main_v6 (Or.inr (Or.inr (Or.inr (Or.inr (Or.inr (Or.inr (Or.inr (Or.inr (Or.inr (Or.inr (Or.inr (Or.inr (Or.inr (Or.inr (rfl)))))))))))))))).trans (at146_v6 m c)
theorem at147_v29 : at147 m c (Proc.devRef .tc main_v29) = val_main_v29 (F := Ideal) (m ((c.tc : Thread nD τ).loc main_arg1)) :=
  (keeps_146 (at146 m c) main_v29 (Or.inr (Or.inr (Or.inr (Or.inr (Or.inr (Or.inr (Or.inr (Or.inr (Or.inr (Or.inr (Or.inr (Or.inr (Or.inr (Or.inl rfl))))))))))))))).trans (at146_v29 m c)
theorem at147_v116 : at147 m c (Proc.devRef .tc main_v116) = val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  run_146_v116 (at146 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (h_v115 := at146_v115 m c) (ha10 := at146_arg10 m c)

-- operations 147 … 165
theorem at166_arg0 : at166 m c (Proc.devRef .tc main_arg0) = (m ((c.tc : Thread nD τ).loc main_arg0)) :=
  (keeps_147 (at147 m c) main_arg0 (Or.inl rfl)).trans (at147_arg0 m c)
theorem at166_arg1 : at166 m c (Proc.devRef .tc main_arg1) = (m ((c.tc : Thread nD τ).loc main_arg1)) :=
  (keeps_147 (at147 m c) main_arg1 (Or.inr (Or.inl rfl))).trans (at147_arg1 m c)
theorem at166_arg2 : at166 m c (Proc.devRef .tc main_arg2) = (m ((c.tc : Thread nD τ).loc main_arg2)) :=
  (keeps_147 (at147 m c) main_arg2 (Or.inr (Or.inr (Or.inl rfl)))).trans (at147_arg2 m c)
theorem at166_arg3 : at166 m c (Proc.devRef .tc main_arg3) = (m ((c.tc : Thread nD τ).loc main_arg3)) :=
  (keeps_147 (at147 m c) main_arg3 (Or.inr (Or.inr (Or.inr (Or.inl rfl))))).trans (at147_arg3 m c)
theorem at166_arg4 : at166 m c (Proc.devRef .tc main_arg4) = (m ((c.tc : Thread nD τ).loc main_arg4)) :=
  (keeps_147 (at147 m c) main_arg4 (Or.inr (Or.inr (Or.inr (Or.inr (Or.inl rfl)))))).trans (at147_arg4 m c)
theorem at166_arg5 : at166 m c (Proc.devRef .tc main_arg5) = (m ((c.tc : Thread nD τ).loc main_arg5)) :=
  (keeps_147 (at147 m c) main_arg5 (Or.inr (Or.inr (Or.inr (Or.inr (Or.inr (Or.inl rfl))))))).trans (at147_arg5 m c)
theorem at166_arg6 : at166 m c (Proc.devRef .tc main_arg6) = (m ((c.tc : Thread nD τ).loc main_arg6)) :=
  (keeps_147 (at147 m c) main_arg6 (Or.inr (Or.inr (Or.inr (Or.inr (Or.inr (Or.inr (Or.inl rfl)))))))).trans (at147_arg6 m c)
theorem at166_arg7 : at166 m c (Proc.devRef .tc main_arg7) = (m ((c.tc : Thread nD τ).loc main_arg7)) :=
  (keeps_147 (at147 m c) main_arg7 (Or.inr (Or.inr (Or.inr (Or.inr (Or.inr (Or.inr (Or.inr (Or.inl rfl))))))))).trans (at147_arg7 m c)
theorem at166_arg8 : at166 m c (Proc.devRef .tc main_arg8) = (m ((c.tc : Thread nD τ).loc main_arg8)) :=
  (keeps_147 (at147 m c) main_arg8 (Or.inr (Or.inr (Or.inr (Or.inr (Or.inr (Or.inr (Or.inr (Or.inr (Or.inl rfl)))))))))).trans (at147_arg8 m c)
theorem at166_arg9 : at166 m c (Proc.devRef .tc main_arg9) = (m ((c.tc : Thread nD τ).loc main_arg9)) :=
  (keeps_147 (at147 m c) main_arg9 (Or.inr (Or.inr (Or.inr (Or.inr (Or.inr (Or.inr (Or.inr (Or.inr (Or.inr (Or.inl rfl))))))))))).trans (at147_arg9 m c)
theorem at166_arg10 : at166 m c (Proc.devRef .tc main_arg10) = (m ((c.tc : Thread nD τ).loc main_arg10)) :=
  (keeps_147 (at147 m c) main_arg10 (Or.inr (Or.inr (Or.inr (Or.inr (Or.inr (Or.inr (Or.inr (Or.inr (Or.inr (Or.inr (Or.inl rfl)))))))))))).trans (at147_arg10 m c)
theorem at166_arg11 : at166 m c (Proc.devRef .tc main_arg11) = (m ((c.tc : Thread nD τ).loc main_arg11)) :=
  (keeps_147 (at147 m c) main_arg11 (Or.inr (Or.inr (Or.inr (Or.inr (Or.inr (Or.inr (Or.inr (Or.inr (Or.inr (Or.inr (Or.inr (rfl))))))))))))).trans (at147_arg11 m c)
theorem at166_v132 : at166 m c (Proc.devRef .tc main_v132) = val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  run_147_v132 (at147 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (h_v6 := at147_v6 m c) (h_v116 := at147_v116 m c) (h_v3 := at147_v3 m c) (h_v29 := at147_v29 m c) (ha11 := at147_arg11 m c)

-- operations 166 … 180
theorem at181_arg0 : at181 m c (Proc.devRef .tc main_arg0) = (m ((c.tc : Thread nD τ).loc main_arg0)) :=
  (keeps_166 (at166 m c) main_arg0 (Or.inl rfl)).trans (at166_arg0 m c)
theorem at181_arg1 : at181 m c (Proc.devRef .tc main_arg1) = (m ((c.tc : Thread nD τ).loc main_arg1)) :=
  (keeps_166 (at166 m c) main_arg1 (Or.inr (Or.inl rfl))).trans (at166_arg1 m c)
theorem at181_arg2 : at181 m c (Proc.devRef .tc main_arg2) = (m ((c.tc : Thread nD τ).loc main_arg2)) :=
  (keeps_166 (at166 m c) main_arg2 (Or.inr (Or.inr (Or.inl rfl)))).trans (at166_arg2 m c)
theorem at181_arg3 : at181 m c (Proc.devRef .tc main_arg3) = (m ((c.tc : Thread nD τ).loc main_arg3)) :=
  (keeps_166 (at166 m c) main_arg3 (Or.inr (Or.inr (Or.inr (Or.inl rfl))))).trans (at166_arg3 m c)
theorem at181_arg4 : at181 m c (Proc.devRef .tc main_arg4) = (m ((c.tc : Thread nD τ).loc main_arg4)) :=
  (keeps_166 (at166 m c) main_arg4 (Or.inr (Or.inr (Or.inr (Or.inr (Or.inl rfl)))))).trans (at166_arg4 m c)
theorem at181_arg5 : at181 m c (Proc.devRef .tc main_arg5) = (m ((c.tc : Thread nD τ).loc main_arg5)) :=
  (keeps_166 (at166 m c) main_arg5 (Or.inr (Or.inr (Or.inr (Or.inr (Or.inr (Or.inl rfl))))))).trans (at166_arg5 m c)
theorem at181_arg6 : at181 m c (Proc.devRef .tc main_arg6) = (m ((c.tc : Thread nD τ).loc main_arg6)) :=
  (keeps_166 (at166 m c) main_arg6 (Or.inr (Or.inr (Or.inr (Or.inr (Or.inr (Or.inr (Or.inl rfl)))))))).trans (at166_arg6 m c)
theorem at181_arg7 : at181 m c (Proc.devRef .tc main_arg7) = (m ((c.tc : Thread nD τ).loc main_arg7)) :=
  (keeps_166 (at166 m c) main_arg7 (Or.inr (Or.inr (Or.inr (Or.inr (Or.inr (Or.inr (Or.inr (Or.inl rfl))))))))).trans (at166_arg7 m c)
theorem at181_arg8 : at181 m c (Proc.devRef .tc main_arg8) = (m ((c.tc : Thread nD τ).loc main_arg8)) :=
  (keeps_166 (at166 m c) main_arg8 (Or.inr (Or.inr (Or.inr (Or.inr (Or.inr (Or.inr (Or.inr (Or.inr (Or.inl rfl)))))))))).trans (at166_arg8 m c)
theorem at181_arg9 : at181 m c (Proc.devRef .tc main_arg9) = (m ((c.tc : Thread nD τ).loc main_arg9)) :=
  (keeps_166 (at166 m c) main_arg9 (Or.inr (Or.inr (Or.inr (Or.inr (Or.inr (Or.inr (Or.inr (Or.inr (Or.inr (Or.inl rfl))))))))))).trans (at166_arg9 m c)
theorem at181_arg10 : at181 m c (Proc.devRef .tc main_arg10) = (m ((c.tc : Thread nD τ).loc main_arg10)) :=
  (keeps_166 (at166 m c) main_arg10 (Or.inr (Or.inr (Or.inr (Or.inr (Or.inr (Or.inr (Or.inr (Or.inr (Or.inr (Or.inr (Or.inl rfl)))))))))))).trans (at166_arg10 m c)
theorem at181_arg11 : at181 m c (Proc.devRef .tc main_arg11) = (m ((c.tc : Thread nD τ).loc main_arg11)) :=
  (keeps_166 (at166 m c) main_arg11 (Or.inr (Or.inr (Or.inr (Or.inr (Or.inr (Or.inr (Or.inr (Or.inr (Or.inr (Or.inr (Or.inr (rfl))))))))))))).trans (at166_arg11 m c)
theorem at181_v133 : at181 m c (Proc.devRef .tc main_v133) = val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  run_166_v133 (at166 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (h_v132 := at166_v132 m c)

/-! ## The whole line -/

/-- The contents after all 181 operations, read piece by piece. -/
theorem whole_eq : StableHlo.after (ValueP.ops (F := Ideal)) (launchContents m c) = at181 m c :=
  show StableHlo.after (List.drop 0 (ValueP.ops (F := Ideal))) (at0 m c) = at181 m c from
  (after_cut _ 0 18 _).trans ((after_cut _ 18 3 _).trans ((after_cut _ 21 19 _).trans ((after_cut _ 40 1 _).trans ((after_cut _ 41 33 _).trans ((after_cut _ 74 16 _).trans ((after_cut _ 90 3 _).trans ((after_cut _ 93 1 _).trans ((after_cut _ 94 33 _).trans ((after_cut _ 127 16 _).trans ((after_cut _ 143 3 _).trans ((after_cut _ 146 1 _).trans ((after_cut _ 147 19 _).trans ((after_cut _ 166 15 _).trans (after_drop_length _ 181 (Nat.le_of_eq rfl) _))))))))))))))

/-- THE RESULT: after the plain program's 181 operations its result buffer holds the last stage, as a function of the
    twelve argument arrays as launched. -/
theorem result_value (m : (ℓ : Loc nD τ sig) → Buf (Elt Ideal) ℓ) (c : Dev nD) :
    StableHlo.after (ValueP.ops (F := Ideal)) (launchContents m c) (Proc.devRef .tc main_v133)
      = val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (congrFun (whole_eq m c) _).trans (at181_v133 m c)

/-- No operation writes argument 0. -/
theorem arg_kept_0 (m : (ℓ : Loc nD τ sig) → Buf (Elt Ideal) ℓ) (c : Dev nD) :
    StableHlo.after (ValueP.ops (F := Ideal)) (launchContents m c) (Proc.devRef .tc main_arg0) = (m ((c.tc : Thread nD τ).loc main_arg0)) :=
  (congrFun (whole_eq m c) _).trans (at181_arg0 m c)

/-- No operation writes argument 1. -/
theorem arg_kept_1 (m : (ℓ : Loc nD τ sig) → Buf (Elt Ideal) ℓ) (c : Dev nD) :
    StableHlo.after (ValueP.ops (F := Ideal)) (launchContents m c) (Proc.devRef .tc main_arg1) = (m ((c.tc : Thread nD τ).loc main_arg1)) :=
  (congrFun (whole_eq m c) _).trans (at181_arg1 m c)

/-- No operation writes argument 2. -/
theorem arg_kept_2 (m : (ℓ : Loc nD τ sig) → Buf (Elt Ideal) ℓ) (c : Dev nD) :
    StableHlo.after (ValueP.ops (F := Ideal)) (launchContents m c) (Proc.devRef .tc main_arg2) = (m ((c.tc : Thread nD τ).loc main_arg2)) :=
  (congrFun (whole_eq m c) _).trans (at181_arg2 m c)

/-- No operation writes argument 3. -/
theorem arg_kept_3 (m : (ℓ : Loc nD τ sig) → Buf (Elt Ideal) ℓ) (c : Dev nD) :
    StableHlo.after (ValueP.ops (F := Ideal)) (launchContents m c) (Proc.devRef .tc main_arg3) = (m ((c.tc : Thread nD τ).loc main_arg3)) :=
  (congrFun (whole_eq m c) _).trans (at181_arg3 m c)

/-- No operation writes argument 4. -/
theorem arg_kept_4 (m : (ℓ : Loc nD τ sig) → Buf (Elt Ideal) ℓ) (c : Dev nD) :
    StableHlo.after (ValueP.ops (F := Ideal)) (launchContents m c) (Proc.devRef .tc main_arg4) = (m ((c.tc : Thread nD τ).loc main_arg4)) :=
  (congrFun (whole_eq m c) _).trans (at181_arg4 m c)

/-- No operation writes argument 5. -/
theorem arg_kept_5 (m : (ℓ : Loc nD τ sig) → Buf (Elt Ideal) ℓ) (c : Dev nD) :
    StableHlo.after (ValueP.ops (F := Ideal)) (launchContents m c) (Proc.devRef .tc main_arg5) = (m ((c.tc : Thread nD τ).loc main_arg5)) :=
  (congrFun (whole_eq m c) _).trans (at181_arg5 m c)

/-- No operation writes argument 6. -/
theorem arg_kept_6 (m : (ℓ : Loc nD τ sig) → Buf (Elt Ideal) ℓ) (c : Dev nD) :
    StableHlo.after (ValueP.ops (F := Ideal)) (launchContents m c) (Proc.devRef .tc main_arg6) = (m ((c.tc : Thread nD τ).loc main_arg6)) :=
  (congrFun (whole_eq m c) _).trans (at181_arg6 m c)

/-- No operation writes argument 7. -/
theorem arg_kept_7 (m : (ℓ : Loc nD τ sig) → Buf (Elt Ideal) ℓ) (c : Dev nD) :
    StableHlo.after (ValueP.ops (F := Ideal)) (launchContents m c) (Proc.devRef .tc main_arg7) = (m ((c.tc : Thread nD τ).loc main_arg7)) :=
  (congrFun (whole_eq m c) _).trans (at181_arg7 m c)

/-- No operation writes argument 8. -/
theorem arg_kept_8 (m : (ℓ : Loc nD τ sig) → Buf (Elt Ideal) ℓ) (c : Dev nD) :
    StableHlo.after (ValueP.ops (F := Ideal)) (launchContents m c) (Proc.devRef .tc main_arg8) = (m ((c.tc : Thread nD τ).loc main_arg8)) :=
  (congrFun (whole_eq m c) _).trans (at181_arg8 m c)

/-- No operation writes argument 9. -/
theorem arg_kept_9 (m : (ℓ : Loc nD τ sig) → Buf (Elt Ideal) ℓ) (c : Dev nD) :
    StableHlo.after (ValueP.ops (F := Ideal)) (launchContents m c) (Proc.devRef .tc main_arg9) = (m ((c.tc : Thread nD τ).loc main_arg9)) :=
  (congrFun (whole_eq m c) _).trans (at181_arg9 m c)

/-- No operation writes argument 10. -/
theorem arg_kept_10 (m : (ℓ : Loc nD τ sig) → Buf (Elt Ideal) ℓ) (c : Dev nD) :
    StableHlo.after (ValueP.ops (F := Ideal)) (launchContents m c) (Proc.devRef .tc main_arg10) = (m ((c.tc : Thread nD τ).loc main_arg10)) :=
  (congrFun (whole_eq m c) _).trans (at181_arg10 m c)

/-- No operation writes argument 11. -/
theorem arg_kept_11 (m : (ℓ : Loc nD τ sig) → Buf (Elt Ideal) ℓ) (c : Dev nD) :
    StableHlo.after (ValueP.ops (F := Ideal)) (launchContents m c) (Proc.devRef .tc main_arg11) = (m ((c.tc : Thread nD τ).loc main_arg11)) :=
  (congrFun (whole_eq m c) _).trans (at181_arg11 m c)

end Cert.ReferenceIdeal.Whole

end
-- ==== Proof.lean ====
/-
  A three-layer graph convolution network with batch normalisation and a final row log-softmax, computed twice: by a
  program whose four dense stages (three feature products, the last two fused with the normalisation and the clamp at
  zero, and the log-softmax) run tile by tile over blocks of 5000 of the 100000 rows, and by the plain program on whole
  arrays. Both run the same host operations between the dense stages (edge lists with self loops, symmetric degree
  normalisation, gather / scale / scatter-add aggregation, per-feature mean and variance).

  At the ideal values (floats are extended reals, every operation exact) the two results are equal, entry by entry,
  with no assumption on the inputs: a tile's block of a product is the same sum over the 128 features as the whole
  product's entry, the fused normalisation is the same expression per entry, a row's log-softmax depends on its own
  row only, and the host operations are literally the same terms. The proof reads the tiled program's result array
  off its run boundary by boundary (Proof/BoundaryValues.lean: `Whole.result_value`), reads the plain program's
  result off its run slice by slice (`Cert.ReferenceIdeal.Whole.result_value`), both as the plain program's last
  stage of the launch arrays, and rewrites the agreement of the arguments. The three frames are the runs with the
  results dropped; the idealisation rewrote no operation, so `preserves` is trivial.
-/
import proofs.«153693_j23948737643064_1_alg».proof.Defs
import proofs.«153693_j23948737643064_1_alg».proof.Proof.Gen.Kernel
import proofs.«153693_j23948737643064_1_alg».proof.Proof.Gen.Kernel.Skeleton
import proofs.«153693_j23948737643064_1_alg».proof.Proof.Gen.Kernel.Launch
import proofs.«153693_j23948737643064_1_alg».proof.Proof.Gen.Kernel.Points
import proofs.«153693_j23948737643064_1_alg».proof.Proof.Gen.Kernel.Frame
import proofs.«153693_j23948737643064_1_alg».proof.Proof.Gen.KernelIdeal
import proofs.«153693_j23948737643064_1_alg».proof.Proof.Gen.KernelIdeal.Skeleton
import proofs.«153693_j23948737643064_1_alg».proof.Proof.Gen.KernelIdeal.Launch
import proofs.«153693_j23948737643064_1_alg».proof.Proof.Gen.KernelIdeal.Points
import proofs.«153693_j23948737643064_1_alg».proof.Proof.Gen.KernelIdeal.Frame
import proofs.«153693_j23948737643064_1_alg».proof.Proof.Gen.ReferenceIdeal
import proofs.«153693_j23948737643064_1_alg».proof.Proof.Gen.Pre_finite_inputs
import proofs.«153693_j23948737643064_1_alg».proof.Proof.ResultRun
import proofs.«153693_j23948737643064_1_alg».proof.Proof.BoundaryValues
import proofs.«153693_j23948737643064_1_alg».proof.Proof.RunP
import proofs.«153693_j23948737643064_1_alg».proof.Proof.ReadP
import proofs.«153693_j23948737643064_1_alg».proof.Proof.WholeRun
import Idealize.ShloMosaic.Adequacy
import Idealize.ShloMosaic.Init

set_option maxRecDepth 16384

noncomputable section

namespace Cert.Proof

open Idealize.ShloMosaic Idealize.ShloMosaic.TcCoe Idealize.SL.Sem

/-- The tiled program as printed: every execution ends with its arguments unchanged. -/
theorem frame_k : Cert.frame_Kernel (hKernel := Cert.Kernel.Gen.facts) (hPre_finite_inputs := Cert.Pre_finite_inputs.Gen.facts) :=
  fun m ρ _ => Cert.Kernel.Gen.frame m ρ

/-- The same at the ideal values. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The plain program: no operation writes an argument array. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.Whole.arg_kept_0 m c),
     (h c Cert.ReferenceIdeal.main_arg1).trans (Cert.ReferenceIdeal.Whole.arg_kept_1 m c),
     (h c Cert.ReferenceIdeal.main_arg2).trans (Cert.ReferenceIdeal.Whole.arg_kept_2 m c),
     (h c Cert.ReferenceIdeal.main_arg3).trans (Cert.ReferenceIdeal.Whole.arg_kept_3 m c),
     (h c Cert.ReferenceIdeal.main_arg4).trans (Cert.ReferenceIdeal.Whole.arg_kept_4 m c),
     (h c Cert.ReferenceIdeal.main_arg5).trans (Cert.ReferenceIdeal.Whole.arg_kept_5 m c),
     (h c Cert.ReferenceIdeal.main_arg6).trans (Cert.ReferenceIdeal.Whole.arg_kept_6 m c),
     (h c Cert.ReferenceIdeal.main_arg7).trans (Cert.ReferenceIdeal.Whole.arg_kept_7 m c),
     (h c Cert.ReferenceIdeal.main_arg8).trans (Cert.ReferenceIdeal.Whole.arg_kept_8 m c),
     (h c Cert.ReferenceIdeal.main_arg9).trans (Cert.ReferenceIdeal.Whole.arg_kept_9 m c),
     (h c Cert.ReferenceIdeal.main_arg10).trans (Cert.ReferenceIdeal.Whole.arg_kept_10 m c),
     (h c Cert.ReferenceIdeal.main_arg11).trans (Cert.ReferenceIdeal.Whole.arg_kept_11 m c)⟩)
    (Cert.ReferenceIdeal.ValueP.run_all (F := Ideal) m ρ)

/-- Both programs end with the plain program's last stage of the launch arrays in their result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v133 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.Whole.result_value m ρ c), (h c).2⟩)
      (Cert.KernelIdeal.Whole.run_result (F := Ideal) m ρ)
  · refine (θ_run Cert.ReferenceIdeal.defs _ _).mono (fun r h c => ⟨?_,
      (h c Cert.ReferenceIdeal.main_arg0).trans (Cert.ReferenceIdeal.Whole.arg_kept_0 m' c),
      (h c Cert.ReferenceIdeal.main_arg1).trans (Cert.ReferenceIdeal.Whole.arg_kept_1 m' c),
      (h c Cert.ReferenceIdeal.main_arg2).trans (Cert.ReferenceIdeal.Whole.arg_kept_2 m' c),
      (h c Cert.ReferenceIdeal.main_arg3).trans (Cert.ReferenceIdeal.Whole.arg_kept_3 m' c),
      (h c Cert.ReferenceIdeal.main_arg4).trans (Cert.ReferenceIdeal.Whole.arg_kept_4 m' c),
      (h c Cert.ReferenceIdeal.main_arg5).trans (Cert.ReferenceIdeal.Whole.arg_kept_5 m' c),
      (h c Cert.ReferenceIdeal.main_arg6).trans (Cert.ReferenceIdeal.Whole.arg_kept_6 m' c),
      (h c Cert.ReferenceIdeal.main_arg7).trans (Cert.ReferenceIdeal.Whole.arg_kept_7 m' c),
      (h c Cert.ReferenceIdeal.main_arg8).trans (Cert.ReferenceIdeal.Whole.arg_kept_8 m' c),
      (h c Cert.ReferenceIdeal.main_arg9).trans (Cert.ReferenceIdeal.Whole.arg_kept_9 m' c),
      (h c Cert.ReferenceIdeal.main_arg10).trans (Cert.ReferenceIdeal.Whole.arg_kept_10 m' c),
      (h c Cert.ReferenceIdeal.main_arg11).trans (Cert.ReferenceIdeal.Whole.arg_kept_11 m' c)⟩)
      (Cert.ReferenceIdeal.ValueP.run_all (F := Ideal) m' ρ')
    refine (h c Cert.ReferenceIdeal.main_v133).trans ((Cert.ReferenceIdeal.Whole.result_value m' c).trans ?_)
    obtain ⟨h0, h1, h2, h3, h4, h5, h6, h7, h8, h9, h10, h11⟩ := hagree c
    rewrite [h0, h1, h2, h3, h4, h5, h6, h7, h8, h9, h10, h11]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
